-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x16 : Shape := ⟨2, ![100000, 16]⟩
abbrev S100000 : Shape := ⟨1, ![100000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel

variable [Facts]

def fn {F : FTy → Type} [FloatOps F] (main_arg0 : IVec S2x3200000 32) (main_arg1 : FVec F S100000x16 .f32) (main_arg2 : IVec S100000 1) : IVec S_ 1 :=
  let main_v0 : FVec F S100000x16 .f32 := Host.absf main_arg1
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  main_v3
-- ==== Kernel.lean ====
abbrev S2x3200000 : Shape := ⟨2, ![2, 3200000]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S4000x16 : Shape := ⟨2, ![4000, 16]⟩
abbrev S3200000x16 : Shape := ⟨2, ![3200000, 16]⟩

abbrev nBuf : Space → Nat
  | .hbm => 105
  | .vmem => 76
  | .smem => 0
  | _ => 0

abbrev bufTy : (tb : Table) → Fin (tcTables nBuf tb) → BufTy
  | .hbm, ⟨0, _⟩ => ⟨S2x3200000, .i32⟩
  | .hbm, ⟨1, _⟩ => ⟨S100000x16, .f32⟩
  | .hbm, ⟨2, _⟩ => ⟨S100000, .i1⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x16, .f32⟩
  | .hbm, ⟨26, _⟩ => ⟨S100000x1, .i1⟩
  | .hbm, ⟨27, _⟩ => ⟨S100000x1, .i32⟩
  | .hbm, ⟨28, _⟩ => ⟨S100000x16, .i32⟩
  | .hbm, ⟨29, _⟩ => ⟨S100000x16, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S100000x16, .f32⟩
  | .hbm, ⟨44, _⟩ => ⟨S100000x16, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x16, .f32⟩
  | .hbm, ⟨69, _⟩ => ⟨S_, .f32⟩
  | .hbm, ⟨70, _⟩ => ⟨S100000x16, .f32⟩
  | .hbm, ⟨71, _⟩ => ⟨S3200000x1, .i32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S_, .i32⟩
  | .hbm, ⟨76, _⟩ => ⟨S3200000, .i32⟩
  | .hbm, ⟨77, _⟩ => ⟨S3200000, .i1⟩
  | .hbm, ⟨78, _⟩ => ⟨S_, .i32⟩
  | .hbm, ⟨79, _⟩ => ⟨S3200000, .i32⟩
  | .hbm, ⟨80, _⟩ => ⟨S3200000, .i32⟩
  | .hbm, ⟨81, _⟩ => ⟨S3200000, .i32⟩
  | .hbm, ⟨82, _⟩ => ⟨S3200000x1, .i32⟩
  | .hbm, ⟨83, _⟩ => ⟨S3200000x16, .f32⟩
  | .hbm, ⟨84, _⟩ => ⟨S_, .f32⟩
  | .hbm, ⟨85, _⟩ => ⟨S100000x16, .f32⟩
  | .hbm, ⟨86, _⟩ => ⟨S3200000x1, .i32⟩
  | .hbm, ⟨87, _⟩ => ⟨S100000x16, .f32⟩
  | .hbm, ⟨88, _⟩ => ⟨S100000x16, .f32⟩
  | .hbm, ⟨89, _⟩ => ⟨S100000x16, .f32⟩
  | .hbm, ⟨90, _⟩ => ⟨S_, .i32⟩
  | .hbm, ⟨91, _⟩ => ⟨S3200000, .i32⟩
  | .hbm, ⟨92, _⟩ => ⟨S3200000, .i1⟩
  | .hbm, ⟨93, _⟩ => ⟨S_, .i32⟩
  | .hbm, ⟨94, _⟩ => ⟨S3200000, .i32⟩
  | .hbm, ⟨95, _⟩ => ⟨S3200000, .i32⟩
  | .hbm, ⟨96, _⟩ => ⟨S3200000, .i32⟩
  | .hbm, ⟨97, _⟩ => ⟨S3200000x1, .i32⟩
  | .hbm, ⟨98, _⟩ => ⟨S3200000x16, .f32⟩
  | .hbm, ⟨99, _⟩ => ⟨S_, .f32⟩
  | .hbm, ⟨100, _⟩ => ⟨S100000x16, .f32⟩
  | .hbm, ⟨101, _⟩ => ⟨S3200000x1, .i32⟩
  | .hbm, ⟨102, _⟩ => ⟨S100000x16, .f32⟩
  | .hbm, ⟨103, _⟩ => ⟨S100000x16, .f32⟩
  | .hbm, ⟨104, _⟩ => ⟨S100000x16, .f32⟩
  | .local _ .vmem, ⟨0, _⟩ => ⟨S4000x16, .f32⟩
  | .local _ .vmem, ⟨1, _⟩ => ⟨S4000x16, .f32⟩
  | .local _ .vmem, ⟨2, _⟩ => ⟨S4000x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S4000x16, .f32⟩
  | .local _ .vmem, ⟨14, _⟩ => ⟨S4000x16, .i32⟩
  | .local _ .vmem, ⟨15, _⟩ => ⟨S4000x16, .i32⟩
  | .local _ .vmem, ⟨16, _⟩ => ⟨S4000x16, .f32⟩
  | .local _ .vmem, ⟨17, _⟩ => ⟨S4000x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S4000x16, .f32⟩
  | .local _ .vmem, ⟨22, _⟩ => ⟨S4000x16, .f32⟩
  | .local _ .vmem, ⟨23, _⟩ => ⟨S4000x16, .f32⟩
  | .local _ .vmem, ⟨24, _⟩ => ⟨S4000x16, .f32⟩
  | .local _ .vmem, ⟨25, _⟩ => ⟨S4000x16, .f32⟩
  | .local _ .vmem, ⟨26, _⟩ => ⟨S4000x16, .f32⟩
  | .local _ .vmem, ⟨27, _⟩ => ⟨S4000x16, .f32⟩
  | .local _ .vmem, ⟨28, _⟩ => ⟨S4000x16, .i32⟩
  | .local _ .vmem, ⟨29, _⟩ => ⟨S4000x16, .i32⟩
  | .local _ .vmem, ⟨30, _⟩ => ⟨S4000x16, .f32⟩
  | .local _ .vmem, ⟨31, _⟩ => ⟨S4000x16, .f32⟩
  | .local _ .vmem, ⟨32, _⟩ => ⟨S4000x16, .f32⟩
  | .local _ .vmem, ⟨33, _⟩ => ⟨S4000x16, .f32⟩
  | .local _ .vmem, ⟨34, _⟩ => ⟨S4000x16, .f32⟩
  | .local _ .vmem, ⟨35, _⟩ => ⟨S4000x16, .f32⟩
  | .local _ .vmem, ⟨36, _⟩ => ⟨S4000x16, .f32⟩
  | .local _ .vmem, ⟨37, _⟩ => ⟨S4000x16, .f32⟩
  | .local _ .vmem, ⟨38, _⟩ => ⟨S4000x16, .f32⟩
  | .local _ .vmem, ⟨39, _⟩ => ⟨S4000x16, .f32⟩
  | .local _ .vmem, ⟨40, _⟩ => ⟨S4000x16, .f32⟩
  | .local _ .vmem, ⟨41, _⟩ => ⟨S4000x16, .f32⟩
  | .local _ .vmem, ⟨42, _⟩ => ⟨S4000x16, .i32⟩
  | .local _ .vmem, ⟨43, _⟩ => ⟨S4000x16, .i32⟩
  | .local _ .vmem, ⟨44, _⟩ => ⟨S4000x16, .f32⟩
  | .local _ .vmem, ⟨45, _⟩ => ⟨S4000x16, .f32⟩
  | .local _ .vmem, ⟨46, _⟩ => ⟨S4000x16, .f32⟩
  | .local _ .vmem, ⟨47, _⟩ => ⟨S4000x16, .f32⟩
  | .local _ .vmem, ⟨48, _⟩ => ⟨S4000x16, .f32⟩
  | .local _ .vmem, ⟨49, _⟩ => ⟨S4000x16, .f32⟩
  | .local _ .vmem, ⟨50, _⟩ => ⟨S4000x16, .f32⟩
  | .local _ .vmem, ⟨51, _⟩ => ⟨S4000x16, .f32⟩
  | .local _ .vmem, ⟨52, _⟩ => ⟨S4000x16, .f32⟩
  | .local _ .vmem, ⟨53, _⟩ => ⟨S4000x16, .f32⟩
  | .local _ .vmem, ⟨54, _⟩ => ⟨S4000x16, .f32⟩
  | .local _ .vmem, ⟨55, _⟩ => ⟨S4000x16, .f32⟩
  | .local _ .vmem, ⟨56, _⟩ => ⟨S4000x16, .i32⟩
  | .local _ .vmem, ⟨57, _⟩ => ⟨S4000x16, .i32⟩
  | .local _ .vmem, ⟨58, _⟩ => ⟨S4000x16, .f32⟩
  | .local _ .vmem, ⟨59, _⟩ => ⟨S4000x16, .f32⟩
  | .local _ .vmem, ⟨60, _⟩ => ⟨S4000x16, .f32⟩
  | .local _ .vmem, ⟨61, _⟩ => ⟨S4000x16, .f32⟩
  | .local _ .vmem, ⟨62, _⟩ => ⟨S4000x16, .f32⟩
  | .local _ .vmem, ⟨63, _⟩ => ⟨S4000x16, .f32⟩
  | .local _ .vmem, ⟨64, _⟩ => ⟨S4000x16, .f32⟩
  | .local _ .vmem, ⟨65, _⟩ => ⟨S4000x16, .f32⟩
  | .local _ .vmem, ⟨66, _⟩ => ⟨S4000x16, .f32⟩
  | .local _ .vmem, ⟨67, _⟩ => ⟨S4000x16, .f32⟩
  | .local _ .vmem, ⟨68, _⟩ => ⟨S4000x16, .f32⟩
  | .local _ .vmem, ⟨69, _⟩ => ⟨S4000x16, .f32⟩
  | .local _ .vmem, ⟨70, _⟩ => ⟨S4000x16, .i32⟩
  | .local _ .vmem, ⟨71, _⟩ => ⟨S4000x16, .i32⟩
  | .local _ .vmem, ⟨72, _⟩ => ⟨S4000x16, .f32⟩
  | .local _ .vmem, ⟨73, _⟩ => ⟨S4000x16, .f32⟩
  | .local _ .vmem, ⟨74, _⟩ => ⟨S4000x16, .f32⟩
  | .local _ .vmem, ⟨75, _⟩ => ⟨S4000x16, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63_0 : Ref sig .tc := ⟨.hbm, 88, rfl⟩
abbrev main_v63_1 : Ref sig .tc := ⟨.hbm, 89, rfl⟩
abbrev main_c_15 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74_0 : Ref sig .tc := ⟨.hbm, 103, rfl⟩
abbrev main_v74_1 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg5_1 : Ref sig .tc := ⟨.vmem, 59, rfl⟩
abbrev cc4_stg6_0 : Ref sig .tc := ⟨.vmem, 60, rfl⟩
abbrev cc4_stg6_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg3_1 : Ref sig .tc := ⟨.vmem, 69, rfl⟩
abbrev cc5_stg4_0 : Ref sig .tc := ⟨.vmem, 70, rfl⟩
abbrev cc5_stg4_1 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57
abbrev cc4_sem5_0 : DmaSem sig := 58
abbrev cc4_sem5_1 : DmaSem sig := 59
abbrev cc4_sem6_0 : DmaSem sig := 60
abbrev cc4_sem6_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem3_1 : DmaSem sig := 69
abbrev cc5_sem4_0 : DmaSem sig := 70
abbrev cc5_sem4_1 : DmaSem sig := 71
abbrev cc5_sem5_0 : DmaSem sig := 72
abbrev cc5_sem5_1 : DmaSem sig := 73
abbrev cc5_sem6_0 : DmaSem sig := 74
abbrev cc5_sem6_1 : DmaSem sig := 75

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x16 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x16 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x16 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x16 .i32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x16 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x16 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4000x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x16 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  natLt_1_32 : 1 < 32
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  bcast_S_S100000x16 : S_.BroadcastsInDim S100000x16 (![] : Fin 0 → Fin S100000x16.rank)
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S100000x16.size a
  hwx0_1 : ∀ i : grid0.Coords, EltTy.bits .f32 = 32 ∨ (Rect.block (s := S100000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x16.size a ≤ S100000x16.size a
  hwx1_3 : ∀ i : grid1.Coords, EltTy.bits .f32 = 32 ∨ (Rect.block (s := S100000x16) S4000x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x16.size a ≤ S100000x16.size a
  hwx1_4 : ∀ i : grid1.Coords, EltTy.bits .i32 = 32 ∨ (Rect.block (s := S100000x16) S4000x16.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x16.size a ≤ S100000x16.size a
  hwx1_6 : ∀ i : grid1.Coords, EltTy.bits .f32 = 32 ∨ (Rect.block (s := S100000x16) S4000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x16.size a ≤ S100000x16.size a
  hwx2_1 : ∀ i : grid2.Coords, EltTy.bits .f32 = 32 ∨ (Rect.block (s := S100000x16) S4000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S100000x16.size a
  hwx2_3 : ∀ i : grid2.Coords, EltTy.bits .f32 = 32 ∨ (Rect.block (s := S100000x16) S4000x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x16.size a ≤ S100000x16.size a
  hwx2_4 : ∀ i : grid2.Coords, EltTy.bits .i32 = 32 ∨ (Rect.block (s := S100000x16) S4000x16.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S100000x16.size a
  hwx2_5 : ∀ i : grid2.Coords, EltTy.bits .f32 = 32 ∨ (Rect.block (s := S100000x16) S4000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x16.size a ≤ S100000x16.size a
  hwx2_6 : ∀ i : grid2.Coords, EltTy.bits .f32 = 32 ∨ (Rect.block (s := S100000x16) S4000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x16.size a ≤ S100000x16.size a
  hwx3_3 : ∀ i : grid3.Coords, EltTy.bits .f32 = 32 ∨ (Rect.block (s := S100000x16) S4000x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x16.size a ≤ S100000x16.size a
  hwx3_4 : ∀ i : grid3.Coords, EltTy.bits .i32 = 32 ∨ (Rect.block (s := S100000x16) S4000x16.size (cc3_transform_4 i) (hinb3_4 i)).WholeWords (EltTy.packing .i32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x16.size a ≤ S100000x16.size a
  hwx3_5 : ∀ i : grid3.Coords, EltTy.bits .f32 = 32 ∨ (Rect.block (s := S100000x16) S4000x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x16.size a ≤ S100000x16.size a
  hwx3_6 : ∀ i : grid3.Coords, EltTy.bits .f32 = 32 ∨ (Rect.block (s := S100000x16) S4000x16.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S100000x16.size a
  hwx4_0 : ∀ i : grid4.Coords, EltTy.bits .f32 = 32 ∨ (Rect.block (s := S100000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x16.size a ≤ S100000x16.size a
  hwx4_1 : ∀ i : grid4.Coords, EltTy.bits .f32 = 32 ∨ (Rect.block (s := S100000x16) S4000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S100000x16.size a
  hwx4_2 : ∀ i : grid4.Coords, EltTy.bits .f32 = 32 ∨ (Rect.block (s := S100000x16) S4000x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x16.size a ≤ S100000x16.size a
  hwx4_3 : ∀ i : grid4.Coords, EltTy.bits .f32 = 32 ∨ (Rect.block (s := S100000x16) S4000x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x16.size a ≤ S100000x16.size a
  hwx4_4 : ∀ i : grid4.Coords, EltTy.bits .i32 = 32 ∨ (Rect.block (s := S100000x16) S4000x16.size (cc4_transform_4 i) (hinb4_4 i)).WholeWords (EltTy.packing .i32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x16.size a ≤ S100000x16.size a
  hwx4_5 : ∀ i : grid4.Coords, EltTy.bits .f32 = 32 ∨ (Rect.block (s := S100000x16) S4000x16.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x16.size a ≤ S100000x16.size a
  hwx4_6 : ∀ i : grid4.Coords, EltTy.bits .f32 = 32 ∨ (Rect.block (s := S100000x16) S4000x16.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x16.size a ≤ S100000x16.size a
  hwx5_0 : ∀ i : grid5.Coords, EltTy.bits .f32 = 32 ∨ (Rect.block (s := S100000x16) S4000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x16.size a ≤ S100000x16.size a
  hwx5_1 : ∀ i : grid5.Coords, EltTy.bits .f32 = 32 ∨ (Rect.block (s := S100000x16) S4000x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x16.size a ≤ S100000x16.size a
  hwx5_2 : ∀ i : grid5.Coords, EltTy.bits .f32 = 32 ∨ (Rect.block (s := S100000x16) S4000x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x16.size a ≤ S100000x16.size a
  hwx5_3 : ∀ i : grid5.Coords, EltTy.bits .f32 = 32 ∨ (Rect.block (s := S100000x16) S4000x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x16.size a ≤ S100000x16.size a
  hwx5_4 : ∀ i : grid5.Coords, EltTy.bits .i32 = 32 ∨ (Rect.block (s := S100000x16) S4000x16.size (cc5_transform_4 i) (hinb5_4 i)).WholeWords (EltTy.packing .i32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x16.size a ≤ S100000x16.size a
  hwx5_5 : ∀ i : grid5.Coords, EltTy.bits .f32 = 32 ∨ (Rect.block (s := S100000x16) S4000x16.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x16.size a ≤ S100000x16.size a
  hwx5_6 : ∀ i : grid5.Coords, EltTy.bits .f32 = 32 ∨ (Rect.block (s := S100000x16) S4000x16.size (cc5_transform_6 i) (hinb5_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg1) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S4000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S4000x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S4000x16.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S4000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30_0) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S4000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S4000x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S4000x16.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S4000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S4000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41_0) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S4000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S4000x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S4000x16.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v52_0) S4000x16.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v52_1) S4000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v52_0) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S4000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S4000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S4000x16.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v18) S4000x16.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v63_0) S4000x16.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v63_1) S4000x16.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v63_0) S4000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S4000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S4000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v15) S4000x16.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v18) S4000x16.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v74_0) S4000x16.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v74_1) S4000x16.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S2x3200000 : Shape := ⟨2, ![2, 3200000]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x16 : Shape := ⟨2, ![3200000, 16]⟩

abbrev nBuf : Space → Nat
  | .hbm => 225
  | .vmem => 0
  | .smem => 0
  | _ => 0

abbrev hbmTy0_0 (i : Nat) : BufTy := match i % 128 with
  | 0 => ⟨S2x3200000, .i32⟩
  | 1 => ⟨S100000x16, .f32⟩
  | 2 => ⟨S100000, .i1⟩
  | 3 => ⟨S1x3200000, .i32⟩
  | 4 => ⟨S3200000, .i32⟩
  | 5 => ⟨S1x3200000, .i32⟩
  | 6 => ⟨S3200000, .i32⟩
  | 7 => ⟨S_, .f32⟩
  | 8 => ⟨S3200000, .f32⟩
  | 9 => ⟨S_, .f32⟩
  | 10 => ⟨S100000, .f32⟩
  | 11 => ⟨S3200000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S100000x1, .i1⟩
  | 25 => ⟨S_, .f32⟩
  | 26 => ⟨S100000x16, .f32⟩
  | 27 => ⟨S100000x16, .f32⟩
  | 28 => ⟨S100000x1, .f32⟩
  | 29 => ⟨S100000x16, .f32⟩
  | 30 => ⟨S100000x16, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x16, .f32⟩
  | 40 => ⟨S_, .f32⟩
  | 41 => ⟨S100000x16, .f32⟩
  | 42 => ⟨S3200000x1, .i32⟩
  | 43 => ⟨S100000x16, .f32⟩
  | 44 => ⟨S100000x1, .f32⟩
  | 45 => ⟨S100000x16, .f32⟩
  | 46 => ⟨S100000x16, .f32⟩
  | 47 => ⟨S_, .f32⟩
  | 48 => ⟨S100000x16, .f32⟩
  | 49 => ⟨S100000x16, .f32⟩
  | 50 => ⟨S100000x16, .f32⟩
  | 51 => ⟨S_, .f32⟩
  | 52 => ⟨S100000x16, .f32⟩
  | 53 => ⟨S100000x16, .f32⟩
  | 54 => ⟨S100000x16, .f32⟩
  | 55 => ⟨S_, .f32⟩
  | 56 => ⟨S_, .f32⟩
  | 57 => ⟨S_, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S100000x16, .i1⟩
  | 64 => ⟨S100000x16, .f32⟩
  | 65 => ⟨S_, .f32⟩
  | 66 => ⟨S100000x16, .f32⟩
  | 67 => ⟨S100000x16, .f32⟩
  | 68 => ⟨S100000x1, .f32⟩
  | 69 => ⟨S100000x16, .f32⟩
  | 70 => ⟨S100000x16, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x16, .f32⟩
  | 80 => ⟨S_, .f32⟩
  | 81 => ⟨S100000x16, .f32⟩
  | 82 => ⟨S3200000x1, .i32⟩
  | 83 => ⟨S100000x16, .f32⟩
  | 84 => ⟨S100000x1, .f32⟩
  | 85 => ⟨S100000x16, .f32⟩
  | 86 => ⟨S100000x16, .f32⟩
  | 87 => ⟨S_, .f32⟩
  | 88 => ⟨S100000x16, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x16, .f32⟩
  | 95 => ⟨S_, .f32⟩
  | 96 => ⟨S_, .f32⟩
  | 97 => ⟨S_, .f32⟩
  | 98 => ⟨S100000x16, .f32⟩
  | 99 => ⟨S100000x16, .f32⟩
  | 100 => ⟨S_, .f32⟩
  | 101 => ⟨S100000x16, .f32⟩
  | 102 => ⟨S100000x16, .f32⟩
  | 103 => ⟨S100000x16, .i1⟩
  | 104 => ⟨S100000x16, .f32⟩
  | 105 => ⟨S_, .f32⟩
  | 106 => ⟨S100000x16, .f32⟩
  | 107 => ⟨S100000x16, .f32⟩
  | 108 => ⟨S100000x1, .f32⟩
  | 109 => ⟨S100000x16, .f32⟩
  | 110 => ⟨S100000x16, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x16, .f32⟩
  | 120 => ⟨S_, .f32⟩
  | 121 => ⟨S100000x16, .f32⟩
  | 122 => ⟨S3200000x1, .i32⟩
  | 123 => ⟨S100000x16, .f32⟩
  | 124 => ⟨S100000x1, .f32⟩
  | 125 => ⟨S100000x16, .f32⟩
  | 126 => ⟨S100000x16, .f32⟩
  | 127 => ⟨S_, .f32⟩
  | _ => ⟨S2x3200000, .i32⟩

abbrev hbmTy0_1 (i : Nat) : BufTy := match i % 128 with
  | 0 => ⟨S100000x16, .f32⟩
  | 1 => ⟨S100000x16, .f32⟩
  | 2 => ⟨S100000x16, .f32⟩
  | 3 => ⟨S_, .f32⟩
  | 4 => ⟨S100000x16, .f32⟩
  | 5 => ⟨S100000x16, .f32⟩
  | 6 => ⟨S100000x16, .f32⟩
  | 7 => ⟨S_, .f32⟩
  | 8 => ⟨S_, .f32⟩
  | 9 => ⟨S_, .f32⟩
  | 10 => ⟨S100000x16, .f32⟩
  | 11 => ⟨S100000x16, .f32⟩
  | 12 => ⟨S_, .f32⟩
  | 13 => ⟨S100000x16, .f32⟩
  | 14 => ⟨S100000x16, .f32⟩
  | 15 => ⟨S100000x16, .i1⟩
  | 16 => ⟨S100000x16, .f32⟩
  | 17 => ⟨S_, .f32⟩
  | 18 => ⟨S100000x16, .f32⟩
  | 19 => ⟨S100000x16, .f32⟩
  | 20 => ⟨S100000x1, .f32⟩
  | 21 => ⟨S100000x16, .f32⟩
  | 22 => ⟨S100000x16, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x16, .f32⟩
  | 32 => ⟨S_, .f32⟩
  | 33 => ⟨S100000x16, .f32⟩
  | 34 => ⟨S3200000x1, .i32⟩
  | 35 => ⟨S100000x16, .f32⟩
  | 36 => ⟨S100000x1, .f32⟩
  | 37 => ⟨S100000x16, .f32⟩
  | 38 => ⟨S100000x16, .f32⟩
  | 39 => ⟨S_, .f32⟩
  | 40 => ⟨S100000x16, .f32⟩
  | 41 => ⟨S100000x16, .f32⟩
  | 42 => ⟨S100000x16, .f32⟩
  | 43 => ⟨S_, .f32⟩
  | 44 => ⟨S100000x16, .f32⟩
  | 45 => ⟨S100000x16, .f32⟩
  | 46 => ⟨S100000x16, .f32⟩
  | 47 => ⟨S_, .f32⟩
  | 48 => ⟨S_, .f32⟩
  | 49 => ⟨S_, .f32⟩
  | 50 => ⟨S100000x16, .f32⟩
  | 51 => ⟨S100000x16, .f32⟩
  | 52 => ⟨S_, .f32⟩
  | 53 => ⟨S100000x16, .f32⟩
  | 54 => ⟨S100000x16, .f32⟩
  | 55 => ⟨S100000x16, .i1⟩
  | 56 => ⟨S100000x16, .f32⟩
  | 57 => ⟨S_, .f32⟩
  | 58 => ⟨S100000x16, .f32⟩
  | 59 => ⟨S100000x16, .f32⟩
  | 60 => ⟨S100000x1, .f32⟩
  | 61 => ⟨S100000x16, .f32⟩
  | 62 => ⟨S100000x16, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000x16, .f32⟩
  | 72 => ⟨S_, .f32⟩
  | 73 => ⟨S100000x16, .f32⟩
  | 74 => ⟨S3200000x1, .i32⟩
  | 75 => ⟨S100000x16, .f32⟩
  | 76 => ⟨S100000x1, .f32⟩
  | 77 => ⟨S100000x16, .f32⟩
  | 78 => ⟨S100000x16, .f32⟩
  | 79 => ⟨S_, .f32⟩
  | 80 => ⟨S100000x16, .f32⟩
  | 81 => ⟨S100000x16, .f32⟩
  | 82 => ⟨S100000x16, .f32⟩
  | 83 => ⟨S_, .f32⟩
  | 84 => ⟨S100000x16, .f32⟩
  | 85 => ⟨S100000x16, .f32⟩
  | 86 => ⟨S100000x16, .f32⟩
  | 87 => ⟨S_, .f32⟩
  | 88 => ⟨S_, .f32⟩
  | 89 => ⟨S_, .f32⟩
  | 90 => ⟨S100000x16, .f32⟩
  | 91 => ⟨S100000x16, .f32⟩
  | 92 => ⟨S_, .f32⟩
  | 93 => ⟨S100000x16, .f32⟩
  | 94 => ⟨S100000x16, .f32⟩
  | 95 => ⟨S100000x16, .i1⟩
  | 96 => ⟨S100000x16, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v39 : Ref sig .tc := ⟨.hbm, 62, rfl⟩
abbrev main_call2_v0 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v65 : Ref sig .tc := ⟨.hbm, 102, rfl⟩
abbrev main_call4_v0 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_20 : Ref sig .tc := ⟨.hbm, 111, rfl⟩
abbrev main_v72 : Ref sig .tc := ⟨.hbm, 112, rfl⟩
abbrev main_v73 : Ref sig .tc := ⟨.hbm, 113, rfl⟩
abbrev main_c_21 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_22 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_23 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_24 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_25 : Ref sig .tc := ⟨.hbm, 135, rfl⟩
abbrev main_cst_26 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_v91 : Ref sig .tc := ⟨.hbm, 142, rfl⟩
abbrev main_call6_v0 : Ref sig .tc := ⟨.hbm, 143, rfl⟩
abbrev main_v92 : Ref sig .tc := ⟨.hbm, 144, rfl⟩
abbrev main_cst_27 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_28 : Ref sig .tc := ⟨.hbm, 151, rfl⟩
abbrev main_v98 : Ref sig .tc := ⟨.hbm, 152, rfl⟩
abbrev main_v99 : Ref sig .tc := ⟨.hbm, 153, rfl⟩
abbrev main_c_29 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_30 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_31 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_32 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_33 : Ref sig .tc := ⟨.hbm, 175, rfl⟩
abbrev main_cst_34 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_v117 : Ref sig .tc := ⟨.hbm, 182, rfl⟩
abbrev main_call8_v0 : Ref sig .tc := ⟨.hbm, 183, rfl⟩
abbrev main_v118 : Ref sig .tc := ⟨.hbm, 184, rfl⟩
abbrev main_cst_35 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_c_36 : Ref sig .tc := ⟨.hbm, 191, rfl⟩
abbrev main_v124 : Ref sig .tc := ⟨.hbm, 192, rfl⟩
abbrev main_v125 : Ref sig .tc := ⟨.hbm, 193, rfl⟩
abbrev main_c_37 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_cst_38 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_cst_39 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_40 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_41 : Ref sig .tc := ⟨.hbm, 215, rfl⟩
abbrev main_cst_42 : Ref sig .tc := ⟨.hbm, 216, rfl⟩
abbrev main_call9_v0 : Ref sig .tc := ⟨.hbm, 217, rfl⟩
abbrev main_call9_v1 : Ref sig .tc := ⟨.hbm, 218, rfl⟩
abbrev main_call9_v2 : Ref sig .tc := ⟨.hbm, 219, rfl⟩
abbrev main_call9_v3 : Ref sig .tc := ⟨.hbm, 220, rfl⟩
abbrev main_call9_v4 : Ref sig .tc := ⟨.hbm, 221, rfl⟩
abbrev main_v143 : Ref sig .tc := ⟨.hbm, 222, rfl⟩
abbrev main_call10_v0 : Ref sig .tc := ⟨.hbm, 223, rfl⟩
abbrev main_v144 : Ref sig .tc := ⟨.hbm, 224, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Region0.lean ====
/- Region 0 of the program: the row-scaling kernel Z = X · D over 4000×16 blocks of 100000×16 arrays (25 grid
   points, one block per point). What the body leaves in its output block as a function of the two input blocks, the
   body's Hoare triple, the pipeline's proof data at arbitrary entry contents V, and the body obligation at every
   point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the array at every grid point, whether or
    not the point fetches it, for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the array at every grid point, whether or
    not the point fetches it, for any proof data whose array is the entry contents and whose body leaves the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 4000×16 block. -/
abbrev r0_0 : Rect S4000x16 := Rect.unit (s := S4000x16) ![0, 0] S4000x16.size inb_S4000x16_S4000x16_0_0

/-- The output block after the body: the product of the two input blocks, stored over the whole block. -/
def out0_2 (x0 x1 : Vec F S4000x16 .f32) : Vec F S4000x16 .f32 :=
  View.canon [⟨r0_0, k0_pay1 (View.ld x0 r0_0) (View.ld x1 r0_0)⟩]

/-- The single store covers the block. -/
theorem cover0_2 (p0 : Vec F S4000x16 .f32) (y : S4000x16.Idx) :
    ∃ pc ∈ ([⟨r0_0, p0⟩] : List (View.Piece (Elt F) S4000x16 .f32)), y ∈ pc.1.set :=
  View.cover_of_tiled [⟨r0_0, p0⟩] S4000x16.size (by rfl) y

set_option maxHeartbeats 1000000 in
/-- The body on whole staging buffers: the inputs are left as found, the output ends at out0_2 of the inputs. -/
theorem sound_kernel0 (c : Dev nD) (E : Set ℕ) (i : grid0.Coords) (arg1 : Memref sig .tc .vmem S4000x16 .f32) (harg1 : arg1.IsWhole) (arg2 : Memref sig .tc .vmem S4000x16 .f32) (harg2 : arg2.IsWhole) (arg3 : Memref sig .tc .vmem S4000x16 .f32) (harg3 : arg3.IsWhole)
    (x0 x1 : Vec F S4000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1.lean ====
/- Region 1 of the program: the first propagation step (its windows 0 and 1 are both the feature array) over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the array at every grid point, whether or
    not the point fetches it, for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the array at every grid point, whether or
    not the point fetches it, for any proof data whose array is the entry contents and whose body leaves the block
    in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the array at every grid point, whether or
    not the point fetches it, for any proof data whose array is the entry contents and whose body leaves the block
    in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the array at every grid point, whether or
    not the point fetches it, for any proof data whose array is the entry contents and whose body leaves the block
    in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the array at every grid point, whether or
    not the point fetches it, for any proof data whose array is the entry contents and whose body leaves the block
    in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 4000×16 block. -/
abbrev r1_0 : Rect S4000x16 := Rect.unit (s := S4000x16) ![0, 0] S4000x16.size inb_S4000x16_S4000x16_0_0

/-- The next-iterate block after the body, from the five input blocks (x0 … x4 in window order). -/
def out1_5 (x0 x1 x2 x3 : Vec F S4000x16 .f32) (x4 : Vec F S4000x16 .i32) : Vec F S4000x16 .f32 :=
  View.canon [⟨r1_0, k1_pay1 (View.ld x2 r1_0) (View.ld x3 r1_0) (View.ld x0 r1_0) (View.ld x1 r1_0) (View.ld x4 r1_0) (View.ld x1 r1_0)⟩]

/-- The scaled next-iterate block after the body. -/
def out1_6 (x0 x1 x2 x3 : Vec F S4000x16 .f32) (x4 : Vec F S4000x16 .i32) : Vec F S4000x16 .f32 :=
  View.canon [⟨r1_0, k1_pay2 (View.ld x2 r1_0) (View.ld x3 r1_0) (View.ld x0 r1_0) (View.ld x1 r1_0) (View.ld x4 r1_0) (View.ld x1 r1_0) (View.ld x3 r1_0)⟩]

/-- A single whole-block store covers the block. -/
theorem cover1_5 (p0 : Vec F S4000x16 .f32) (y : S4000x16.Idx) :
    ∃ pc ∈ ([⟨r1_0, p0⟩] : List (View.Piece (Elt F) S4000x16 .f32)), y ∈ pc.1.set :=
  View.cover_of_tiled [⟨r1_0, p0⟩] S4000x16.size (by rfl) y

set_option maxHeartbeats 2000000 in
/-- The body on whole staging buffers: the inputs are left as found, the two outputs end at out1_5 and out1_6 of the
    inputs. -/
theorem sound_kernel1 (c : Dev nD) (E : Set ℕ) (i : grid1.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_5 _)

/-! ## The pipeline's proof data -/

/-- The proof data of pipeline 1 on core c: the arrays as the region finds them; after the body at point t each
    input's buffer at its block and each output's at its function of the input blocks. Windows 0 and 1 read one
    array, so each holds half of it (the left and the right half of the full share, which compose to the full share);
    every other window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Region1Seg.lean ====
/- Region 1 of the program, whose windows 0 and 1 are windows on ONE array: how the region's arrays come out of the
   core's unscoped buffers when the region is entered and go back when it is left. The seven windows name six distinct
   buffers; the pipeline's arrays are the six buffers' points-tos, the shared buffer's split into the left and right
   halves of the full share for windows 0 and 1 (which only read it, so both halves end at the entry contents and join
   to the whole again). Stated for any proof data with those shares, then at the region's own proof data; with the
   read-back lemma for a valuation updated at the windows' arrays when two windows name one buffer. -/
import proofs.«169070_j69999376990389_2_alg».proof.Proof.Region1
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers behind the windows' arrays -/

/-- The six distinct buffers behind the seven windows' arrays, each named by the first window on it: window 1's
    array is window 0's. -/
def arrIdx1 : Fin 6 → Fin 7 := ![0, 2, 3, 4, 5, 6]

set_option maxHeartbeats 400000 in
theorem arrRef1_image : Finset.univ.image (Pipeline.arrRef spec1) = Finset.univ.image (fun k : Fin 6 => Pipeline.arrRef spec1 (arrIdx1 k)) := by decide

set_option maxHeartbeats 400000 in
theorem arrRef1_inj : Function.Injective (fun k : Fin 6 => Pipeline.arrRef spec1 (arrIdx1 k)) := by decide

theorem bigSep_A1 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

set_option maxHeartbeats 400000 in
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = bigSep Finset.univ fun k : Fin 6 =>
          (((c : Thread nD τ).loc (Pipeline.arrRef spec1 (arrIdx1 k))) ↦{fullShare} V (Pipeline.arrRef spec1 (arrIdx1 k)) : sProp 𝕄) := by
  unfold Pipeline.arrBufs
  rw [arrRef1_image, show Finset.univ.image (fun k : Fin 6 => Pipeline.arrRef spec1 (arrIdx1 k))
      = Finset.univ.map ⟨fun k : Fin 6 => Pipeline.arrRef spec1 (arrIdx1 k), arrRef1_inj⟩ from (Finset.map_eq_image ⟨_, arrRef1_inj⟩ Finset.univ).symm,
    bigSep_map]
  rfl

/-! ## The proof data's arrays are those buffers, the shared one split in two shares -/

set_option maxHeartbeats 1000000 in
/-- The pipeline's arrays at contents read off a valuation V of the core's buffers are the six buffers behind them
    whole at V: windows 0 and 1 hold the left and the right half of one buffer's points-to, which compose to the
    whole; every other window holds its buffer whole. -/
theorem arrays1_eq {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G = (Pipeline.arrBufs (Ix := Unit) (Name := ℕ) (U := UR sig nD τ) (Lvl := ℕ) spec1 c V : sProp 𝕄) := by
  have hs0 : dat.share 0 = fullShare.left := by unfold Dat.share; rw [hq0]; rfl
  have hs1 : dat.share 1 = fullShare.right := by unfold Dat.share; rw [hq1]; rfl
  have hs2 : dat.share 2 = fullShare := by unfold Dat.share; rw [hq2]; rfl
  have hs3 : dat.share 3 = fullShare := by unfold Dat.share; rw [hq3]; rfl
  have hs4 : dat.share 4 = fullShare := by unfold Dat.share; rw [hq4]; rfl
  have hs5 : dat.share 5 = fullShare := rfl
  have hs6 : dat.share 6 = fullShare := rfl
  unfold Dat.arrays
  rw [arrBufs1_eq, bigSep_W1, bigSep_A1, hs0, hs1, hs2, hs3, hs4, hs5, hs6, hG 0, hG 1, hG 2, hG 3, hG 4, hG 5, hG 6,
    (arr_whole1 0).set_eq_univ, (arr_whole1 2).set_eq_univ, (arr_whole1 3).set_eq_univ,
    (arr_whole1 4).set_eq_univ, (arr_whole1 5).set_eq_univ, (arr_whole1 6).set_eq_univ]
  refine BI.Entails.antisymm ?_ ?_
  · exact sep_assoc.2.trans (sep_mono (pointsTo_share (PosShare.mem_left_op_right fullShare)).2 .rfl)
  · exact (sep_mono (pointsTo_share (PosShare.mem_left_op_right fullShare)).1 .rfl).trans sep_assoc.1

/-! ## The region's arrays out of the core's unscoped buffers, and back -/

set_option maxHeartbeats 1000000 in
/-- ENTRY: a core's unscoped buffers at contents V are the pipeline's arrays at the proof data's entry contents — those
    being read off V —, the shared buffer's points-to split between windows 0 and 1, and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V : (b : Ref sig .tc) → Buf (Elt F) ((c : Thread nD τ).loc b))
    (hA : ∀ w, dat.A w = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [Pipeline.unscopedBufs_split₀ cfgs 1 winFacts₀1.arr_unscoped c V,
    arrays1_eq dat hq0 hq1 hq2 hq3 hq4 V (dat.arrAt · 0) (fun w => by rw [show dat.arrAt w 0 = dat.A w from rfl, hA])]
  exact .rfl

set_option maxHeartbeats 1000000 in
/-- EXIT: the pipeline's arrays at contents G and the unscoped rest at V are the core's unscoped buffers at any
    valuation V' that has the arrays at G and agrees with V off them; windows 0 and 1 hold the same contents of their
    one buffer (both are V' there), and their two shares join to the whole. -/
theorem unscopedBufs_of_arrays1 {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  rw [Pipeline.unscopedBufs_split₀ cfgs 1 winFacts₀1.arr_unscoped c V', arrays1_eq dat hq0 hq1 hq2 hq3 hq4 V' G hG]
  refine sep_mono .rfl (Entails.of_eq ?_)
  unfold Pipeline.unscopedRest
  exact bigSep_congr fun b hb => by rw [hrest b (Finset.mem_sdiff.mp hb).2]

/-! ## The core's buffer contents with the region's arrays replaced -/

set_option maxHeartbeats 1000000 in
/-- Two windows name one buffer only if they are the same window or windows 0 and 1. -/
theorem arrRef1_eq_cases : ∀ w' w : Fin 7, Pipeline.arrRef spec1 w' = Pipeline.arrRef spec1 w → w' = w ∨ (w' = 0 ∧ w = 1) ∨ (w' = 1 ∧ w = 0) := by decide

set_option maxHeartbeats 1000000 in
/-- The contents with the pipeline's arrays at A and every other buffer as in W read A back at each window's array,
    provided windows 0 and 1, which name one buffer, are given the same contents. -/
theorem withArrays1_arr (c : Dev nD) (W : Valuation τ sig (Elt F))
    (A : (w : Fin 7) → Buf (Elt F) ((spec1 w).arr.view.loc (c : Thread nD τ))) (h01 : A 0 = A 1) (w : Fin 7) :
    Pipeline.withArrays spec1 c W A (Proc.devRef .tc (Pipeline.arrRef spec1 w)) = A w := by
  unfold Pipeline.withArrays
  have h : ∃ w', Proc.devRef .tc (Pipeline.arrRef spec1 w') = Proc.devRef (τ := τ) .tc (Pipeline.arrRef spec1 w) := ⟨w, rfl⟩
  rw [dif_pos h]
  suffices ∀ (w' : Fin 7) (e : Proc.devRef .tc (Pipeline.arrRef spec1 w') = Proc.devRef (τ := τ) .tc (Pipeline.arrRef spec1 w)),
      cast (congrArg (fun b' : DevRef τ sig => b'.ty.Contents (Elt F)) e) (A w') = A w from this _ h.choose_spec
  intro w' e
  rcases arrRef1_eq_cases w' w (Proc.devRef_injective _ e) with rfl | ⟨rfl, rfl⟩ | ⟨rfl, rfl⟩
  · rfl
  · exact (cast_eq _ _).trans h01
  · exact (cast_eq _ _).trans h01.symm

/-! ## At the region's own proof data -/

section AtDat

-- the TensorCore's buffer contents when the region is entered
variable (V : (c : Dev nD) → (b : Ref sig .tc) → Buf (Elt F) ((c : Thread nD τ).loc b))

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-- ENTRY: the core's unscoped buffers at the entry contents are the region's arrays at the proof data's entry
    contents and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) :=
  arrays_of_unscopedBufs1 (dat1 V c) (q1_0 V c) (q1_1 V c) (q1_2 V c) (q1_3 V c) (q1_4 V c) (V c) (A_eq1 V c)

/-- EXIT: the region's arrays at what the pipeline leaves and the unscoped rest as entered are the core's unscoped
    buffers at any valuation V' that has the arrays at what the pipeline leaves and agrees with the entry contents
    off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) :=
  unscopedBufs_of_arrays1 (dat1 V c) (q1_0 V c) (q1_1 V c) (q1_2 V c) (q1_3 V c) (q1_4 V c) (V c) V'
    ((dat1 V c).arrAt · cfg1.N) hF hrest

/-- An input window's array is never written: it holds the entry contents after any number of points. -/
theorem arrAt1_in (c : Dev nD) (w : Fin cfg1.W) (hw : (cfg1.win w).isOut = false) (t : ℕ) :
    (dat1 V c).arrAt w t = V c (Pipeline.arrRef spec1 w) :=
  ((dat1 V c).arrAt_in w hw t).trans (A_eq1 V c w)

/-- Windows 0 and 1 end holding the same contents of their one buffer. -/
theorem arrAt1_01 (c : Dev nD) (t : ℕ) : (dat1 V c).arrAt 0 t = (dat1 V c).arrAt 1 t :=
  (arrAt1_in V c 0 rfl t).trans (arrAt1_in V c 1 rfl t).symm

/-- The contents with the region's arrays at what the pipeline leaves and every other buffer as in W read that back
    at each window's array. -/
theorem withArrays1_arrAt (c : Dev nD) (W : Valuation τ sig (Elt F)) (w : Fin cfg1.W) :
    Pipeline.withArrays spec1 c W (fun w => (dat1 V c).arrAt w cfg1.N) (Proc.devRef .tc (Pipeline.arrRef spec1 w))
      = (dat1 V c).arrAt w cfg1.N :=
  withArrays1_arr c W (fun w => (dat1 V c).arrAt w cfg1.N) (arrAt1_01 V c cfg1.N) w

end AtDat

end Cert.KernelIdeal.Fr
end
-- ==== Proof.Region2.lean ====
/- Region 2 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block of the array at every grid point, whether or
    not the point fetches it, for any proof data whose array is the entry contents and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block of the array at every grid point, whether or
    not the point fetches it, for any proof data whose array is the entry contents and whose body leaves the block
    in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block of the array at every grid point, whether or
    not the point fetches it, for any proof data whose array is the entry contents and whose body leaves the block
    in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block of the array at every grid point, whether or
    not the point fetches it, for any proof data whose array is the entry contents and whose body leaves the block
    in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block of the array at every grid point, whether or
    not the point fetches it, for any proof data whose array is the entry contents and whose body leaves the block
    in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 4000×16 block. -/
abbrev r2_0 : Rect S4000x16 := Rect.unit (s := S4000x16) ![0, 0] S4000x16.size inb_S4000x16_S4000x16_0_0

/-- The next-iterate block after the body, from the five input blocks (x0 … x4 in window order). -/
def out2_5 (x0 x1 x2 x3 : Vec F S4000x16 .f32) (x4 : Vec F S4000x16 .i32) : Vec F S4000x16 .f32 :=
  View.canon [⟨r2_0, k2_pay1 (View.ld x2 r2_0) (View.ld x3 r2_0) (View.ld x0 r2_0) (View.ld x1 r2_0) (View.ld x4 r2_0) (View.ld x1 r2_0)⟩]

/-- The scaled next-iterate block after the body. -/
def out2_6 (x0 x1 x2 x3 : Vec F S4000x16 .f32) (x4 : Vec F S4000x16 .i32) : Vec F S4000x16 .f32 :=
  View.canon [⟨r2_0, k2_pay2 (View.ld x2 r2_0) (View.ld x3 r2_0) (View.ld x0 r2_0) (View.ld x1 r2_0) (View.ld x4 r2_0) (View.ld x1 r2_0) (View.ld x3 r2_0)⟩]

/-- A single whole-block store covers the block. -/
theorem cover2_5 (p0 : Vec F S4000x16 .f32) (y : S4000x16.Idx) :
    ∃ pc ∈ ([⟨r2_0, p0⟩] : List (View.Piece (Elt F) S4000x16 .f32)), y ∈ pc.1.set :=
  View.cover_of_tiled [⟨r2_0, p0⟩] S4000x16.size (by rfl) y

set_option maxHeartbeats 2000000 in
/-- The body on whole staging buffers: the inputs are left as found, the two outputs end at out2_5 and out2_6 of the
    inputs. -/
theorem sound_kernel2 (c : Dev nD) (E : Set ℕ) (i : grid2.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__update_kernel i arg1 harg1 arg2 harg2 arg3 harg3 arg4 harg4 arg5 harg5 arg6 harg6 arg7 harg7) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-! ## The pipeline's proof data -/

/-- The proof data of pipeline 2 on core c: the arrays as the region finds them; after the body at point t each
    input's buffer at its block and each output's at its function of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Region3.lean ====
/- Region 3 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block of the array at every grid point, whether or
    not the point fetches it, for any proof data whose array is the entry contents and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block of the array at every grid point, whether or
    not the point fetches it, for any proof data whose array is the entry contents and whose body leaves the block
    in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block of the array at every grid point, whether or
    not the point fetches it, for any proof data whose array is the entry contents and whose body leaves the block
    in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block of the array at every grid point, whether or
    not the point fetches it, for any proof data whose array is the entry contents and whose body leaves the block
    in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block of the array at every grid point, whether or
    not the point fetches it, for any proof data whose array is the entry contents and whose body leaves the block
    in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole 4000×16 block. -/
abbrev r3_0 : Rect S4000x16 := Rect.unit (s := S4000x16) ![0, 0] S4000x16.size inb_S4000x16_S4000x16_0_0

/-- The next-iterate block after the body, from the five input blocks (x0 … x4 in window order). -/
def out3_5 (x0 x1 x2 x3 : Vec F S4000x16 .f32) (x4 : Vec F S4000x16 .i32) : Vec F S4000x16 .f32 :=
  View.canon [⟨r3_0, k3_pay1 (View.ld x2 r3_0) (View.ld x3 r3_0) (View.ld x0 r3_0) (View.ld x1 r3_0) (View.ld x4 r3_0) (View.ld x1 r3_0)⟩]

/-- The scaled next-iterate block after the body. -/
def out3_6 (x0 x1 x2 x3 : Vec F S4000x16 .f32) (x4 : Vec F S4000x16 .i32) : Vec F S4000x16 .f32 :=
  View.canon [⟨r3_0, k3_pay2 (View.ld x2 r3_0) (View.ld x3 r3_0) (View.ld x0 r3_0) (View.ld x1 r3_0) (View.ld x4 r3_0) (View.ld x1 r3_0) (View.ld x3 r3_0)⟩]

/-- A single whole-block store covers the block. -/
theorem cover3_5 (p0 : Vec F S4000x16 .f32) (y : S4000x16.Idx) :
    ∃ pc ∈ ([⟨r3_0, p0⟩] : List (View.Piece (Elt F) S4000x16 .f32)), y ∈ pc.1.set :=
  View.cover_of_tiled [⟨r3_0, p0⟩] S4000x16.size (by rfl) y

set_option maxHeartbeats 2000000 in
/-- The body on whole staging buffers: the inputs are left as found, the two outputs end at out3_5 and out3_6 of the
    inputs. -/
theorem sound_kernel3 (c : Dev nD) (E : Set ℕ) (i : grid3.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_5 _)

/-! ## The pipeline's proof data -/

/-- The proof data of pipeline 3 on core c: the arrays as the region finds them; after the body at point t each
    input's buffer at its block and each output's at its function of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.Region4.lean ====
/- Region 4 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block of the array at every grid point, whether or
    not the point fetches it, for any proof data whose array is the entry contents and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block of the array at every grid point, whether or
    not the point fetches it, for any proof data whose array is the entry contents and whose body leaves the block
    in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block of the array at every grid point, whether or
    not the point fetches it, for any proof data whose array is the entry contents and whose body leaves the block
    in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block of the array at every grid point, whether or
    not the point fetches it, for any proof data whose array is the entry contents and whose body leaves the block
    in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds the window's block of the array at every grid point, whether or
    not the point fetches it, for any proof data whose array is the entry contents and whose body leaves the block
    in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes: the whole 4000×16 block. -/
abbrev r4_0 : Rect S4000x16 := Rect.unit (s := S4000x16) ![0, 0] S4000x16.size inb_S4000x16_S4000x16_0_0

/-- The next-iterate block after the body, from the five input blocks (x0 … x4 in window order). -/
def out4_5 (x0 x1 x2 x3 : Vec F S4000x16 .f32) (x4 : Vec F S4000x16 .i32) : Vec F S4000x16 .f32 :=
  View.canon [⟨r4_0, k4_pay1 (View.ld x2 r4_0) (View.ld x3 r4_0) (View.ld x0 r4_0) (View.ld x1 r4_0) (View.ld x4 r4_0) (View.ld x1 r4_0)⟩]

/-- The scaled next-iterate block after the body. -/
def out4_6 (x0 x1 x2 x3 : Vec F S4000x16 .f32) (x4 : Vec F S4000x16 .i32) : Vec F S4000x16 .f32 :=
  View.canon [⟨r4_0, k4_pay2 (View.ld x2 r4_0) (View.ld x3 r4_0) (View.ld x0 r4_0) (View.ld x1 r4_0) (View.ld x4 r4_0) (View.ld x1 r4_0) (View.ld x3 r4_0)⟩]

/-- A single whole-block store covers the block. -/
theorem cover4_5 (p0 : Vec F S4000x16 .f32) (y : S4000x16.Idx) :
    ∃ pc ∈ ([⟨r4_0, p0⟩] : List (View.Piece (Elt F) S4000x16 .f32)), y ∈ pc.1.set :=
  View.cover_of_tiled [⟨r4_0, p0⟩] S4000x16.size (by rfl) y

set_option maxHeartbeats 2000000 in
/-- The body on whole staging buffers: the inputs are left as found, the two outputs end at out4_5 and out4_6 of the
    inputs. -/
theorem sound_kernel4 (c : Dev nD) (E : Set ℕ) (i : grid4.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__update_kernel i arg1 harg1 arg2 harg2 arg3 harg3 arg4 harg4 arg5 harg5 arg6 harg6 arg7 harg7) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_5 _)

/-! ## The pipeline's proof data -/

/-- The proof data of pipeline 4 on core c: the arrays as the region finds them; after the body at point t each
    input's buffer at its block and each output's at its function of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.Region5.lean ====
/- Region 5 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block of the array at every grid point, whether or
    not the point fetches it, for any proof data whose array is the entry contents and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block of the array at every grid point, whether or
    not the point fetches it, for any proof data whose array is the entry contents and whose body leaves the block
    in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block of the array at every grid point, whether or
    not the point fetches it, for any proof data whose array is the entry contents and whose body leaves the block
    in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds the window's block of the array at every grid point, whether or
    not the point fetches it, for any proof data whose array is the entry contents and whose body leaves the block
    in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds the window's block of the array at every grid point, whether or
    not the point fetches it, for any proof data whose array is the entry contents and whose body leaves the block
    in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body reads and writes: the whole 4000×16 block. -/
abbrev r5_0 : Rect S4000x16 := Rect.unit (s := S4000x16) ![0, 0] S4000x16.size inb_S4000x16_S4000x16_0_0

/-- The next-iterate block after the body, from the five input blocks (x0 … x4 in window order). -/
def out5_5 (x0 x1 x2 x3 : Vec F S4000x16 .f32) (x4 : Vec F S4000x16 .i32) : Vec F S4000x16 .f32 :=
  View.canon [⟨r5_0, k5_pay1 (View.ld x2 r5_0) (View.ld x3 r5_0) (View.ld x0 r5_0) (View.ld x1 r5_0) (View.ld x4 r5_0) (View.ld x1 r5_0)⟩]

/-- The scaled next-iterate block after the body. -/
def out5_6 (x0 x1 x2 x3 : Vec F S4000x16 .f32) (x4 : Vec F S4000x16 .i32) : Vec F S4000x16 .f32 :=
  View.canon [⟨r5_0, k5_pay2 (View.ld x2 r5_0) (View.ld x3 r5_0) (View.ld x0 r5_0) (View.ld x1 r5_0) (View.ld x4 r5_0) (View.ld x1 r5_0) (View.ld x3 r5_0)⟩]

/-- A single whole-block store covers the block. -/
theorem cover5_5 (p0 : Vec F S4000x16 .f32) (y : S4000x16.Idx) :
    ∃ pc ∈ ([⟨r5_0, p0⟩] : List (View.Piece (Elt F) S4000x16 .f32)), y ∈ pc.1.set :=
  View.cover_of_tiled [⟨r5_0, p0⟩] S4000x16.size (by rfl) y

set_option maxHeartbeats 2000000 in
/-- The body on whole staging buffers: the inputs are left as found, the two outputs end at out5_5 and out5_6 of the
    inputs. -/
theorem sound_kernel5 (c : Dev nD) (E : Set ℕ) (i : grid5.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4) ∗ owns (c : Thread nD τ) arg7 fullShare (out5_6 x0 x1 x2 x3 x4)) -∗ K ⟨⟩))
      ⊢ wp frame (wpE (defs₀ (F := F)) Variants.none c none) E (cc5__update_kernel i arg1 harg1 arg2 harg2 arg3 harg3 arg4 harg4 arg5 harg5 arg6 harg6 arg7 harg7) K := by
  simp only [cc5__update_kernel_eq_skeleton]; unfold cc5__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_5 _)

/-! ## The pipeline's proof data -/

/-- The proof data of pipeline 5 on core c: the arrays as the region finds them; after the body at point t each
    input's buffer at its block and each output's at its function of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.Run.lean ====
/- The run of the whole program: the contents of every unscoped buffer at each boundary between host stretches and
   regions, as a fold from the launch memory; every region's proof data at its entry contents; each region as a
   segment over the thread state "every unscoped buffer held at the boundary's contents"; and the launch, whose
   conclusion reads every unscoped buffer of the final memory at the last boundary's contents. -/
import proofs.«169070_j69999376990389_2_alg».proof.Proof.Gen.KernelIdeal.Launch
import proofs.«169070_j69999376990389_2_alg».proof.Proof.Gen.KernelIdeal.Skeleton
import proofs.«169070_j69999376990389_2_alg».proof.Proof.Gen.KernelIdeal.Points
import proofs.«169070_j69999376990389_2_alg».proof.Proof.Gen.KernelIdeal.Regions
import proofs.«169070_j69999376990389_2_alg».proof.Proof.Region0
import proofs.«169070_j69999376990389_2_alg».proof.Proof.Region1
import proofs.«169070_j69999376990389_2_alg».proof.Proof.Region1Seg
import proofs.«169070_j69999376990389_2_alg».proof.Proof.Region2
import proofs.«169070_j69999376990389_2_alg».proof.Proof.Region3
import proofs.«169070_j69999376990389_2_alg».proof.Proof.Region4
import proofs.«169070_j69999376990389_2_alg».proof.Proof.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch hostOps0_1. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After the host stretch hostOps0_2. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch hostOps1. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its two output arrays at what the pipeline leaves, every other buffer as entered (its windows 0
    and 1 are one array, an input, which it leaves as found). -/
def W6 (c : Dev nD) : Valuation τ sig (Elt F) :=
  Function.update (Function.update (W5 m ρ c) (Proc.devRef .tc main_v30_0) ((dat1 (V5 m ρ) c).arrAt 5 cfg1.N))
    (Proc.devRef .tc main_v30_1) ((dat1 (V5 m ρ) c).arrAt 6 cfg1.N)
abbrev V6 : (c : Dev nD) → (b : Ref sig .tc) → Buf (Elt F) ((c : Thread nD τ).loc b) := fun c b => W6 m ρ c b
/-- Region 1 changes only its two output arrays. -/
theorem W6_kept (c : Dev nD) (r : Ref sig .tc) (h : r ∉ ([main_v30_0, main_v30_1] : List (Ref sig .tc))) : W6 m ρ c r = W5 m ρ c r := by
  simp only [W6, Function.update_of_ne (StableHlo.devRef_ne_of_ne (List.ne_of_not_mem_cons h) : (Proc.devRef .tc r : DevRef τ sig) ≠ Proc.devRef .tc main_v30_0), Function.update_of_ne (StableHlo.devRef_ne_of_ne (List.ne_of_not_mem_cons (List.not_mem_of_not_mem_cons h)) : (Proc.devRef .tc r : DevRef τ sig) ≠ Proc.devRef .tc main_v30_1)]
theorem W6_v30_0 (c : Dev nD) : W6 m ρ c main_v30_0 = (dat1 (V5 m ρ) c).arrAt 5 cfg1.N := by
  simp only [W6, Function.update_of_ne (StableHlo.devRef_ne_of_ne (by decide) : (Proc.devRef .tc main_v30_0 : DevRef τ sig) ≠ Proc.devRef .tc main_v30_1), Function.update_self]
theorem W6_v30_1 (c : Dev nD) : W6 m ρ c main_v30_1 = (dat1 (V5 m ρ) c).arrAt 6 cfg1.N := by
  simp only [W6, Function.update_self]
theorem hF1 (c : Dev nD) (w : Fin cfg1.W) : (dat1 (V5 m ρ) c).arrAt w cfg1.N = V6 m ρ c (Pipeline.arrRef spec1 w) := by
  match w with
  | ⟨0, _⟩ => exact (arrAt1_in (V5 m ρ) c 0 rfl _).trans (W6_kept m ρ c main_arg1 (by decide)).symm
  | ⟨1, _⟩ => exact (arrAt1_in (V5 m ρ) c 1 rfl _).trans (W6_kept m ρ c main_arg1 (by decide)).symm
  | ⟨2, _⟩ => exact (arrAt1_in (V5 m ρ) c 2 rfl _).trans (W6_kept m ρ c main_v29 (by decide)).symm
  | ⟨3, _⟩ => exact (arrAt1_in (V5 m ρ) c 3 rfl _).trans (W6_kept m ρ c main_v15 (by decide)).symm
  | ⟨4, _⟩ => exact (arrAt1_in (V5 m ρ) c 4 rfl _).trans (W6_kept m ρ c main_v18 (by decide)).symm
  | ⟨5, _⟩ => exact (W6_v30_0 m ρ c).symm
  | ⟨6, _⟩ => exact (W6_v30_1 m ρ c).symm
theorem hrest1 (c : Dev nD) : ∀ b, b ∉ Finset.univ.image (Pipeline.arrRef spec1) → V6 m ρ c b = V5 m ρ c b := fun b hb =>
  W6_kept m ρ c b fun hmem => hb (by
    rcases List.mem_cons.mp hmem with rfl | hmem
    · exact Finset.mem_image.mpr ⟨5, Finset.mem_univ _, rfl⟩
    · rcases List.mem_cons.mp hmem with rfl | hmem
      · exact Finset.mem_image.mpr ⟨6, Finset.mem_univ _, rfl⟩
      · exact absurd hmem List.not_mem_nil)

/-- After the host stretch hostOps2. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the host stretch hostOps3. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch hostOps4. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After the host stretch hostOps5. -/
abbrev W13 : Dev nD → Valuation τ sig (Elt F) := fun c => StableHlo.after hostOps5 (W12 m ρ c)
abbrev V13 : (c : Dev nD) → (b : Ref sig .tc) → Buf (Elt F) ((c : Thread nD τ).loc b) := fun c b => W13 m ρ c b

/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered with every unscoped buffer at W3, left with them at W4. The region's
    arrays are split out of the unscoped buffers at entry and put back at their final contents at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. Its windows 0 and 1 are one array (the features, on the first step also the
    iterate): at entry that buffer is split into two half shares, one per window, and at exit the halves, which hold the
    same contents, are joined back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V5 m ρ c)) :=
      entry1 (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V5 m ρ c))
        ⊢ (unscopedBufs (Ix := Unit) (Name := ℕ) (U := UR sig nD τ) (Lvl := ℕ) c (V6 m ρ c) : sProp 𝕄) :=
      exit1 (V5 m ρ) c (V6 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W7, left with them at W8. The region's
    arrays are split out of the unscoped buffers at entry and put back at their final contents at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W9, left with them at W10. The region's
    arrays are split out of the unscoped buffers at entry and put back at their final contents at exit. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at W11, left with them at W12. The region's
    arrays are split out of the unscoped buffers at entry and put back at their final contents at exit. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at W13, left with them at W14. The region's
    arrays are split out of the unscoped buffers at entry and put back at their final contents at exit. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and in
    the final memory every unscoped buffer of every core holds the last boundary's contents W14. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.Fr

end
-- ==== Proof.Kept.lean ====
/- No host stretch and no region writes a buffer outside its own results: each boundary's contents agree with the
   previous boundary's away from what the item in between writes. Hence every argument array ends as launched — the
   frame of the program. -/
import proofs.«169070_j69999376990389_2_alg».proof.Proof.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem W1_kept (c : Dev nD) (r : Ref sig .tc) (h : r ∉ hostOps0_W) : W1 m ρ c r = W0 m ρ c r :=
  StableHlo.after_of_writes_sub hostOps0 _ hostOps0_writes h
theorem W2_kept (c : Dev nD) (r : Ref sig .tc) (h : r ∉ hostOps0_1_W) : W2 m ρ c r = W1 m ρ c r :=
  StableHlo.after_of_writes_sub hostOps0_1 _ hostOps0_1_writes h
theorem W3_kept (c : Dev nD) (r : Ref sig .tc) (h : r ∉ hostOps0_2_W) : W3 m ρ c r = W2 m ρ c r :=
  StableHlo.after_of_writes_sub hostOps0_2 _ hostOps0_2_writes h
/-- Region 0 changes only its output arrays. -/
theorem W4_kept (c : Dev nD) (r : Ref sig .tc) (h : r ∉ ([main_v19] : List (Ref sig .tc))) : W4 m ρ c r = W3 m ρ c r := by
  by_cases hr : ∃ w, Pipeline.arrRef spec0 w = r
  · obtain ⟨w, rfl⟩ := hr
    refine (W4_arr m ρ c w).trans ?_
    match w, h with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, h => exact (h List.mem_cons_self).elim
  · exact W4_of_ne m ρ c r fun w e => hr ⟨w, e⟩
theorem W5_kept (c : Dev nD) (r : Ref sig .tc) (h : r ∉ hostOps1_W) : W5 m ρ c r = W4 m ρ c r :=
  StableHlo.after_of_writes_sub hostOps1 _ hostOps1_writes h
theorem W7_kept (c : Dev nD) (r : Ref sig .tc) (h : r ∉ hostOps2_W) : W7 m ρ c r = W6 m ρ c r :=
  StableHlo.after_of_writes_sub hostOps2 _ hostOps2_writes h
/-- Region 2 changes only its output arrays. -/
theorem W8_kept (c : Dev nD) (r : Ref sig .tc) (h : r ∉ ([main_v41_0, main_v41_1] : List (Ref sig .tc))) : W8 m ρ c r = W7 m ρ c r := by
  by_cases hr : ∃ w, Pipeline.arrRef spec2 w = r
  · obtain ⟨w, rfl⟩ := hr
    refine (W8_arr m ρ c w).trans ?_
    match w, h with
    | ⟨0, _⟩, _ => exact ((dat2 (V7 m ρ) c).arrAt_in 0 rfl _).trans (A_eq2 (V7 m ρ) c 0)
    | ⟨1, _⟩, _ => exact ((dat2 (V7 m ρ) c).arrAt_in 1 rfl _).trans (A_eq2 (V7 m ρ) c 1)
    | ⟨2, _⟩, _ => exact ((dat2 (V7 m ρ) c).arrAt_in 2 rfl _).trans (A_eq2 (V7 m ρ) c 2)
    | ⟨3, _⟩, _ => exact ((dat2 (V7 m ρ) c).arrAt_in 3 rfl _).trans (A_eq2 (V7 m ρ) c 3)
    | ⟨4, _⟩, _ => exact ((dat2 (V7 m ρ) c).arrAt_in 4 rfl _).trans (A_eq2 (V7 m ρ) c 4)
    | ⟨5, _⟩, h => exact (h List.mem_cons_self).elim
    | ⟨6, _⟩, h => exact (h (List.mem_cons_of_mem _ List.mem_cons_self)).elim
  · exact W8_of_ne m ρ c r fun w e => hr ⟨w, e⟩
theorem W9_kept (c : Dev nD) (r : Ref sig .tc) (h : r ∉ hostOps3_W) : W9 m ρ c r = W8 m ρ c r :=
  StableHlo.after_of_writes_sub hostOps3 _ hostOps3_writes h
/-- Region 3 changes only its output arrays. -/
theorem W10_kept (c : Dev nD) (r : Ref sig .tc) (h : r ∉ ([main_v52_0, main_v52_1] : List (Ref sig .tc))) : W10 m ρ c r = W9 m ρ c r := by
  by_cases hr : ∃ w, Pipeline.arrRef spec3 w = r
  · obtain ⟨w, rfl⟩ := hr
    refine (W10_arr m ρ c w).trans ?_
    match w, h with
    | ⟨0, _⟩, _ => exact ((dat3 (V9 m ρ) c).arrAt_in 0 rfl _).trans (A_eq3 (V9 m ρ) c 0)
    | ⟨1, _⟩, _ => exact ((dat3 (V9 m ρ) c).arrAt_in 1 rfl _).trans (A_eq3 (V9 m ρ) c 1)
    | ⟨2, _⟩, _ => exact ((dat3 (V9 m ρ) c).arrAt_in 2 rfl _).trans (A_eq3 (V9 m ρ) c 2)
    | ⟨3, _⟩, _ => exact ((dat3 (V9 m ρ) c).arrAt_in 3 rfl _).trans (A_eq3 (V9 m ρ) c 3)
    | ⟨4, _⟩, _ => exact ((dat3 (V9 m ρ) c).arrAt_in 4 rfl _).trans (A_eq3 (V9 m ρ) c 4)
    | ⟨5, _⟩, h => exact (h List.mem_cons_self).elim
    | ⟨6, _⟩, h => exact (h (List.mem_cons_of_mem _ List.mem_cons_self)).elim
  · exact W10_of_ne m ρ c r fun w e => hr ⟨w, e⟩
theorem W11_kept (c : Dev nD) (r : Ref sig .tc) (h : r ∉ hostOps4_W) : W11 m ρ c r = W10 m ρ c r :=
  StableHlo.after_of_writes_sub hostOps4 _ hostOps4_writes h
/-- Region 4 changes only its output arrays. -/
theorem W12_kept (c : Dev nD) (r : Ref sig .tc) (h : r ∉ ([main_v63_0, main_v63_1] : List (Ref sig .tc))) : W12 m ρ c r = W11 m ρ c r := by
  by_cases hr : ∃ w, Pipeline.arrRef spec4 w = r
  · obtain ⟨w, rfl⟩ := hr
    refine (W12_arr m ρ c w).trans ?_
    match w, h with
    | ⟨0, _⟩, _ => exact ((dat4 (V11 m ρ) c).arrAt_in 0 rfl _).trans (A_eq4 (V11 m ρ) c 0)
    | ⟨1, _⟩, _ => exact ((dat4 (V11 m ρ) c).arrAt_in 1 rfl _).trans (A_eq4 (V11 m ρ) c 1)
    | ⟨2, _⟩, _ => exact ((dat4 (V11 m ρ) c).arrAt_in 2 rfl _).trans (A_eq4 (V11 m ρ) c 2)
    | ⟨3, _⟩, _ => exact ((dat4 (V11 m ρ) c).arrAt_in 3 rfl _).trans (A_eq4 (V11 m ρ) c 3)
    | ⟨4, _⟩, _ => exact ((dat4 (V11 m ρ) c).arrAt_in 4 rfl _).trans (A_eq4 (V11 m ρ) c 4)
    | ⟨5, _⟩, h => exact (h List.mem_cons_self).elim
    | ⟨6, _⟩, h => exact (h (List.mem_cons_of_mem _ List.mem_cons_self)).elim
  · exact W12_of_ne m ρ c r fun w e => hr ⟨w, e⟩
theorem W13_kept (c : Dev nD) (r : Ref sig .tc) (h : r ∉ hostOps5_W) : W13 m ρ c r = W12 m ρ c r :=
  StableHlo.after_of_writes_sub hostOps5 _ hostOps5_writes h
/-- Region 5 changes only its output arrays. -/
theorem W14_kept (c : Dev nD) (r : Ref sig .tc) (h : r ∉ ([main_v74_0, main_v74_1] : List (Ref sig .tc))) : W14 m ρ c r = W13 m ρ c r := by
  by_cases hr : ∃ w, Pipeline.arrRef spec5 w = r
  · obtain ⟨w, rfl⟩ := hr
    refine (W14_arr m ρ c w).trans ?_
    match w, h with
    | ⟨0, _⟩, _ => exact ((dat5 (V13 m ρ) c).arrAt_in 0 rfl _).trans (A_eq5 (V13 m ρ) c 0)
    | ⟨1, _⟩, _ => exact ((dat5 (V13 m ρ) c).arrAt_in 1 rfl _).trans (A_eq5 (V13 m ρ) c 1)
    | ⟨2, _⟩, _ => exact ((dat5 (V13 m ρ) c).arrAt_in 2 rfl _).trans (A_eq5 (V13 m ρ) c 2)
    | ⟨3, _⟩, _ => exact ((dat5 (V13 m ρ) c).arrAt_in 3 rfl _).trans (A_eq5 (V13 m ρ) c 3)
    | ⟨4, _⟩, _ => exact ((dat5 (V13 m ρ) c).arrAt_in 4 rfl _).trans (A_eq5 (V13 m ρ) c 4)
    | ⟨5, _⟩, h => exact (h List.mem_cons_self).elim
    | ⟨6, _⟩, h => exact (h (List.mem_cons_of_mem _ List.mem_cons_self)).elim
  · exact W14_of_ne m ρ c r fun w e => hr ⟨w, e⟩

/-! ## The arguments end as launched -/

theorem W14_main_arg0 (c : Dev nD) : W14 m ρ c main_arg0 = m ((c : Thread nD τ).loc main_arg0) :=
  (W14_kept m ρ c main_arg0 (by decide)).trans <| (W13_kept m ρ c main_arg0 (by decide)).trans <| (W12_kept m ρ c main_arg0 (by decide)).trans <| (W11_kept m ρ c main_arg0 (by decide)).trans <| (W10_kept m ρ c main_arg0 (by decide)).trans <| (W9_kept m ρ c main_arg0 (by decide)).trans <| (W8_kept m ρ c main_arg0 (by decide)).trans <| (W7_kept m ρ c main_arg0 (by decide)).trans <| (W6_kept m ρ c main_arg0 (by decide)).trans <| (W5_kept m ρ c main_arg0 (by decide)).trans <| (W4_kept m ρ c main_arg0 (by decide)).trans <| (W3_kept m ρ c main_arg0 (by decide)).trans <| (W2_kept m ρ c main_arg0 (by decide)).trans <| (W1_kept m ρ c main_arg0 (by decide)).trans <| rfl
theorem W14_main_arg1 (c : Dev nD) : W14 m ρ c main_arg1 = m ((c : Thread nD τ).loc main_arg1) :=
  (W14_kept m ρ c main_arg1 (by decide)).trans <| (W13_kept m ρ c main_arg1 (by decide)).trans <| (W12_kept m ρ c main_arg1 (by decide)).trans <| (W11_kept m ρ c main_arg1 (by decide)).trans <| (W10_kept m ρ c main_arg1 (by decide)).trans <| (W9_kept m ρ c main_arg1 (by decide)).trans <| (W8_kept m ρ c main_arg1 (by decide)).trans <| (W7_kept m ρ c main_arg1 (by decide)).trans <| (W6_kept m ρ c main_arg1 (by decide)).trans <| (W5_kept m ρ c main_arg1 (by decide)).trans <| (W4_kept m ρ c main_arg1 (by decide)).trans <| (W3_kept m ρ c main_arg1 (by decide)).trans <| (W2_kept m ρ c main_arg1 (by decide)).trans <| (W1_kept m ρ c main_arg1 (by decide)).trans <| rfl
theorem W14_main_arg2 (c : Dev nD) : W14 m ρ c main_arg2 = m ((c : Thread nD τ).loc main_arg2) :=
  (W14_kept m ρ c main_arg2 (by decide)).trans <| (W13_kept m ρ c main_arg2 (by decide)).trans <| (W12_kept m ρ c main_arg2 (by decide)).trans <| (W11_kept m ρ c main_arg2 (by decide)).trans <| (W10_kept m ρ c main_arg2 (by decide)).trans <| (W9_kept m ρ c main_arg2 (by decide)).trans <| (W8_kept m ρ c main_arg2 (by decide)).trans <| (W7_kept m ρ c main_arg2 (by decide)).trans <| (W6_kept m ρ c main_arg2 (by decide)).trans <| (W5_kept m ρ c main_arg2 (by decide)).trans <| (W4_kept m ρ c main_arg2 (by decide)).trans <| (W3_kept m ρ c main_arg2 (by decide)).trans <| (W2_kept m ρ c main_arg2 (by decide)).trans <| (W1_kept m ρ c main_arg2 (by decide)).trans <| rfl

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c)⟩) (run_all m ρ)

end Cert.KernelIdeal.Fr

end
-- ==== Proof.KRegion0.lean ====
/- Region 0 of the program: the row-scaling kernel Z = X · D over 4000×16 blocks of 100000×16 arrays (25 grid
   points, one block per point). What the body leaves in its output block as a function of the two input blocks, the
   body's Hoare triple, the pipeline's proof data at arbitrary entry contents V, and the body obligation at every
   point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the array at every grid point, whether or
    not the point fetches it, for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the array at every grid point, whether or
    not the point fetches it, for any proof data whose array is the entry contents and whose body leaves the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 4000×16 block. -/
abbrev r0_0 : Rect S4000x16 := Rect.unit (s := S4000x16) ![0, 0] S4000x16.size inb_S4000x16_S4000x16_0_0

/-- The output block after the body: the product of the two input blocks, stored over the whole block. -/
def out0_2 (x0 x1 : Vec F S4000x16 .f32) : Vec F S4000x16 .f32 :=
  View.canon [⟨r0_0, k0_pay1 (View.ld x0 r0_0) (View.ld x1 r0_0)⟩]

/-- The single store covers the block. -/
theorem cover0_2 (p0 : Vec F S4000x16 .f32) (y : S4000x16.Idx) :
    ∃ pc ∈ ([⟨r0_0, p0⟩] : List (View.Piece (Elt F) S4000x16 .f32)), y ∈ pc.1.set :=
  View.cover_of_tiled [⟨r0_0, p0⟩] S4000x16.size (by rfl) y

set_option maxHeartbeats 1000000 in
/-- The body on whole staging buffers: the inputs are left as found, the output ends at out0_2 of the inputs. -/
theorem sound_kernel0 (c : Dev nD) (E : Set ℕ) (i : grid0.Coords) (arg1 : Memref sig .tc .vmem S4000x16 .f32) (harg1 : arg1.IsWhole) (arg2 : Memref sig .tc .vmem S4000x16 .f32) (harg2 : arg2.IsWhole) (arg3 : Memref sig .tc .vmem S4000x16 .f32) (harg3 : arg3.IsWhole)
    (x0 x1 : Vec F S4000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/- Region 1 of the program: the first propagation step (its windows 0 and 1 are both the feature array) over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the array at every grid point, whether or
    not the point fetches it, for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the array at every grid point, whether or
    not the point fetches it, for any proof data whose array is the entry contents and whose body leaves the block
    in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the array at every grid point, whether or
    not the point fetches it, for any proof data whose array is the entry contents and whose body leaves the block
    in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the array at every grid point, whether or
    not the point fetches it, for any proof data whose array is the entry contents and whose body leaves the block
    in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the array at every grid point, whether or
    not the point fetches it, for any proof data whose array is the entry contents and whose body leaves the block
    in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 4000×16 block. -/
abbrev r1_0 : Rect S4000x16 := Rect.unit (s := S4000x16) ![0, 0] S4000x16.size inb_S4000x16_S4000x16_0_0

/-- The next-iterate block after the body, from the five input blocks (x0 … x4 in window order). -/
def out1_5 (x0 x1 x2 x3 : Vec F S4000x16 .f32) (x4 : Vec F S4000x16 .i32) : Vec F S4000x16 .f32 :=
  View.canon [⟨r1_0, k1_pay1 (View.ld x2 r1_0) (View.ld x3 r1_0) (View.ld x0 r1_0) (View.ld x1 r1_0) (View.ld x4 r1_0) (View.ld x1 r1_0)⟩]

/-- The scaled next-iterate block after the body. -/
def out1_6 (x0 x1 x2 x3 : Vec F S4000x16 .f32) (x4 : Vec F S4000x16 .i32) : Vec F S4000x16 .f32 :=
  View.canon [⟨r1_0, k1_pay2 (View.ld x2 r1_0) (View.ld x3 r1_0) (View.ld x0 r1_0) (View.ld x1 r1_0) (View.ld x4 r1_0) (View.ld x1 r1_0) (View.ld x3 r1_0)⟩]

/-- A single whole-block store covers the block. -/
theorem cover1_5 (p0 : Vec F S4000x16 .f32) (y : S4000x16.Idx) :
    ∃ pc ∈ ([⟨r1_0, p0⟩] : List (View.Piece (Elt F) S4000x16 .f32)), y ∈ pc.1.set :=
  View.cover_of_tiled [⟨r1_0, p0⟩] S4000x16.size (by rfl) y

set_option maxHeartbeats 2000000 in
/-- The body on whole staging buffers: the inputs are left as found, the two outputs end at out1_5 and out1_6 of the
    inputs. -/
theorem sound_kernel1 (c : Dev nD) (E : Set ℕ) (i : grid1.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_5 _)

/-! ## The pipeline's proof data -/

/-- The proof data of pipeline 1 on core c: the arrays as the region finds them; after the body at point t each
    input's buffer at its block and each output's at its function of the input blocks. Windows 0 and 1 read one
    array, so each holds half of it (the left and the right half of the full share, which compose to the full share);
    every other window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRegion1Seg.lean ====
/- Region 1 of the program, whose windows 0 and 1 are windows on ONE array: how the region's arrays come out of the
   core's unscoped buffers when the region is entered and go back when it is left. The seven windows name six distinct
   buffers; the pipeline's arrays are the six buffers' points-tos, the shared buffer's split into the left and right
   halves of the full share for windows 0 and 1 (which only read it, so both halves end at the entry contents and join
   to the whole again). Stated for any proof data with those shares, then at the region's own proof data; with the
   read-back lemma for a valuation updated at the windows' arrays when two windows name one buffer. -/
import proofs.«169070_j69999376990389_2_alg».proof.Proof.KRegion1
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers behind the windows' arrays -/

/-- The six distinct buffers behind the seven windows' arrays, each named by the first window on it: window 1's
    array is window 0's. -/
def arrIdx1 : Fin 6 → Fin 7 := ![0, 2, 3, 4, 5, 6]

set_option maxHeartbeats 400000 in
theorem arrRef1_image : Finset.univ.image (Pipeline.arrRef spec1) = Finset.univ.image (fun k : Fin 6 => Pipeline.arrRef spec1 (arrIdx1 k)) := by decide

set_option maxHeartbeats 400000 in
theorem arrRef1_inj : Function.Injective (fun k : Fin 6 => Pipeline.arrRef spec1 (arrIdx1 k)) := by decide

theorem bigSep_A1 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

set_option maxHeartbeats 400000 in
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = bigSep Finset.univ fun k : Fin 6 =>
          (((c : Thread nD τ).loc (Pipeline.arrRef spec1 (arrIdx1 k))) ↦{fullShare} V (Pipeline.arrRef spec1 (arrIdx1 k)) : sProp 𝕄) := by
  unfold Pipeline.arrBufs
  rw [arrRef1_image, show Finset.univ.image (fun k : Fin 6 => Pipeline.arrRef spec1 (arrIdx1 k))
      = Finset.univ.map ⟨fun k : Fin 6 => Pipeline.arrRef spec1 (arrIdx1 k), arrRef1_inj⟩ from (Finset.map_eq_image ⟨_, arrRef1_inj⟩ Finset.univ).symm,
    bigSep_map]
  rfl

/-! ## The proof data's arrays are those buffers, the shared one split in two shares -/

set_option maxHeartbeats 1000000 in
/-- The pipeline's arrays at contents read off a valuation V of the core's buffers are the six buffers behind them
    whole at V: windows 0 and 1 hold the left and the right half of one buffer's points-to, which compose to the
    whole; every other window holds its buffer whole. -/
theorem arrays1_eq {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G = (Pipeline.arrBufs (Ix := Unit) (Name := ℕ) (U := UR sig nD τ) (Lvl := ℕ) spec1 c V : sProp 𝕄) := by
  have hs0 : dat.share 0 = fullShare.left := by unfold Dat.share; rw [hq0]; rfl
  have hs1 : dat.share 1 = fullShare.right := by unfold Dat.share; rw [hq1]; rfl
  have hs2 : dat.share 2 = fullShare := by unfold Dat.share; rw [hq2]; rfl
  have hs3 : dat.share 3 = fullShare := by unfold Dat.share; rw [hq3]; rfl
  have hs4 : dat.share 4 = fullShare := by unfold Dat.share; rw [hq4]; rfl
  have hs5 : dat.share 5 = fullShare := rfl
  have hs6 : dat.share 6 = fullShare := rfl
  unfold Dat.arrays
  rw [arrBufs1_eq, bigSep_W1, bigSep_A1, hs0, hs1, hs2, hs3, hs4, hs5, hs6, hG 0, hG 1, hG 2, hG 3, hG 4, hG 5, hG 6,
    (arr_whole1 0).set_eq_univ, (arr_whole1 2).set_eq_univ, (arr_whole1 3).set_eq_univ,
    (arr_whole1 4).set_eq_univ, (arr_whole1 5).set_eq_univ, (arr_whole1 6).set_eq_univ]
  refine BI.Entails.antisymm ?_ ?_
  · exact sep_assoc.2.trans (sep_mono (pointsTo_share (PosShare.mem_left_op_right fullShare)).2 .rfl)
  · exact (sep_mono (pointsTo_share (PosShare.mem_left_op_right fullShare)).1 .rfl).trans sep_assoc.1

/-! ## The region's arrays out of the core's unscoped buffers, and back -/

set_option maxHeartbeats 1000000 in
/-- ENTRY: a core's unscoped buffers at contents V are the pipeline's arrays at the proof data's entry contents — those
    being read off V —, the shared buffer's points-to split between windows 0 and 1, and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V : (b : Ref sig .tc) → Buf (Elt F) ((c : Thread nD τ).loc b))
    (hA : ∀ w, dat.A w = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [Pipeline.unscopedBufs_split₀ cfgs 1 winFacts₀1.arr_unscoped c V,
    arrays1_eq dat hq0 hq1 hq2 hq3 hq4 V (dat.arrAt · 0) (fun w => by rw [show dat.arrAt w 0 = dat.A w from rfl, hA])]
  exact .rfl

set_option maxHeartbeats 1000000 in
/-- EXIT: the pipeline's arrays at contents G and the unscoped rest at V are the core's unscoped buffers at any
    valuation V' that has the arrays at G and agrees with V off them; windows 0 and 1 hold the same contents of their
    one buffer (both are V' there), and their two shares join to the whole. -/
theorem unscopedBufs_of_arrays1 {c : Dev nD} (dat : Dat τ (Elt F) Unit ℕ (UR sig nD τ) ℕ cfg1 c)
    (hq0 : dat.q 0 = fullShare.left) (hq1 : dat.q 1 = fullShare.right)
    (hq2 : dat.q 2 = fullShare) (hq3 : dat.q 3 = fullShare) (hq4 : dat.q 4 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  rw [Pipeline.unscopedBufs_split₀ cfgs 1 winFacts₀1.arr_unscoped c V', arrays1_eq dat hq0 hq1 hq2 hq3 hq4 V' G hG]
  refine sep_mono .rfl (Entails.of_eq ?_)
  unfold Pipeline.unscopedRest
  exact bigSep_congr fun b hb => by rw [hrest b (Finset.mem_sdiff.mp hb).2]

/-! ## The core's buffer contents with the region's arrays replaced -/

set_option maxHeartbeats 1000000 in
/-- Two windows name one buffer only if they are the same window or windows 0 and 1. -/
theorem arrRef1_eq_cases : ∀ w' w : Fin 7, Pipeline.arrRef spec1 w' = Pipeline.arrRef spec1 w → w' = w ∨ (w' = 0 ∧ w = 1) ∨ (w' = 1 ∧ w = 0) := by decide

set_option maxHeartbeats 1000000 in
/-- The contents with the pipeline's arrays at A and every other buffer as in W read A back at each window's array,
    provided windows 0 and 1, which name one buffer, are given the same contents. -/
theorem withArrays1_arr (c : Dev nD) (W : Valuation τ sig (Elt F))
    (A : (w : Fin 7) → Buf (Elt F) ((spec1 w).arr.view.loc (c : Thread nD τ))) (h01 : A 0 = A 1) (w : Fin 7) :
    Pipeline.withArrays spec1 c W A (Proc.devRef .tc (Pipeline.arrRef spec1 w)) = A w := by
  unfold Pipeline.withArrays
  have h : ∃ w', Proc.devRef .tc (Pipeline.arrRef spec1 w') = Proc.devRef (τ := τ) .tc (Pipeline.arrRef spec1 w) := ⟨w, rfl⟩
  rw [dif_pos h]
  suffices ∀ (w' : Fin 7) (e : Proc.devRef .tc (Pipeline.arrRef spec1 w') = Proc.devRef (τ := τ) .tc (Pipeline.arrRef spec1 w)),
      cast (congrArg (fun b' : DevRef τ sig => b'.ty.Contents (Elt F)) e) (A w') = A w from this _ h.choose_spec
  intro w' e
  rcases arrRef1_eq_cases w' w (Proc.devRef_injective _ e) with rfl | ⟨rfl, rfl⟩ | ⟨rfl, rfl⟩
  · rfl
  · exact (cast_eq _ _).trans h01
  · exact (cast_eq _ _).trans h01.symm

/-! ## At the region's own proof data -/

section AtDat

-- the TensorCore's buffer contents when the region is entered
variable (V : (c : Dev nD) → (b : Ref sig .tc) → Buf (Elt F) ((c : Thread nD τ).loc b))

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-- ENTRY: the core's unscoped buffers at the entry contents are the region's arrays at the proof data's entry
    contents and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) :=
  arrays_of_unscopedBufs1 (dat1 V c) (q1_0 V c) (q1_1 V c) (q1_2 V c) (q1_3 V c) (q1_4 V c) (V c) (A_eq1 V c)

/-- EXIT: the region's arrays at what the pipeline leaves and the unscoped rest as entered are the core's unscoped
    buffers at any valuation V' that has the arrays at what the pipeline leaves and agrees with the entry contents
    off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) :=
  unscopedBufs_of_arrays1 (dat1 V c) (q1_0 V c) (q1_1 V c) (q1_2 V c) (q1_3 V c) (q1_4 V c) (V c) V'
    ((dat1 V c).arrAt · cfg1.N) hF hrest

/-- An input window's array is never written: it holds the entry contents after any number of points. -/
theorem arrAt1_in (c : Dev nD) (w : Fin cfg1.W) (hw : (cfg1.win w).isOut = false) (t : ℕ) :
    (dat1 V c).arrAt w t = V c (Pipeline.arrRef spec1 w) :=
  ((dat1 V c).arrAt_in w hw t).trans (A_eq1 V c w)

/-- Windows 0 and 1 end holding the same contents of their one buffer. -/
theorem arrAt1_01 (c : Dev nD) (t : ℕ) : (dat1 V c).arrAt 0 t = (dat1 V c).arrAt 1 t :=
  (arrAt1_in V c 0 rfl t).trans (arrAt1_in V c 1 rfl t).symm

/-- The contents with the region's arrays at what the pipeline leaves and every other buffer as in W read that back
    at each window's array. -/
theorem withArrays1_arrAt (c : Dev nD) (W : Valuation τ sig (Elt F)) (w : Fin cfg1.W) :
    Pipeline.withArrays spec1 c W (fun w => (dat1 V c).arrAt w cfg1.N) (Proc.devRef .tc (Pipeline.arrRef spec1 w))
      = (dat1 V c).arrAt w cfg1.N :=
  withArrays1_arr c W (fun w => (dat1 V c).arrAt w cfg1.N) (arrAt1_01 V c cfg1.N) w

end AtDat

end Cert.Kernel.Fr
end
-- ==== Proof.KRegion2.lean ====
/- Region 2 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block of the array at every grid point, whether or
    not the point fetches it, for any proof data whose array is the entry contents and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block of the array at every grid point, whether or
    not the point fetches it, for any proof data whose array is the entry contents and whose body leaves the block
    in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block of the array at every grid point, whether or
    not the point fetches it, for any proof data whose array is the entry contents and whose body leaves the block
    in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block of the array at every grid point, whether or
    not the point fetches it, for any proof data whose array is the entry contents and whose body leaves the block
    in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block of the array at every grid point, whether or
    not the point fetches it, for any proof data whose array is the entry contents and whose body leaves the block
    in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 4000×16 block. -/
abbrev r2_0 : Rect S4000x16 := Rect.unit (s := S4000x16) ![0, 0] S4000x16.size inb_S4000x16_S4000x16_0_0

/-- The next-iterate block after the body, from the five input blocks (x0 … x4 in window order). -/
def out2_5 (x0 x1 x2 x3 : Vec F S4000x16 .f32) (x4 : Vec F S4000x16 .i32) : Vec F S4000x16 .f32 :=
  View.canon [⟨r2_0, k2_pay1 (View.ld x2 r2_0) (View.ld x3 r2_0) (View.ld x0 r2_0) (View.ld x1 r2_0) (View.ld x4 r2_0) (View.ld x1 r2_0)⟩]

/-- The scaled next-iterate block after the body. -/
def out2_6 (x0 x1 x2 x3 : Vec F S4000x16 .f32) (x4 : Vec F S4000x16 .i32) : Vec F S4000x16 .f32 :=
  View.canon [⟨r2_0, k2_pay2 (View.ld x2 r2_0) (View.ld x3 r2_0) (View.ld x0 r2_0) (View.ld x1 r2_0) (View.ld x4 r2_0) (View.ld x1 r2_0) (View.ld x3 r2_0)⟩]

/-- A single whole-block store covers the block. -/
theorem cover2_5 (p0 : Vec F S4000x16 .f32) (y : S4000x16.Idx) :
    ∃ pc ∈ ([⟨r2_0, p0⟩] : List (View.Piece (Elt F) S4000x16 .f32)), y ∈ pc.1.set :=
  View.cover_of_tiled [⟨r2_0, p0⟩] S4000x16.size (by rfl) y

set_option maxHeartbeats 2000000 in
/-- The body on whole staging buffers: the inputs are left as found, the two outputs end at out2_5 and out2_6 of the
    inputs. -/
theorem sound_kernel2 (c : Dev nD) (E : Set ℕ) (i : grid2.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__update_kernel i arg1 harg1 arg2 harg2 arg3 harg3 arg4 harg4 arg5 harg5 arg6 harg6 arg7 harg7) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-! ## The pipeline's proof data -/

/-- The proof data of pipeline 2 on core c: the arrays as the region finds them; after the body at point t each
    input's buffer at its block and each output's at its function of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRegion3.lean ====
/- Region 3 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block of the array at every grid point, whether or
    not the point fetches it, for any proof data whose array is the entry contents and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block of the array at every grid point, whether or
    not the point fetches it, for any proof data whose array is the entry contents and whose body leaves the block
    in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block of the array at every grid point, whether or
    not the point fetches it, for any proof data whose array is the entry contents and whose body leaves the block
    in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block of the array at every grid point, whether or
    not the point fetches it, for any proof data whose array is the entry contents and whose body leaves the block
    in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block of the array at every grid point, whether or
    not the point fetches it, for any proof data whose array is the entry contents and whose body leaves the block
    in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole 4000×16 block. -/
abbrev r3_0 : Rect S4000x16 := Rect.unit (s := S4000x16) ![0, 0] S4000x16.size inb_S4000x16_S4000x16_0_0

/-- The next-iterate block after the body, from the five input blocks (x0 … x4 in window order). -/
def out3_5 (x0 x1 x2 x3 : Vec F S4000x16 .f32) (x4 : Vec F S4000x16 .i32) : Vec F S4000x16 .f32 :=
  View.canon [⟨r3_0, k3_pay1 (View.ld x2 r3_0) (View.ld x3 r3_0) (View.ld x0 r3_0) (View.ld x1 r3_0) (View.ld x4 r3_0) (View.ld x1 r3_0)⟩]

/-- The scaled next-iterate block after the body. -/
def out3_6 (x0 x1 x2 x3 : Vec F S4000x16 .f32) (x4 : Vec F S4000x16 .i32) : Vec F S4000x16 .f32 :=
  View.canon [⟨r3_0, k3_pay2 (View.ld x2 r3_0) (View.ld x3 r3_0) (View.ld x0 r3_0) (View.ld x1 r3_0) (View.ld x4 r3_0) (View.ld x1 r3_0) (View.ld x3 r3_0)⟩]

/-- A single whole-block store covers the block. -/
theorem cover3_5 (p0 : Vec F S4000x16 .f32) (y : S4000x16.Idx) :
    ∃ pc ∈ ([⟨r3_0, p0⟩] : List (View.Piece (Elt F) S4000x16 .f32)), y ∈ pc.1.set :=
  View.cover_of_tiled [⟨r3_0, p0⟩] S4000x16.size (by rfl) y

set_option maxHeartbeats 2000000 in
/-- The body on whole staging buffers: the inputs are left as found, the two outputs end at out3_5 and out3_6 of the
    inputs. -/
theorem sound_kernel3 (c : Dev nD) (E : Set ℕ) (i : grid3.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_5 _)

/-! ## The pipeline's proof data -/

/-- The proof data of pipeline 3 on core c: the arrays as the region finds them; after the body at point t each
    input's buffer at its block and each output's at its function of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KRegion4.lean ====
/- Region 4 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block of the array at every grid point, whether or
    not the point fetches it, for any proof data whose array is the entry contents and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block of the array at every grid point, whether or
    not the point fetches it, for any proof data whose array is the entry contents and whose body leaves the block
    in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block of the array at every grid point, whether or
    not the point fetches it, for any proof data whose array is the entry contents and whose body leaves the block
    in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block of the array at every grid point, whether or
    not the point fetches it, for any proof data whose array is the entry contents and whose body leaves the block
    in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds the window's block of the array at every grid point, whether or
    not the point fetches it, for any proof data whose array is the entry contents and whose body leaves the block
    in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes: the whole 4000×16 block. -/
abbrev r4_0 : Rect S4000x16 := Rect.unit (s := S4000x16) ![0, 0] S4000x16.size inb_S4000x16_S4000x16_0_0

/-- The next-iterate block after the body, from the five input blocks (x0 … x4 in window order). -/
def out4_5 (x0 x1 x2 x3 : Vec F S4000x16 .f32) (x4 : Vec F S4000x16 .i32) : Vec F S4000x16 .f32 :=
  View.canon [⟨r4_0, k4_pay1 (View.ld x2 r4_0) (View.ld x3 r4_0) (View.ld x0 r4_0) (View.ld x1 r4_0) (View.ld x4 r4_0) (View.ld x1 r4_0)⟩]

/-- The scaled next-iterate block after the body. -/
def out4_6 (x0 x1 x2 x3 : Vec F S4000x16 .f32) (x4 : Vec F S4000x16 .i32) : Vec F S4000x16 .f32 :=
  View.canon [⟨r4_0, k4_pay2 (View.ld x2 r4_0) (View.ld x3 r4_0) (View.ld x0 r4_0) (View.ld x1 r4_0) (View.ld x4 r4_0) (View.ld x1 r4_0) (View.ld x3 r4_0)⟩]

/-- A single whole-block store covers the block. -/
theorem cover4_5 (p0 : Vec F S4000x16 .f32) (y : S4000x16.Idx) :
    ∃ pc ∈ ([⟨r4_0, p0⟩] : List (View.Piece (Elt F) S4000x16 .f32)), y ∈ pc.1.set :=
  View.cover_of_tiled [⟨r4_0, p0⟩] S4000x16.size (by rfl) y

set_option maxHeartbeats 2000000 in
/-- The body on whole staging buffers: the inputs are left as found, the two outputs end at out4_5 and out4_6 of the
    inputs. -/
theorem sound_kernel4 (c : Dev nD) (E : Set ℕ) (i : grid4.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__update_kernel i arg1 harg1 arg2 harg2 arg3 harg3 arg4 harg4 arg5 harg5 arg6 harg6 arg7 harg7) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_5 _)

/-! ## The pipeline's proof data -/

/-- The proof data of pipeline 4 on core c: the arrays as the region finds them; after the body at point t each
    input's buffer at its block and each output's at its function of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KRegion5.lean ====
/- Region 5 of the program: one propagation step over 4000×16 blocks of 100000×16 arrays (25 grid points, one block
   per point). Windows: 0 the current iterate Y, 1 the features X, 2 the aggregated neighbours, 3 the broadcast inverse
   square-root degrees D, 4 the broadcast training mask, 5 the next iterate, 6 the next iterate scaled by D. What
   the body leaves in each output block as a function of the five input blocks, the body's Hoare triple, the pipeline's
   proof data at arbitrary entry contents V, and the body obligation at every point. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block of the array at every grid point, whether or
    not the point fetches it, for any proof data whose array is the entry contents and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block of the array at every grid point, whether or
    not the point fetches it, for any proof data whose array is the entry contents and whose body leaves the block
    in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block of the array at every grid point, whether or
    not the point fetches it, for any proof data whose array is the entry contents and whose body leaves the block
    in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds the window's block of the array at every grid point, whether or
    not the point fetches it, for any proof data whose array is the entry contents and whose body leaves the block
    in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds the window's block of the array at every grid point, whether or
    not the point fetches it, for any proof data whose array is the entry contents and whose body leaves the block
    in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body reads and writes: the whole 4000×16 block. -/
abbrev r5_0 : Rect S4000x16 := Rect.unit (s := S4000x16) ![0, 0] S4000x16.size inb_S4000x16_S4000x16_0_0

/-- The next-iterate block after the body, from the five input blocks (x0 … x4 in window order). -/
def out5_5 (x0 x1 x2 x3 : Vec F S4000x16 .f32) (x4 : Vec F S4000x16 .i32) : Vec F S4000x16 .f32 :=
  View.canon [⟨r5_0, k5_pay1 (View.ld x2 r5_0) (View.ld x3 r5_0) (View.ld x0 r5_0) (View.ld x1 r5_0) (View.ld x4 r5_0) (View.ld x1 r5_0)⟩]

/-- The scaled next-iterate block after the body. -/
def out5_6 (x0 x1 x2 x3 : Vec F S4000x16 .f32) (x4 : Vec F S4000x16 .i32) : Vec F S4000x16 .f32 :=
  View.canon [⟨r5_0, k5_pay2 (View.ld x2 r5_0) (View.ld x3 r5_0) (View.ld x0 r5_0) (View.ld x1 r5_0) (View.ld x4 r5_0) (View.ld x1 r5_0) (View.ld x3 r5_0)⟩]

/-- A single whole-block store covers the block. -/
theorem cover5_5 (p0 : Vec F S4000x16 .f32) (y : S4000x16.Idx) :
    ∃ pc ∈ ([⟨r5_0, p0⟩] : List (View.Piece (Elt F) S4000x16 .f32)), y ∈ pc.1.set :=
  View.cover_of_tiled [⟨r5_0, p0⟩] S4000x16.size (by rfl) y

set_option maxHeartbeats 2000000 in
/-- The body on whole staging buffers: the inputs are left as found, the two outputs end at out5_5 and out5_6 of the
    inputs. -/
theorem sound_kernel5 (c : Dev nD) (E : Set ℕ) (i : grid5.Coords)
    (arg1 : Memref sig .tc .vmem S4000x16 .f32) (harg1 : arg1.IsWhole) (arg2 : Memref sig .tc .vmem S4000x16 .f32) (harg2 : arg2.IsWhole)
    (arg3 : Memref sig .tc .vmem S4000x16 .f32) (harg3 : arg3.IsWhole) (arg4 : Memref sig .tc .vmem S4000x16 .f32) (harg4 : arg4.IsWhole)
    (arg5 : Memref sig .tc .vmem S4000x16 .i32) (harg5 : arg5.IsWhole) (arg6 : Memref sig .tc .vmem S4000x16 .f32) (harg6 : arg6.IsWhole)
    (arg7 : Memref sig .tc .vmem S4000x16 .f32) (harg7 : arg7.IsWhole)
    (x0 x1 x2 x3 : Vec F S4000x16 .f32) (x4 : Vec F S4000x16 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4) ∗ owns (c : Thread nD τ) arg7 fullShare (out5_6 x0 x1 x2 x3 x4)) -∗ K ⟨⟩))
      ⊢ wp frame (wpE (defs₀ (F := F)) Variants.none c none) E (cc5__update_kernel i arg1 harg1 arg2 harg2 arg3 harg3 arg4 harg4 arg5 harg5 arg6 harg6 arg7 harg7) K := by
  simp only [cc5__update_kernel_eq_skeleton]; unfold cc5__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_5 _)

/-! ## The pipeline's proof data -/

/-- The proof data of pipeline 5 on core c: the arrays as the region finds them; after the body at point t each
    input's buffer at its block and each output's at its function of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KRun.lean ====
/- The run of the whole program: the contents of every unscoped buffer at each boundary between host stretches and
   regions, as a fold from the launch memory; every region's proof data at its entry contents; each region as a
   segment over the thread state "every unscoped buffer held at the boundary's contents"; and the launch, whose
   conclusion reads every unscoped buffer of the final memory at the last boundary's contents. -/
import proofs.«169070_j69999376990389_2_alg».proof.Proof.Gen.Kernel.Launch
import proofs.«169070_j69999376990389_2_alg».proof.Proof.Gen.Kernel.Skeleton
import proofs.«169070_j69999376990389_2_alg».proof.Proof.Gen.Kernel.Points
import proofs.«169070_j69999376990389_2_alg».proof.Proof.Gen.Kernel.Regions
import proofs.«169070_j69999376990389_2_alg».proof.Proof.KRegion0
import proofs.«169070_j69999376990389_2_alg».proof.Proof.KRegion1
import proofs.«169070_j69999376990389_2_alg».proof.Proof.KRegion1Seg
import proofs.«169070_j69999376990389_2_alg».proof.Proof.KRegion2
import proofs.«169070_j69999376990389_2_alg».proof.Proof.KRegion3
import proofs.«169070_j69999376990389_2_alg».proof.Proof.KRegion4
import proofs.«169070_j69999376990389_2_alg».proof.Proof.KRegion5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch hostOps0_1. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After the host stretch hostOps0_2. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch hostOps1. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its two output arrays at what the pipeline leaves, every other buffer as entered (its windows 0
    and 1 are one array, an input, which it leaves as found). -/
def W6 (c : Dev nD) : Valuation τ sig (Elt F) :=
  Function.update (Function.update (W5 m ρ c) (Proc.devRef .tc main_v30_0) ((dat1 (V5 m ρ) c).arrAt 5 cfg1.N))
    (Proc.devRef .tc main_v30_1) ((dat1 (V5 m ρ) c).arrAt 6 cfg1.N)
abbrev V6 : (c : Dev nD) → (b : Ref sig .tc) → Buf (Elt F) ((c : Thread nD τ).loc b) := fun c b => W6 m ρ c b
/-- Region 1 changes only its two output arrays. -/
theorem W6_kept (c : Dev nD) (r : Ref sig .tc) (h : r ∉ ([main_v30_0, main_v30_1] : List (Ref sig .tc))) : W6 m ρ c r = W5 m ρ c r := by
  simp only [W6, Function.update_of_ne (StableHlo.devRef_ne_of_ne (List.ne_of_not_mem_cons h) : (Proc.devRef .tc r : DevRef τ sig) ≠ Proc.devRef .tc main_v30_0), Function.update_of_ne (StableHlo.devRef_ne_of_ne (List.ne_of_not_mem_cons (List.not_mem_of_not_mem_cons h)) : (Proc.devRef .tc r : DevRef τ sig) ≠ Proc.devRef .tc main_v30_1)]
theorem W6_v30_0 (c : Dev nD) : W6 m ρ c main_v30_0 = (dat1 (V5 m ρ) c).arrAt 5 cfg1.N := by
  simp only [W6, Function.update_of_ne (StableHlo.devRef_ne_of_ne (by decide) : (Proc.devRef .tc main_v30_0 : DevRef τ sig) ≠ Proc.devRef .tc main_v30_1), Function.update_self]
theorem W6_v30_1 (c : Dev nD) : W6 m ρ c main_v30_1 = (dat1 (V5 m ρ) c).arrAt 6 cfg1.N := by
  simp only [W6, Function.update_self]
theorem hF1 (c : Dev nD) (w : Fin cfg1.W) : (dat1 (V5 m ρ) c).arrAt w cfg1.N = V6 m ρ c (Pipeline.arrRef spec1 w) := by
  match w with
  | ⟨0, _⟩ => exact (arrAt1_in (V5 m ρ) c 0 rfl _).trans (W6_kept m ρ c main_arg1 (by decide)).symm
  | ⟨1, _⟩ => exact (arrAt1_in (V5 m ρ) c 1 rfl _).trans (W6_kept m ρ c main_arg1 (by decide)).symm
  | ⟨2, _⟩ => exact (arrAt1_in (V5 m ρ) c 2 rfl _).trans (W6_kept m ρ c main_v29 (by decide)).symm
  | ⟨3, _⟩ => exact (arrAt1_in (V5 m ρ) c 3 rfl _).trans (W6_kept m ρ c main_v15 (by decide)).symm
  | ⟨4, _⟩ => exact (arrAt1_in (V5 m ρ) c 4 rfl _).trans (W6_kept m ρ c main_v18 (by decide)).symm
  | ⟨5, _⟩ => exact (W6_v30_0 m ρ c).symm
  | ⟨6, _⟩ => exact (W6_v30_1 m ρ c).symm
theorem hrest1 (c : Dev nD) : ∀ b, b ∉ Finset.univ.image (Pipeline.arrRef spec1) → V6 m ρ c b = V5 m ρ c b := fun b hb =>
  W6_kept m ρ c b fun hmem => hb (by
    rcases List.mem_cons.mp hmem with rfl | hmem
    · exact Finset.mem_image.mpr ⟨5, Finset.mem_univ _, rfl⟩
    · rcases List.mem_cons.mp hmem with rfl | hmem
      · exact Finset.mem_image.mpr ⟨6, Finset.mem_univ _, rfl⟩
      · exact absurd hmem List.not_mem_nil)

/-- After the host stretch hostOps2. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the host stretch hostOps3. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch hostOps4. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After the host stretch hostOps5. -/
abbrev W13 : Dev nD → Valuation τ sig (Elt F) := fun c => StableHlo.after hostOps5 (W12 m ρ c)
abbrev V13 : (c : Dev nD) → (b : Ref sig .tc) → Buf (Elt F) ((c : Thread nD τ).loc b) := fun c b => W13 m ρ c b

/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered with every unscoped buffer at W3, left with them at W4. The region's
    arrays are split out of the unscoped buffers at entry and put back at their final contents at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. Its windows 0 and 1 are one array (the features, on the first step also the
    iterate): at entry that buffer is split into two half shares, one per window, and at exit the halves, which hold the
    same contents, are joined back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V5 m ρ c)) :=
      entry1 (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V5 m ρ c))
        ⊢ (unscopedBufs (Ix := Unit) (Name := ℕ) (U := UR sig nD τ) (Lvl := ℕ) c (V6 m ρ c) : sProp 𝕄) :=
      exit1 (V5 m ρ) c (V6 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W7, left with them at W8. The region's
    arrays are split out of the unscoped buffers at entry and put back at their final contents at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W9, left with them at W10. The region's
    arrays are split out of the unscoped buffers at entry and put back at their final contents at exit. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at W11, left with them at W12. The region's
    arrays are split out of the unscoped buffers at entry and put back at their final contents at exit. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at W13, left with them at W14. The region's
    arrays are split out of the unscoped buffers at entry and put back at their final contents at exit. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and in
    the final memory every unscoped buffer of every core holds the last boundary's contents W14. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.Kernel.Fr

end
-- ==== Proof.KKept.lean ====
/- No host stretch and no region writes a buffer outside its own results: each boundary's contents agree with the
   previous boundary's away from what the item in between writes. Hence every argument array ends as launched — the
   frame of the program. -/
import proofs.«169070_j69999376990389_2_alg».proof.Proof.KRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem W1_kept (c : Dev nD) (r : Ref sig .tc) (h : r ∉ hostOps0_W) : W1 m ρ c r = W0 m ρ c r :=
  StableHlo.after_of_writes_sub hostOps0 _ hostOps0_writes h
theorem W2_kept (c : Dev nD) (r : Ref sig .tc) (h : r ∉ hostOps0_1_W) : W2 m ρ c r = W1 m ρ c r :=
  StableHlo.after_of_writes_sub hostOps0_1 _ hostOps0_1_writes h
theorem W3_kept (c : Dev nD) (r : Ref sig .tc) (h : r ∉ hostOps0_2_W) : W3 m ρ c r = W2 m ρ c r :=
  StableHlo.after_of_writes_sub hostOps0_2 _ hostOps0_2_writes h
/-- Region 0 changes only its output arrays. -/
theorem W4_kept (c : Dev nD) (r : Ref sig .tc) (h : r ∉ ([main_v19] : List (Ref sig .tc))) : W4 m ρ c r = W3 m ρ c r := by
  by_cases hr : ∃ w, Pipeline.arrRef spec0 w = r
  · obtain ⟨w, rfl⟩ := hr
    refine (W4_arr m ρ c w).trans ?_
    match w, h with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, h => exact (h List.mem_cons_self).elim
  · exact W4_of_ne m ρ c r fun w e => hr ⟨w, e⟩
theorem W5_kept (c : Dev nD) (r : Ref sig .tc) (h : r ∉ hostOps1_W) : W5 m ρ c r = W4 m ρ c r :=
  StableHlo.after_of_writes_sub hostOps1 _ hostOps1_writes h
theorem W7_kept (c : Dev nD) (r : Ref sig .tc) (h : r ∉ hostOps2_W) : W7 m ρ c r = W6 m ρ c r :=
  StableHlo.after_of_writes_sub hostOps2 _ hostOps2_writes h
/-- Region 2 changes only its output arrays. -/
theorem W8_kept (c : Dev nD) (r : Ref sig .tc) (h : r ∉ ([main_v41_0, main_v41_1] : List (Ref sig .tc))) : W8 m ρ c r = W7 m ρ c r := by
  by_cases hr : ∃ w, Pipeline.arrRef spec2 w = r
  · obtain ⟨w, rfl⟩ := hr
    refine (W8_arr m ρ c w).trans ?_
    match w, h with
    | ⟨0, _⟩, _ => exact ((dat2 (V7 m ρ) c).arrAt_in 0 rfl _).trans (A_eq2 (V7 m ρ) c 0)
    | ⟨1, _⟩, _ => exact ((dat2 (V7 m ρ) c).arrAt_in 1 rfl _).trans (A_eq2 (V7 m ρ) c 1)
    | ⟨2, _⟩, _ => exact ((dat2 (V7 m ρ) c).arrAt_in 2 rfl _).trans (A_eq2 (V7 m ρ) c 2)
    | ⟨3, _⟩, _ => exact ((dat2 (V7 m ρ) c).arrAt_in 3 rfl _).trans (A_eq2 (V7 m ρ) c 3)
    | ⟨4, _⟩, _ => exact ((dat2 (V7 m ρ) c).arrAt_in 4 rfl _).trans (A_eq2 (V7 m ρ) c 4)
    | ⟨5, _⟩, h => exact (h List.mem_cons_self).elim
    | ⟨6, _⟩, h => exact (h (List.mem_cons_of_mem _ List.mem_cons_self)).elim
  · exact W8_of_ne m ρ c r fun w e => hr ⟨w, e⟩
theorem W9_kept (c : Dev nD) (r : Ref sig .tc) (h : r ∉ hostOps3_W) : W9 m ρ c r = W8 m ρ c r :=
  StableHlo.after_of_writes_sub hostOps3 _ hostOps3_writes h
/-- Region 3 changes only its output arrays. -/
theorem W10_kept (c : Dev nD) (r : Ref sig .tc) (h : r ∉ ([main_v52_0, main_v52_1] : List (Ref sig .tc))) : W10 m ρ c r = W9 m ρ c r := by
  by_cases hr : ∃ w, Pipeline.arrRef spec3 w = r
  · obtain ⟨w, rfl⟩ := hr
    refine (W10_arr m ρ c w).trans ?_
    match w, h with
    | ⟨0, _⟩, _ => exact ((dat3 (V9 m ρ) c).arrAt_in 0 rfl _).trans (A_eq3 (V9 m ρ) c 0)
    | ⟨1, _⟩, _ => exact ((dat3 (V9 m ρ) c).arrAt_in 1 rfl _).trans (A_eq3 (V9 m ρ) c 1)
    | ⟨2, _⟩, _ => exact ((dat3 (V9 m ρ) c).arrAt_in 2 rfl _).trans (A_eq3 (V9 m ρ) c 2)
    | ⟨3, _⟩, _ => exact ((dat3 (V9 m ρ) c).arrAt_in 3 rfl _).trans (A_eq3 (V9 m ρ) c 3)
    | ⟨4, _⟩, _ => exact ((dat3 (V9 m ρ) c).arrAt_in 4 rfl _).trans (A_eq3 (V9 m ρ) c 4)
    | ⟨5, _⟩, h => exact (h List.mem_cons_self).elim
    | ⟨6, _⟩, h => exact (h (List.mem_cons_of_mem _ List.mem_cons_self)).elim
  · exact W10_of_ne m ρ c r fun w e => hr ⟨w, e⟩
theorem W11_kept (c : Dev nD) (r : Ref sig .tc) (h : r ∉ hostOps4_W) : W11 m ρ c r = W10 m ρ c r :=
  StableHlo.after_of_writes_sub hostOps4 _ hostOps4_writes h
/-- Region 4 changes only its output arrays. -/
theorem W12_kept (c : Dev nD) (r : Ref sig .tc) (h : r ∉ ([main_v63_0, main_v63_1] : List (Ref sig .tc))) : W12 m ρ c r = W11 m ρ c r := by
  by_cases hr : ∃ w, Pipeline.arrRef spec4 w = r
  · obtain ⟨w, rfl⟩ := hr
    refine (W12_arr m ρ c w).trans ?_
    match w, h with
    | ⟨0, _⟩, _ => exact ((dat4 (V11 m ρ) c).arrAt_in 0 rfl _).trans (A_eq4 (V11 m ρ) c 0)
    | ⟨1, _⟩, _ => exact ((dat4 (V11 m ρ) c).arrAt_in 1 rfl _).trans (A_eq4 (V11 m ρ) c 1)
    | ⟨2, _⟩, _ => exact ((dat4 (V11 m ρ) c).arrAt_in 2 rfl _).trans (A_eq4 (V11 m ρ) c 2)
    | ⟨3, _⟩, _ => exact ((dat4 (V11 m ρ) c).arrAt_in 3 rfl _).trans (A_eq4 (V11 m ρ) c 3)
    | ⟨4, _⟩, _ => exact ((dat4 (V11 m ρ) c).arrAt_in 4 rfl _).trans (A_eq4 (V11 m ρ) c 4)
    | ⟨5, _⟩, h => exact (h List.mem_cons_self).elim
    | ⟨6, _⟩, h => exact (h (List.mem_cons_of_mem _ List.mem_cons_self)).elim
  · exact W12_of_ne m ρ c r fun w e => hr ⟨w, e⟩
theorem W13_kept (c : Dev nD) (r : Ref sig .tc) (h : r ∉ hostOps5_W) : W13 m ρ c r = W12 m ρ c r :=
  StableHlo.after_of_writes_sub hostOps5 _ hostOps5_writes h
/-- Region 5 changes only its output arrays. -/
theorem W14_kept (c : Dev nD) (r : Ref sig .tc) (h : r ∉ ([main_v74_0, main_v74_1] : List (Ref sig .tc))) : W14 m ρ c r = W13 m ρ c r := by
  by_cases hr : ∃ w, Pipeline.arrRef spec5 w = r
  · obtain ⟨w, rfl⟩ := hr
    refine (W14_arr m ρ c w).trans ?_
    match w, h with
    | ⟨0, _⟩, _ => exact ((dat5 (V13 m ρ) c).arrAt_in 0 rfl _).trans (A_eq5 (V13 m ρ) c 0)
    | ⟨1, _⟩, _ => exact ((dat5 (V13 m ρ) c).arrAt_in 1 rfl _).trans (A_eq5 (V13 m ρ) c 1)
    | ⟨2, _⟩, _ => exact ((dat5 (V13 m ρ) c).arrAt_in 2 rfl _).trans (A_eq5 (V13 m ρ) c 2)
    | ⟨3, _⟩, _ => exact ((dat5 (V13 m ρ) c).arrAt_in 3 rfl _).trans (A_eq5 (V13 m ρ) c 3)
    | ⟨4, _⟩, _ => exact ((dat5 (V13 m ρ) c).arrAt_in 4 rfl _).trans (A_eq5 (V13 m ρ) c 4)
    | ⟨5, _⟩, h => exact (h List.mem_cons_self).elim
    | ⟨6, _⟩, h => exact (h (List.mem_cons_of_mem _ List.mem_cons_self)).elim
  · exact W14_of_ne m ρ c r fun w e => hr ⟨w, e⟩

/-! ## The arguments end as launched -/

theorem W14_main_arg0 (c : Dev nD) : W14 m ρ c main_arg0 = m ((c : Thread nD τ).loc main_arg0) :=
  (W14_kept m ρ c main_arg0 (by decide)).trans <| (W13_kept m ρ c main_arg0 (by decide)).trans <| (W12_kept m ρ c main_arg0 (by decide)).trans <| (W11_kept m ρ c main_arg0 (by decide)).trans <| (W10_kept m ρ c main_arg0 (by decide)).trans <| (W9_kept m ρ c main_arg0 (by decide)).trans <| (W8_kept m ρ c main_arg0 (by decide)).trans <| (W7_kept m ρ c main_arg0 (by decide)).trans <| (W6_kept m ρ c main_arg0 (by decide)).trans <| (W5_kept m ρ c main_arg0 (by decide)).trans <| (W4_kept m ρ c main_arg0 (by decide)).trans <| (W3_kept m ρ c main_arg0 (by decide)).trans <| (W2_kept m ρ c main_arg0 (by decide)).trans <| (W1_kept m ρ c main_arg0 (by decide)).trans <| rfl
theorem W14_main_arg1 (c : Dev nD) : W14 m ρ c main_arg1 = m ((c : Thread nD τ).loc main_arg1) :=
  (W14_kept m ρ c main_arg1 (by decide)).trans <| (W13_kept m ρ c main_arg1 (by decide)).trans <| (W12_kept m ρ c main_arg1 (by decide)).trans <| (W11_kept m ρ c main_arg1 (by decide)).trans <| (W10_kept m ρ c main_arg1 (by decide)).trans <| (W9_kept m ρ c main_arg1 (by decide)).trans <| (W8_kept m ρ c main_arg1 (by decide)).trans <| (W7_kept m ρ c main_arg1 (by decide)).trans <| (W6_kept m ρ c main_arg1 (by decide)).trans <| (W5_kept m ρ c main_arg1 (by decide)).trans <| (W4_kept m ρ c main_arg1 (by decide)).trans <| (W3_kept m ρ c main_arg1 (by decide)).trans <| (W2_kept m ρ c main_arg1 (by decide)).trans <| (W1_kept m ρ c main_arg1 (by decide)).trans <| rfl
theorem W14_main_arg2 (c : Dev nD) : W14 m ρ c main_arg2 = m ((c : Thread nD τ).loc main_arg2) :=
  (W14_kept m ρ c main_arg2 (by decide)).trans <| (W13_kept m ρ c main_arg2 (by decide)).trans <| (W12_kept m ρ c main_arg2 (by decide)).trans <| (W11_kept m ρ c main_arg2 (by decide)).trans <| (W10_kept m ρ c main_arg2 (by decide)).trans <| (W9_kept m ρ c main_arg2 (by decide)).trans <| (W8_kept m ρ c main_arg2 (by decide)).trans <| (W7_kept m ρ c main_arg2 (by decide)).trans <| (W6_kept m ρ c main_arg2 (by decide)).trans <| (W5_kept m ρ c main_arg2 (by decide)).trans <| (W4_kept m ρ c main_arg2 (by decide)).trans <| (W3_kept m ρ c main_arg2 (by decide)).trans <| (W2_kept m ρ c main_arg2 (by decide)).trans <| (W1_kept m ρ c main_arg2 (by decide)).trans <| rfl

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c)⟩) (run_all m ρ)

end Cert.Kernel.Fr

end
-- ==== Proof.Spec.lean ====
/- The whole-array functions the regions compute, over the full 100000×16 arrays: the row scaling Z = X · D, and one
   propagation step  Y' = where(mask ≠ 0, X, min(1, max(−1, 0·Y + ½·(A · D) + ½·X))),  Z' = Y' · D,  every operation
   entrywise. Stated for any float interpretation: nothing here uses a law of arithmetic. -/
import proofs.«169070_j69999376990389_2_alg».proof.KernelIdeal

noncomputable section

namespace Cert.Spec

open Idealize.ShloMosaic Cert.KernelIdeal

variable {F : FTy → Type} [FloatOps F]

/-- The scaled features: X · D entry by entry. -/
def scaleZ (X D : FVec F S100000x16 .f32) : FVec F S100000x16 .f32 := mulf X D

/-- The clamped combination  min(1, max(−1, 0·Y + ½·(A · D) + ½·X))  entry by entry. -/
def combine (Y X A D : FVec F S100000x16 .f32) : FVec F S100000x16 .f32 :=
  minimumf (broadcast S100000x16 (Scalar.ofBits .f32 0x3F800000#32))
    (maximumf (broadcast S100000x16 (Scalar.ofBits .f32 0xBF800000#32))
      (addf (addf (mulf (broadcast S100000x16 (Scalar.ofBits .f32 0x00000000#32)) Y)
                  (mulf (broadcast S100000x16 (Scalar.ofBits .f32 0x3F000000#32)) (mulf A D)))
            (mulf (broadcast S100000x16 (Scalar.ofBits .f32 0x3F000000#32)) X)))

/-- The next iterate: the features where the (integer) mask is nonzero, the clamped combination elsewhere. -/
def updY (Y X A D : FVec F S100000x16 .f32) (M : IVec S100000x16 32) : FVec F S100000x16 .f32 :=
  select (cmpi .ne M (broadcast S100000x16 0#32)) X (combine Y X A D)

/-- The next iterate scaled by D. -/
def updZ (Y X A D : FVec F S100000x16 .f32) (M : IVec S100000x16 32) : FVec F S100000x16 .f32 :=
  mulf (updY Y X A D M) D

end Cert.Spec

end
-- ==== Proof.SpecRun.lean ====
/- The whole computation as one function of the three argument arrays (edges E : i32[2, 3200000], features X, mask K):
   the source and destination index columns, the inverse square-root in-degrees D (0 where the degree is 0), the
   aggregation  agg(Z) = scatter-add over destinations of the rows of Z gathered at the sources,  and five propagation
   steps from Y = X, Z = X · D, each  Y' = updY Y X agg(Z) D M,  Z' = Y' · D.  The host operations are spelt as the
   program spells them; nothing here is opened by the proofs that cite it. -/
import proofs.«169070_j69999376990389_2_alg».proof.Proof.Spec
import proofs.«169070_j69999376990389_2_alg».proof.Proof.Gen.KernelIdeal

noncomputable section

namespace Cert.Spec

open Idealize.ShloMosaic Cert.KernelIdeal Cert.KernelIdeal.Gen

variable {F : FTy → Type} [FloatOps F]

/-- Row 0 of the edge array: the source node of every edge. -/
def srcOf (E : IVec S2x3200000 32) : IVec S3200000 32 :=
  shapeCast S3200000 (extractStridedSlice S1x3200000 ![0, 0] E slices_S2x3200000_S1x3200000_0_0) shapeCasts_S1x3200000_S3200000
/-- Row 1 of the edge array: the destination node of every edge. -/
def dstOf (E : IVec S2x3200000 32) : IVec S3200000 32 :=
  shapeCast S3200000 (extractStridedSlice S1x3200000 ![1, 0] E slices_S2x3200000_S1x3200000_1_0) shapeCasts_S1x3200000_S3200000
/-- The destinations as a column of scatter indices. -/
def dstCol (E : IVec S2x3200000 32) : IVec S3200000x1 32 :=
  broadcastInDim S3200000x1 ![0] bcast_S3200000_S3200000x1_0 (dstOf E)
/-- The sources, negative ones wrapped by the number of nodes, as a column of gather indices. -/
def srcCol (E : IVec S2x3200000 32) : IVec S3200000x1 32 :=
  broadcastInDim S3200000x1 ![0] bcast_S3200000_S3200000x1_0
    (select (cmpi .slt (srcOf E) (broadcastInDim S3200000 ![] bcast_S_S3200000 (constantI S_ 32 0#32)))
      (addi (srcOf E) (broadcastInDim S3200000 ![] bcast_S_S3200000 (constantI S_ 32 100000#32))) (srcOf E))
/-- The in-degree of every node: ones scatter-added at the destinations. -/
def degOf (E : IVec S2x3200000 32) : FVec F S100000 .f32 :=
  Host.scatterAdd scatter_S100000_S3200000x1_S3200000_n_0_0_1 (broadcastInDim S100000 ![] bcast_S_S100000 (constant S_ .f32 0x00000000#32))
    (dstCol E) (broadcastInDim S3200000 ![] bcast_S_S3200000 (constant S_ .f32 0x3F800000#32))
/-- deg^(-1/2) where the degree is positive, 0 elsewhere. -/
def dinvOf (E : IVec S2x3200000 32) : FVec F S100000 .f32 :=
  select (cmpf (F := F) .ogt (degOf E) (broadcastInDim S100000 ![] bcast_S_S100000 (constant S_ .f32 0x00000000#32)))
    (Host.rsqrt (maximumf (degOf E) (broadcastInDim S100000 ![] bcast_S_S100000 (constant S_ .f32 0x3F800000#32))))
    (broadcastInDim S100000 ![] bcast_S_S100000 (id (constant S_ .f32 0x00000000#32)))
/-- The inverse square-root degrees spread over the 16 feature columns. -/
def D2 (E : IVec S2x3200000 32) : FVec F S100000x16 .f32 :=
  broadcastInDim S100000x16 ![0, 1] bcast_S100000x1_S100000x16_0_1 (broadcastInDim S100000x1 ![0] bcast_S100000_S100000x1_0 (dinvOf E))
/-- The training mask as 32-bit integers spread over the 16 feature columns. -/
def M32 (K : IVec S100000 1) : IVec S100000x16 32 :=
  broadcastInDim S100000x16 ![0, 1] bcast_S100000x1_S100000x16_0_1
    (extui 32 (broadcastInDim S100000x1 ![0] bcast_S100000_S100000x1_0 K) natLt_1_32)
/-- The aggregation: rows of Z gathered at the sources, scatter-added at the destinations. -/
def agg (E : IVec S2x3200000 32) (Z : FVec F S100000x16 .f32) : FVec F S100000x16 .f32 :=
  Host.scatterAdd scatter_S100000x16_S3200000x1_S3200000x16_1_0_0_1
    (broadcastInDim S100000x16 ![] bcast_S_S100000x16 (constant S_ .f32 0x00000000#32)) (dstCol E)
    (Host.gather gather_S100000x16_S3200000x1_S3200000x16_1_0_n_n_0_1_116 Z (srcCol E))

/-- One propagation step on the pair (iterate, scaled iterate). -/
def kstep (E : IVec S2x3200000 32) (X : FVec F S100000x16 .f32) (K : IVec S100000 1)
    (YZ : FVec F S100000x16 .f32 × FVec F S100000x16 .f32) : FVec F S100000x16 .f32 × FVec F S100000x16 .f32 :=
  (updY YZ.1 X (agg E YZ.2) (D2 E) (M32 K), updZ YZ.1 X (agg E YZ.2) (D2 E) (M32 K))

/-- The result: the iterate after five steps from (X, X · D). -/
def kres (E : IVec S2x3200000 32) (X : FVec F S100000x16 .f32) (K : IVec S100000 1) : FVec F S100000x16 .f32 :=
  (kstep E X K (kstep E X K (kstep E X K (kstep E X K (kstep E X K (X, scaleZ X (D2 E))))))).1

end Cert.Spec

end
-- ==== Proof.Value0.lean ====
/- Region 0's value: once all 25 grid points have run, the output array holds the entrywise product X · D of the two
   input arrays as the region found them. Each point's output block is the block, at that point, of the whole-array
   product (the three windows share one index map and one block size, so their blocks sit at the same rows), and the
   25 blocks of 4000 rows tile the 100000 rows. -/
import proofs.«169070_j69999376990389_2_alg».proof.Proof.Region0
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz0 : (![0, 0] : Fin 2 → Nat) = fun _ => 0 := funext fun a => by fin_cases a <;> rfl

/-- The body's payload is the entrywise product of its two loaded blocks. -/
theorem pay0_2_eq (x0 x1 : Vec F S4000x16 .f32) : k0_pay1 x0 x1 = mulf x0 x1 := by
  unfold k0_pay1; simp only [shapeCast_self]

/-- The index maps over the grid: both inputs' blocks sit where the output's does, and the output's block at point t
    is block row t, block column 0. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is block t of the entrywise product of the two input arrays. -/
theorem flushed0_2_eq (c : Dev nD) (t : Fin cfg0.N) :
    (dat0 V c).flushed 2 t = ((cfg0.win 2).blk t).view.read (Elt F)
      (Cert.Spec.scaleZ (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S4000x16) hz0]
  rw [pay0_2_eq]
  obtain ⟨e0, e1, e2, e3, e4, e5⟩ := idx_facts0 t
  funext j
  show FloatOps.mulf (V c (Pipeline.arrRef spec0 0) (((cfg0.win 0).blk t).view.emb j)) (V c (Pipeline.arrRef spec0 1) (((cfg0.win 1).blk t).view.emb j))
    = FloatOps.mulf (V c (Pipeline.arrRef spec0 0) (((cfg0.win 2).blk t).view.emb j)) (V c (Pipeline.arrRef spec0 1) (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 16 + 1 * (j 1).val = win0_2.index t (1 : Fin 2) * 16 + 1 * (j 1).val; omega
  have h1 : ((cfg0.win 1).blk t).view.emb j = ((cfg0.win 2).blk t).view.emb j := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 16 + 1 * (j 1).val = win0_2.index t (1 : Fin 2) * 16 + 1 * (j 1).val; omega
  rw [h0, h1]

/-- An index of the array is in point t's output block iff each coordinate is in the block's range on its axis. -/
theorem mem_blk0_2 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v19).slice (win0_2.rect t)).set ↔ _
  rw [View.set_slice_whole, Rect.mem_set_unit]
  exact Iff.rfl

/-- Every index of the output array is in some point's block: row r is in the block of point r / 4000. -/
theorem covered0_2 (i : S100000x16.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 16 := (i 1).isLt
  have ht : (i 0).val / 4000 < cfg0.N := by omega
  obtain ⟨-, -, -, -, e4, e5⟩ := idx_facts0 ⟨(i 0).val / 4000, ht⟩
  have e4' : win0_2.index ⟨(i 0).val / 4000, ht⟩ (0 : Fin 2) = (i 0).val / 4000 := e4
  refine ⟨⟨(i 0).val / 4000, ht⟩, flush0_2 _, ?_⟩
  rw [mem_blk0_2]
  intro a
  match a with
  | ⟨0, _⟩ => show win0_2.index ⟨(i 0).val / 4000, ht⟩ (0 : Fin 2) * 4000 ≤ (i 0).val ∧ (i 0).val < win0_2.index ⟨(i 0).val / 4000, ht⟩ (0 : Fin 2) * 4000 + 4000; omega
  | ⟨1, _⟩ => show win0_2.index ⟨(i 0).val / 4000, ht⟩ (1 : Fin 2) * 16 ≤ (i 1).val ∧ (i 1).val < win0_2.index ⟨(i 0).val / 4000, ht⟩ (1 : Fin 2) * 16 + 16; omega

/-- The output array after the last point: the entrywise product of the two input arrays as the region found them. -/
theorem final0_2 (c : Dev nD) : (dat0 V c).arrAt 2 cfg0.N
    = Cert.Spec.scaleZ (V c (Pipeline.arrRef spec0 0)) (V c (Pipeline.arrRef spec0 1)) :=
  (dat0 V c).arrAt_eq_of_cover 2 _ (fun t _ => flushed0_2_eq V c t) (covered0_2)

end Cert.KernelIdeal.Fr

end
-- ==== Proof.Value1.lean ====
/- Region 1's value: once all 25 grid points have run, the two output arrays hold the next iterate
   Y' = where(mask ≠ 0, X, min(1, max(−1, 0·Y + ½·(A · D) + ½·X))) and its scaling Z' = Y' · D, as whole-array
   functions of the five input arrays as the region found them. Every operation of the body is entrywise and all
   seven windows share one index map and one block size, so each point's output blocks are the blocks, at that point,
   of the whole-array functions; the 25 blocks of 4000 rows tile the 100000 rows. -/
import proofs.«169070_j69999376990389_2_alg».proof.Proof.Region1
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz1 : (![0, 0] : Fin 2 → Nat) = fun _ => 0 := funext fun a => by fin_cases a <;> rfl

/-! ## The payloads on blocks of whole arrays -/

/-- The next-iterate payload on the blocks of five arrays read through one embedding e of the block into the array
    is the block, through e, of the whole-array next iterate: every operation is entrywise. -/
theorem pay1_5_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k1_pay1 xA xD xY xX xM xX = fun j => Cert.Spec.updY Y X A D M (e j) := by
  subst hY hX hA hD hM
  unfold k1_pay1
  simp only [shapeCast_self]
  rfl

/-- The scaled next-iterate payload likewise. -/
theorem pay1_6_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k1_pay2 xA xD xY xX xM xX xD = fun j => Cert.Spec.updZ Y X A D M (e j) := by
  unfold k1_pay2
  rw [pay1_5_of e Y X A D M xY xX xA xD xM hY hX hA hD hM]
  subst hD
  simp only [shapeCast_self]
  rfl

/-! ## Where the blocks sit -/

/-- The index maps over the grid: every window's block at point t is block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point t sits at the same rows of its array as the next-iterate output's block. -/
theorem emb1_0_eq (t : Fin cfg1.N) (j : S4000x16.Idx) :
    (((cfg1.win 0).blk t).view.emb j : S100000x16.Idx) = ((cfg1.win 5).blk t).view.emb j := by
  have hf := idx_facts1 t
  funext a; apply Fin.ext
  match a with
  | ⟨0, _⟩ => show win1_0.index t (0 : Fin 2) * 4000 + 1 * (j 0).val = win1_5.index t (0 : Fin 2) * 4000 + 1 * (j 0).val; omega
  | ⟨1, _⟩ => show win1_0.index t (1 : Fin 2) * 16 + 1 * (j 1).val = win1_5.index t (1 : Fin 2) * 16 + 1 * (j 1).val; omega

/-- Window 1's block at point t sits at the same rows of its array as the next-iterate output's block. -/
theorem emb1_1_eq (t : Fin cfg1.N) (j : S4000x16.Idx) :
    (((cfg1.win 1).blk t).view.emb j : S100000x16.Idx) = ((cfg1.win 5).blk t).view.emb j := by
  have hf := idx_facts1 t
  funext a; apply Fin.ext
  match a with
  | ⟨0, _⟩ => show win1_1.index t (0 : Fin 2) * 4000 + 1 * (j 0).val = win1_5.index t (0 : Fin 2) * 4000 + 1 * (j 0).val; omega
  | ⟨1, _⟩ => show win1_1.index t (1 : Fin 2) * 16 + 1 * (j 1).val = win1_5.index t (1 : Fin 2) * 16 + 1 * (j 1).val; omega

/-- Window 2's block at point t sits at the same rows of its array as the next-iterate output's block. -/
theorem emb1_2_eq (t : Fin cfg1.N) (j : S4000x16.Idx) :
    (((cfg1.win 2).blk t).view.emb j : S100000x16.Idx) = ((cfg1.win 5).blk t).view.emb j := by
  have hf := idx_facts1 t
  funext a; apply Fin.ext
  match a with
  | ⟨0, _⟩ => show win1_2.index t (0 : Fin 2) * 4000 + 1 * (j 0).val = win1_5.index t (0 : Fin 2) * 4000 + 1 * (j 0).val; omega
  | ⟨1, _⟩ => show win1_2.index t (1 : Fin 2) * 16 + 1 * (j 1).val = win1_5.index t (1 : Fin 2) * 16 + 1 * (j 1).val; omega

/-- Window 3's block at point t sits at the same rows of its array as the next-iterate output's block. -/
theorem emb1_3_eq (t : Fin cfg1.N) (j : S4000x16.Idx) :
    (((cfg1.win 3).blk t).view.emb j : S100000x16.Idx) = ((cfg1.win 5).blk t).view.emb j := by
  have hf := idx_facts1 t
  funext a; apply Fin.ext
  match a with
  | ⟨0, _⟩ => show win1_3.index t (0 : Fin 2) * 4000 + 1 * (j 0).val = win1_5.index t (0 : Fin 2) * 4000 + 1 * (j 0).val; omega
  | ⟨1, _⟩ => show win1_3.index t (1 : Fin 2) * 16 + 1 * (j 1).val = win1_5.index t (1 : Fin 2) * 16 + 1 * (j 1).val; omega

/-- Window 4's block at point t sits at the same rows of its array as the next-iterate output's block. -/
theorem emb1_4_eq (t : Fin cfg1.N) (j : S4000x16.Idx) :
    (((cfg1.win 4).blk t).view.emb j : S100000x16.Idx) = ((cfg1.win 5).blk t).view.emb j := by
  have hf := idx_facts1 t
  funext a; apply Fin.ext
  match a with
  | ⟨0, _⟩ => show win1_4.index t (0 : Fin 2) * 4000 + 1 * (j 0).val = win1_5.index t (0 : Fin 2) * 4000 + 1 * (j 0).val; omega
  | ⟨1, _⟩ => show win1_4.index t (1 : Fin 2) * 16 + 1 * (j 1).val = win1_5.index t (1 : Fin 2) * 16 + 1 * (j 1).val; omega

/-- Window 6's block at point t sits at the same rows of its array as the next-iterate output's block. -/
theorem emb1_6_eq (t : Fin cfg1.N) (j : S4000x16.Idx) :
    (((cfg1.win 6).blk t).view.emb j : S100000x16.Idx) = ((cfg1.win 5).blk t).view.emb j := by
  have hf := idx_facts1 t
  funext a; apply Fin.ext
  match a with
  | ⟨0, _⟩ => show win1_6.index t (0 : Fin 2) * 4000 + 1 * (j 0).val = win1_5.index t (0 : Fin 2) * 4000 + 1 * (j 0).val; omega
  | ⟨1, _⟩ => show win1_6.index t (1 : Fin 2) * 16 + 1 * (j 1).val = win1_5.index t (1 : Fin 2) * 16 + 1 * (j 1).val; omega

/-- Input window 0's block at point t is its array read at the output block's rows. -/
theorem blk1_0_eq (c : Dev nD) (t : Fin cfg1.N) :
    (iblk1 V c 0 t : Vec F S4000x16 .f32) = fun j => V c (Pipeline.arrRef spec1 0) (((cfg1.win 5).blk t).view.emb j) := by
  funext j
  show V c (Pipeline.arrRef spec1 0) (((cfg1.win 0).blk t).view.emb j) = V c (Pipeline.arrRef spec1 0) (((cfg1.win 5).blk t).view.emb j)
  rw [emb1_0_eq]

/-- Input window 1's block at point t is its array read at the output block's rows. -/
theorem blk1_1_eq (c : Dev nD) (t : Fin cfg1.N) :
    (iblk1 V c 1 t : Vec F S4000x16 .f32) = fun j => V c (Pipeline.arrRef spec1 1) (((cfg1.win 5).blk t).view.emb j) := by
  funext j
  show V c (Pipeline.arrRef spec1 1) (((cfg1.win 1).blk t).view.emb j) = V c (Pipeline.arrRef spec1 1) (((cfg1.win 5).blk t).view.emb j)
  rw [emb1_1_eq]

/-- Input window 2's block at point t is its array read at the output block's rows. -/
theorem blk1_2_eq (c : Dev nD) (t : Fin cfg1.N) :
    (iblk1 V c 2 t : Vec F S4000x16 .f32) = fun j => V c (Pipeline.arrRef spec1 2) (((cfg1.win 5).blk t).view.emb j) := by
  funext j
  show V c (Pipeline.arrRef spec1 2) (((cfg1.win 2).blk t).view.emb j) = V c (Pipeline.arrRef spec1 2) (((cfg1.win 5).blk t).view.emb j)
  rw [emb1_2_eq]

/-- Input window 3's block at point t is its array read at the output block's rows. -/
theorem blk1_3_eq (c : Dev nD) (t : Fin cfg1.N) :
    (iblk1 V c 3 t : Vec F S4000x16 .f32) = fun j => V c (Pipeline.arrRef spec1 3) (((cfg1.win 5).blk t).view.emb j) := by
  funext j
  show V c (Pipeline.arrRef spec1 3) (((cfg1.win 3).blk t).view.emb j) = V c (Pipeline.arrRef spec1 3) (((cfg1.win 5).blk t).view.emb j)
  rw [emb1_3_eq]

/-- Input window 4's block at point t is its array read at the output block's rows. -/
theorem blk1_4_eq (c : Dev nD) (t : Fin cfg1.N) :
    (iblk1 V c 4 t : Vec F S4000x16 .i32) = fun j => V c (Pipeline.arrRef spec1 4) (((cfg1.win 5).blk t).view.emb j) := by
  funext j
  show V c (Pipeline.arrRef spec1 4) (((cfg1.win 4).blk t).view.emb j) = V c (Pipeline.arrRef spec1 4) (((cfg1.win 5).blk t).view.emb j)
  rw [emb1_4_eq]

/-! ## What each point writes back -/

/-- What point t writes back through output window 5 is block t of the whole-array next iterate. -/
theorem flushed1_5_eq (c : Dev nD) (t : Fin cfg1.N) :
    (dat1 V c).flushed 5 t = ((cfg1.win 5).blk t).view.read (Elt F)
      (Cert.Spec.updY (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S4000x16) hz1]
  exact pay1_5_of (fun j => ((cfg1.win 5).blk t).view.emb j) _ _ _ _ _ _ _ _ _ _
    (blk1_0_eq V c t) (blk1_1_eq V c t) (blk1_2_eq V c t) (blk1_3_eq V c t) (blk1_4_eq V c t)

/-- What point t writes back through output window 6 is block t of the whole-array scaled next iterate. -/
theorem flushed1_6_eq (c : Dev nD) (t : Fin cfg1.N) :
    (dat1 V c).flushed 6 t = ((cfg1.win 6).blk t).view.read (Elt F)
      (Cert.Spec.updZ (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((dat1 V c).after 6 t) = _
  rw [after1_6]
  unfold out1_6
  rw [View.canon_unit_zero hz1]
  simp only [View.ld_unit_zero (S := S4000x16) hz1]
  refine (pay1_6_of (fun j => ((cfg1.win 5).blk t).view.emb j) _ _ _ _ _ _ _ _ _ _
    (blk1_0_eq V c t) (blk1_1_eq V c t) (blk1_2_eq V c t) (blk1_3_eq V c t) (blk1_4_eq V c t)).trans ?_
  funext j
  show Cert.Spec.updZ (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
    = Cert.Spec.updZ (V c (Pipeline.arrRef spec1 0)) (V c (Pipeline.arrRef spec1 1)) (V c (Pipeline.arrRef spec1 2)) (V c (Pipeline.arrRef spec1 3)) (V c (Pipeline.arrRef spec1 4)) (((cfg1.win 6).blk t).view.emb j)
  rw [emb1_6_eq]

/-! ## The blocks tile the arrays -/

/-- An index of the array is in point t's block of output window 5 iff each coordinate is in the block's range. -/
theorem mem_blk1_5 (t : Fin cfg1.N) (i : S100000x16.Idx) :
    i ∈ ((cfg1.win 5).blk t).view.set ↔ ∀ a : Fin 2, win1_5.index t a * S4000x16.size a ≤ (i a).val ∧ (i a).val < win1_5.index t a * S4000x16.size a + S4000x16.size a := by
  show i ∈ ((View.whole (Pipeline.arrRef spec1 5)).slice (win1_5.rect t)).set ↔ _
  rw [View.set_slice_whole, Rect.mem_set_unit]
  exact Iff.rfl

/-- An index of the array is in point t's block of output window 6 iff each coordinate is in the block's range. -/
theorem mem_blk1_6 (t : Fin cfg1.N) (i : S100000x16.Idx) :
    i ∈ ((cfg1.win 6).blk t).view.set ↔ ∀ a : Fin 2, win1_6.index t a * S4000x16.size a ≤ (i a).val ∧ (i a).val < win1_6.index t a * S4000x16.size a + S4000x16.size a := by
  show i ∈ ((View.whole (Pipeline.arrRef spec1 6)).slice (win1_6.rect t)).set ↔ _
  rw [View.set_slice_whole, Rect.mem_set_unit]
  exact Iff.rfl

/-- Every index of output array 5 is in some point's block: row r is in the block of point r / 4000. -/
theorem covered1_5 (i : S100000x16.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 16 := (i 1).isLt
  have ht : (i 0).val / 4000 < cfg1.N := by omega
  have hf := idx_facts1 ⟨(i 0).val / 4000, ht⟩
  have hr : win1_5.index ⟨(i 0).val / 4000, ht⟩ (0 : Fin 2) = (i 0).val / 4000 := by
    obtain ⟨-, -, -, -, -, -, -, -, -, -, e, -, -, -⟩ := hf; exact e
  have hc : win1_5.index ⟨(i 0).val / 4000, ht⟩ (1 : Fin 2) = 0 := by
    obtain ⟨-, -, -, -, -, -, -, -, -, -, -, e, -, -⟩ := hf; exact e
  refine ⟨⟨(i 0).val / 4000, ht⟩, flush1_5 _, ?_⟩
  rw [mem_blk1_5]
  intro a
  match a with
  | ⟨0, _⟩ => show win1_5.index ⟨(i 0).val / 4000, ht⟩ (0 : Fin 2) * 4000 ≤ (i 0).val ∧ (i 0).val < win1_5.index ⟨(i 0).val / 4000, ht⟩ (0 : Fin 2) * 4000 + 4000; omega
  | ⟨1, _⟩ => show win1_5.index ⟨(i 0).val / 4000, ht⟩ (1 : Fin 2) * 16 ≤ (i 1).val ∧ (i 1).val < win1_5.index ⟨(i 0).val / 4000, ht⟩ (1 : Fin 2) * 16 + 16; omega

/-- Every index of output array 6 is in some point's block: row r is in the block of point r / 4000. -/
theorem covered1_6 (i : S100000x16.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 16 := (i 1).isLt
  have ht : (i 0).val / 4000 < cfg1.N := by omega
  have hf := idx_facts1 ⟨(i 0).val / 4000, ht⟩
  have hr : win1_6.index ⟨(i 0).val / 4000, ht⟩ (0 : Fin 2) = (i 0).val / 4000 := by
    obtain ⟨-, -, -, -, -, -, -, -, -, -, -, -, e, -⟩ := hf; exact e
  have hc : win1_6.index ⟨(i 0).val / 4000, ht⟩ (1 : Fin 2) = 0 := by
    obtain ⟨-, -, -, -, -, -, -, -, -, -, -, -, -, e⟩ := hf; exact e
  refine ⟨⟨(i 0).val / 4000, ht⟩, flush1_6 _, ?_⟩
  rw [mem_blk1_6]
  intro a
  match a with
  | ⟨0, _⟩ => show win1_6.index ⟨(i 0).val / 4000, ht⟩ (0 : Fin 2) * 4000 ≤ (i 0).val ∧ (i 0).val < win1_6.index ⟨(i 0).val / 4000, ht⟩ (0 : Fin 2) * 4000 + 4000; omega
  | ⟨1, _⟩ => show win1_6.index ⟨(i 0).val / 4000, ht⟩ (1 : Fin 2) * 16 ≤ (i 1).val ∧ (i 1).val < win1_6.index ⟨(i 0).val / 4000, ht⟩ (1 : Fin 2) * 16 + 16; omega

/-! ## The arrays after the last point -/

/-- Output array 5 after the last point: the whole-array next iterate of the five input arrays as the region found
    them. -/
theorem final1_5 (c : Dev nD) : (dat1 V c).arrAt 5 cfg1.N
    = Cert.Spec.updY (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_5_eq V c t) covered1_5

/-- Output array 6 after the last point: the whole-array scaled next iterate. -/
theorem final1_6 (c : Dev nD) : (dat1 V c).arrAt 6 cfg1.N
    = Cert.Spec.updZ (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 6 _ (fun t _ => flushed1_6_eq V c t) covered1_6

end Cert.KernelIdeal.Fr

end
-- ==== Proof.Value2.lean ====
/- Region 2's value: once all 25 grid points have run, the two output arrays hold the next iterate
   Y' = where(mask ≠ 0, X, min(1, max(−1, 0·Y + ½·(A · D) + ½·X))) and its scaling Z' = Y' · D, as whole-array
   functions of the five input arrays as the region found them. Every operation of the body is entrywise and all
   seven windows share one index map and one block size, so each point's output blocks are the blocks, at that point,
   of the whole-array functions; the 25 blocks of 4000 rows tile the 100000 rows. -/
import proofs.«169070_j69999376990389_2_alg».proof.Proof.Region2
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz2 : (![0, 0] : Fin 2 → Nat) = fun _ => 0 := funext fun a => by fin_cases a <;> rfl

/-! ## The payloads on blocks of whole arrays -/

/-- The next-iterate payload on the blocks of five arrays read through one embedding e of the block into the array
    is the block, through e, of the whole-array next iterate: every operation is entrywise. -/
theorem pay2_5_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k2_pay1 xA xD xY xX xM xX = fun j => Cert.Spec.updY Y X A D M (e j) := by
  subst hY hX hA hD hM
  unfold k2_pay1
  simp only [shapeCast_self]
  rfl

/-- The scaled next-iterate payload likewise. -/
theorem pay2_6_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k2_pay2 xA xD xY xX xM xX xD = fun j => Cert.Spec.updZ Y X A D M (e j) := by
  unfold k2_pay2
  rw [pay2_5_of e Y X A D M xY xX xA xD xM hY hX hA hD hM]
  subst hD
  simp only [shapeCast_self]
  rfl

/-! ## Where the blocks sit -/

/-- The index maps over the grid: every window's block at point t is block row t, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Window 0's block at point t sits at the same rows of its array as the next-iterate output's block. -/
theorem emb2_0_eq (t : Fin cfg2.N) (j : S4000x16.Idx) :
    (((cfg2.win 0).blk t).view.emb j : S100000x16.Idx) = ((cfg2.win 5).blk t).view.emb j := by
  have hf := idx_facts2 t
  funext a; apply Fin.ext
  match a with
  | ⟨0, _⟩ => show win2_0.index t (0 : Fin 2) * 4000 + 1 * (j 0).val = win2_5.index t (0 : Fin 2) * 4000 + 1 * (j 0).val; omega
  | ⟨1, _⟩ => show win2_0.index t (1 : Fin 2) * 16 + 1 * (j 1).val = win2_5.index t (1 : Fin 2) * 16 + 1 * (j 1).val; omega

/-- Window 1's block at point t sits at the same rows of its array as the next-iterate output's block. -/
theorem emb2_1_eq (t : Fin cfg2.N) (j : S4000x16.Idx) :
    (((cfg2.win 1).blk t).view.emb j : S100000x16.Idx) = ((cfg2.win 5).blk t).view.emb j := by
  have hf := idx_facts2 t
  funext a; apply Fin.ext
  match a with
  | ⟨0, _⟩ => show win2_1.index t (0 : Fin 2) * 4000 + 1 * (j 0).val = win2_5.index t (0 : Fin 2) * 4000 + 1 * (j 0).val; omega
  | ⟨1, _⟩ => show win2_1.index t (1 : Fin 2) * 16 + 1 * (j 1).val = win2_5.index t (1 : Fin 2) * 16 + 1 * (j 1).val; omega

/-- Window 2's block at point t sits at the same rows of its array as the next-iterate output's block. -/
theorem emb2_2_eq (t : Fin cfg2.N) (j : S4000x16.Idx) :
    (((cfg2.win 2).blk t).view.emb j : S100000x16.Idx) = ((cfg2.win 5).blk t).view.emb j := by
  have hf := idx_facts2 t
  funext a; apply Fin.ext
  match a with
  | ⟨0, _⟩ => show win2_2.index t (0 : Fin 2) * 4000 + 1 * (j 0).val = win2_5.index t (0 : Fin 2) * 4000 + 1 * (j 0).val; omega
  | ⟨1, _⟩ => show win2_2.index t (1 : Fin 2) * 16 + 1 * (j 1).val = win2_5.index t (1 : Fin 2) * 16 + 1 * (j 1).val; omega

/-- Window 3's block at point t sits at the same rows of its array as the next-iterate output's block. -/
theorem emb2_3_eq (t : Fin cfg2.N) (j : S4000x16.Idx) :
    (((cfg2.win 3).blk t).view.emb j : S100000x16.Idx) = ((cfg2.win 5).blk t).view.emb j := by
  have hf := idx_facts2 t
  funext a; apply Fin.ext
  match a with
  | ⟨0, _⟩ => show win2_3.index t (0 : Fin 2) * 4000 + 1 * (j 0).val = win2_5.index t (0 : Fin 2) * 4000 + 1 * (j 0).val; omega
  | ⟨1, _⟩ => show win2_3.index t (1 : Fin 2) * 16 + 1 * (j 1).val = win2_5.index t (1 : Fin 2) * 16 + 1 * (j 1).val; omega

/-- Window 4's block at point t sits at the same rows of its array as the next-iterate output's block. -/
theorem emb2_4_eq (t : Fin cfg2.N) (j : S4000x16.Idx) :
    (((cfg2.win 4).blk t).view.emb j : S100000x16.Idx) = ((cfg2.win 5).blk t).view.emb j := by
  have hf := idx_facts2 t
  funext a; apply Fin.ext
  match a with
  | ⟨0, _⟩ => show win2_4.index t (0 : Fin 2) * 4000 + 1 * (j 0).val = win2_5.index t (0 : Fin 2) * 4000 + 1 * (j 0).val; omega
  | ⟨1, _⟩ => show win2_4.index t (1 : Fin 2) * 16 + 1 * (j 1).val = win2_5.index t (1 : Fin 2) * 16 + 1 * (j 1).val; omega

/-- Window 6's block at point t sits at the same rows of its array as the next-iterate output's block. -/
theorem emb2_6_eq (t : Fin cfg2.N) (j : S4000x16.Idx) :
    (((cfg2.win 6).blk t).view.emb j : S100000x16.Idx) = ((cfg2.win 5).blk t).view.emb j := by
  have hf := idx_facts2 t
  funext a; apply Fin.ext
  match a with
  | ⟨0, _⟩ => show win2_6.index t (0 : Fin 2) * 4000 + 1 * (j 0).val = win2_5.index t (0 : Fin 2) * 4000 + 1 * (j 0).val; omega
  | ⟨1, _⟩ => show win2_6.index t (1 : Fin 2) * 16 + 1 * (j 1).val = win2_5.index t (1 : Fin 2) * 16 + 1 * (j 1).val; omega

/-- Input window 0's block at point t is its array read at the output block's rows. -/
theorem blk2_0_eq (c : Dev nD) (t : Fin cfg2.N) :
    (iblk2 V c 0 t : Vec F S4000x16 .f32) = fun j => V c (Pipeline.arrRef spec2 0) (((cfg2.win 5).blk t).view.emb j) := by
  funext j
  show V c (Pipeline.arrRef spec2 0) (((cfg2.win 0).blk t).view.emb j) = V c (Pipeline.arrRef spec2 0) (((cfg2.win 5).blk t).view.emb j)
  rw [emb2_0_eq]

/-- Input window 1's block at point t is its array read at the output block's rows. -/
theorem blk2_1_eq (c : Dev nD) (t : Fin cfg2.N) :
    (iblk2 V c 1 t : Vec F S4000x16 .f32) = fun j => V c (Pipeline.arrRef spec2 1) (((cfg2.win 5).blk t).view.emb j) := by
  funext j
  show V c (Pipeline.arrRef spec2 1) (((cfg2.win 1).blk t).view.emb j) = V c (Pipeline.arrRef spec2 1) (((cfg2.win 5).blk t).view.emb j)
  rw [emb2_1_eq]

/-- Input window 2's block at point t is its array read at the output block's rows. -/
theorem blk2_2_eq (c : Dev nD) (t : Fin cfg2.N) :
    (iblk2 V c 2 t : Vec F S4000x16 .f32) = fun j => V c (Pipeline.arrRef spec2 2) (((cfg2.win 5).blk t).view.emb j) := by
  funext j
  show V c (Pipeline.arrRef spec2 2) (((cfg2.win 2).blk t).view.emb j) = V c (Pipeline.arrRef spec2 2) (((cfg2.win 5).blk t).view.emb j)
  rw [emb2_2_eq]

/-- Input window 3's block at point t is its array read at the output block's rows. -/
theorem blk2_3_eq (c : Dev nD) (t : Fin cfg2.N) :
    (iblk2 V c 3 t : Vec F S4000x16 .f32) = fun j => V c (Pipeline.arrRef spec2 3) (((cfg2.win 5).blk t).view.emb j) := by
  funext j
  show V c (Pipeline.arrRef spec2 3) (((cfg2.win 3).blk t).view.emb j) = V c (Pipeline.arrRef spec2 3) (((cfg2.win 5).blk t).view.emb j)
  rw [emb2_3_eq]

/-- Input window 4's block at point t is its array read at the output block's rows. -/
theorem blk2_4_eq (c : Dev nD) (t : Fin cfg2.N) :
    (iblk2 V c 4 t : Vec F S4000x16 .i32) = fun j => V c (Pipeline.arrRef spec2 4) (((cfg2.win 5).blk t).view.emb j) := by
  funext j
  show V c (Pipeline.arrRef spec2 4) (((cfg2.win 4).blk t).view.emb j) = V c (Pipeline.arrRef spec2 4) (((cfg2.win 5).blk t).view.emb j)
  rw [emb2_4_eq]

/-! ## What each point writes back -/

/-- What point t writes back through output window 5 is block t of the whole-array next iterate. -/
theorem flushed2_5_eq (c : Dev nD) (t : Fin cfg2.N) :
    (dat2 V c).flushed 5 t = ((cfg2.win 5).blk t).view.read (Elt F)
      (Cert.Spec.updY (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S4000x16) hz2]
  exact pay2_5_of (fun j => ((cfg2.win 5).blk t).view.emb j) _ _ _ _ _ _ _ _ _ _
    (blk2_0_eq V c t) (blk2_1_eq V c t) (blk2_2_eq V c t) (blk2_3_eq V c t) (blk2_4_eq V c t)

/-- What point t writes back through output window 6 is block t of the whole-array scaled next iterate. -/
theorem flushed2_6_eq (c : Dev nD) (t : Fin cfg2.N) :
    (dat2 V c).flushed 6 t = ((cfg2.win 6).blk t).view.read (Elt F)
      (Cert.Spec.updZ (V c (Pipeline.arrRef spec2 0)) (V c (Pipeline.arrRef spec2 1)) (V c (Pipeline.arrRef spec2 2)) (V c (Pipeline.arrRef spec2 3)) (V c (Pipeline.arrRef spec2 4))) := by
  show (cfg2.win 6).cut (grid2.coords t) ((dat2 V c).after 6 t) = _
  rw [after2_6]
  unfold out2_6
  rw [View.canon_unit_zero hz2]
  simp only [View.ld_unit_zero (S := S4000x16) hz2]
  refine (pay2_6_of (fun j => ((cfg2.win 5).blk t).view.emb j) _ _ _ _ _ _ _ _ _ _
    (blk2_0_eq V c t) (blk2_1_eq V c t) (blk2_2_eq V c t) (blk2_3_eq V c t) (blk2_4_eq V c t)).trans ?_
  funext j
  show Cert.Spec.updZ (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
    = Cert.Spec.updZ (V c (Pipeline.arrRef spec2 0)) (V c (Pipeline.arrRef spec2 1)) (V c (Pipeline.arrRef spec2 2)) (V c (Pipeline.arrRef spec2 3)) (V c (Pipeline.arrRef spec2 4)) (((cfg2.win 6).blk t).view.emb j)
  rw [emb2_6_eq]

/-! ## The blocks tile the arrays -/

/-- An index of the array is in point t's block of output window 5 iff each coordinate is in the block's range. -/
theorem mem_blk2_5 (t : Fin cfg2.N) (i : S100000x16.Idx) :
    i ∈ ((cfg2.win 5).blk t).view.set ↔ ∀ a : Fin 2, win2_5.index t a * S4000x16.size a ≤ (i a).val ∧ (i a).val < win2_5.index t a * S4000x16.size a + S4000x16.size a := by
  show i ∈ ((View.whole (Pipeline.arrRef spec2 5)).slice (win2_5.rect t)).set ↔ _
  rw [View.set_slice_whole, Rect.mem_set_unit]
  exact Iff.rfl

/-- An index of the array is in point t's block of output window 6 iff each coordinate is in the block's range. -/
theorem mem_blk2_6 (t : Fin cfg2.N) (i : S100000x16.Idx) :
    i ∈ ((cfg2.win 6).blk t).view.set ↔ ∀ a : Fin 2, win2_6.index t a * S4000x16.size a ≤ (i a).val ∧ (i a).val < win2_6.index t a * S4000x16.size a + S4000x16.size a := by
  show i ∈ ((View.whole (Pipeline.arrRef spec2 6)).slice (win2_6.rect t)).set ↔ _
  rw [View.set_slice_whole, Rect.mem_set_unit]
  exact Iff.rfl

/-- Every index of output array 5 is in some point's block: row r is in the block of point r / 4000. -/
theorem covered2_5 (i : S100000x16.Idx) :
    ∃ t : Fin cfg2.N, (cfg2.win 5).flush t = true ∧ i ∈ ((cfg2.win 5).blk t).view.set := by
  have hN : cfg2.N = 25 := N_2
  have hi0 : (i 0).val < 100000 := (i 0).isLt
  have hi1 : (i 1).val < 16 := (i 1).isLt
  have ht : (i 0).val / 4000 < cfg2.N := by omega
  have hf := idx_facts2 ⟨(i 0).val / 4000, ht⟩
  have hr : win2_5.index ⟨(i 0).val / 4000, ht⟩ (0 : Fin 2) = (i 0).val / 4000 := by
    obtain ⟨-, -, -, -, -, -, -, -, -, -, e, -, -, -⟩ := hf; exact e
  have hc : win2_5.index ⟨(i 0).val / 4000, ht⟩ (1 : Fin 2) = 0 := by
    obtain ⟨-, -, -, -, -, -, -, -, -, -, -, e, -, -⟩ := hf; exact e
  refine ⟨⟨(i 0).val / 4000, ht⟩, flush2_5 _, ?_⟩
  rw [mem_blk2_5]
  intro a
  match a with
  | ⟨0, _⟩ => show win2_5.index ⟨(i 0).val / 4000, ht⟩ (0 : Fin 2) * 4000 ≤ (i 0).val ∧ (i 0).val < win2_5.index ⟨(i 0).val / 4000, ht⟩ (0 : Fin 2) * 4000 + 4000; omega
  | ⟨1, _⟩ => show win2_5.index ⟨(i 0).val / 4000, ht⟩ (1 : Fin 2) * 16 ≤ (i 1).val ∧ (i 1).val < win2_5.index ⟨(i 0).val / 4000, ht⟩ (1 : Fin 2) * 16 + 16; omega

/-- Every index of output array 6 is in some point's block: row r is in the block of point r / 4000. -/
theorem covered2_6 (i : S100000x16.Idx) :
    ∃ t : Fin cfg2.N, (cfg2.win 6).flush t = true ∧ i ∈ ((cfg2.win 6).blk t).view.set := by
  have hN : cfg2.N = 25 := N_2
  have hi0 : (i 0).val < 100000 := (i 0).isLt
  have hi1 : (i 1).val < 16 := (i 1).isLt
  have ht : (i 0).val / 4000 < cfg2.N := by omega
  have hf := idx_facts2 ⟨(i 0).val / 4000, ht⟩
  have hr : win2_6.index ⟨(i 0).val / 4000, ht⟩ (0 : Fin 2) = (i 0).val / 4000 := by
    obtain ⟨-, -, -, -, -, -, -, -, -, -, -, -, e, -⟩ := hf; exact e
  have hc : win2_6.index ⟨(i 0).val / 4000, ht⟩ (1 : Fin 2) = 0 := by
    obtain ⟨-, -, -, -, -, -, -, -, -, -, -, -, -, e⟩ := hf; exact e
  refine ⟨⟨(i 0).val / 4000, ht⟩, flush2_6 _, ?_⟩
  rw [mem_blk2_6]
  intro a
  match a with
  | ⟨0, _⟩ => show win2_6.index ⟨(i 0).val / 4000, ht⟩ (0 : Fin 2) * 4000 ≤ (i 0).val ∧ (i 0).val < win2_6.index ⟨(i 0).val / 4000, ht⟩ (0 : Fin 2) * 4000 + 4000; omega
  | ⟨1, _⟩ => show win2_6.index ⟨(i 0).val / 4000, ht⟩ (1 : Fin 2) * 16 ≤ (i 1).val ∧ (i 1).val < win2_6.index ⟨(i 0).val / 4000, ht⟩ (1 : Fin 2) * 16 + 16; omega

/-! ## The arrays after the last point -/

/-- Output array 5 after the last point: the whole-array next iterate of the five input arrays as the region found
    them. -/
theorem final2_5 (c : Dev nD) : (dat2 V c).arrAt 5 cfg2.N
    = Cert.Spec.updY (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_5_eq V c t) covered2_5

/-- Output array 6 after the last point: the whole-array scaled next iterate. -/
theorem final2_6 (c : Dev nD) : (dat2 V c).arrAt 6 cfg2.N
    = Cert.Spec.updZ (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 6 _ (fun t _ => flushed2_6_eq V c t) covered2_6

end Cert.KernelIdeal.Fr

end
-- ==== Proof.Value3.lean ====
/- Region 3's value: once all 25 grid points have run, the two output arrays hold the next iterate
   Y' = where(mask ≠ 0, X, min(1, max(−1, 0·Y + ½·(A · D) + ½·X))) and its scaling Z' = Y' · D, as whole-array
   functions of the five input arrays as the region found them. Every operation of the body is entrywise and all
   seven windows share one index map and one block size, so each point's output blocks are the blocks, at that point,
   of the whole-array functions; the 25 blocks of 4000 rows tile the 100000 rows. -/
import proofs.«169070_j69999376990389_2_alg».proof.Proof.Region3
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz3 : (![0, 0] : Fin 2 → Nat) = fun _ => 0 := funext fun a => by fin_cases a <;> rfl

/-! ## The payloads on blocks of whole arrays -/

/-- The next-iterate payload on the blocks of five arrays read through one embedding e of the block into the array
    is the block, through e, of the whole-array next iterate: every operation is entrywise. -/
theorem pay3_5_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k3_pay1 xA xD xY xX xM xX = fun j => Cert.Spec.updY Y X A D M (e j) := by
  subst hY hX hA hD hM
  unfold k3_pay1
  simp only [shapeCast_self]
  rfl

/-- The scaled next-iterate payload likewise. -/
theorem pay3_6_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k3_pay2 xA xD xY xX xM xX xD = fun j => Cert.Spec.updZ Y X A D M (e j) := by
  unfold k3_pay2
  rw [pay3_5_of e Y X A D M xY xX xA xD xM hY hX hA hD hM]
  subst hD
  simp only [shapeCast_self]
  rfl

/-! ## Where the blocks sit -/

/-- The index maps over the grid: every window's block at point t is block row t, block column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at point t sits at the same rows of its array as the next-iterate output's block. -/
theorem emb3_0_eq (t : Fin cfg3.N) (j : S4000x16.Idx) :
    (((cfg3.win 0).blk t).view.emb j : S100000x16.Idx) = ((cfg3.win 5).blk t).view.emb j := by
  have hf := idx_facts3 t
  funext a; apply Fin.ext
  match a with
  | ⟨0, _⟩ => show win3_0.index t (0 : Fin 2) * 4000 + 1 * (j 0).val = win3_5.index t (0 : Fin 2) * 4000 + 1 * (j 0).val; omega
  | ⟨1, _⟩ => show win3_0.index t (1 : Fin 2) * 16 + 1 * (j 1).val = win3_5.index t (1 : Fin 2) * 16 + 1 * (j 1).val; omega

/-- Window 1's block at point t sits at the same rows of its array as the next-iterate output's block. -/
theorem emb3_1_eq (t : Fin cfg3.N) (j : S4000x16.Idx) :
    (((cfg3.win 1).blk t).view.emb j : S100000x16.Idx) = ((cfg3.win 5).blk t).view.emb j := by
  have hf := idx_facts3 t
  funext a; apply Fin.ext
  match a with
  | ⟨0, _⟩ => show win3_1.index t (0 : Fin 2) * 4000 + 1 * (j 0).val = win3_5.index t (0 : Fin 2) * 4000 + 1 * (j 0).val; omega
  | ⟨1, _⟩ => show win3_1.index t (1 : Fin 2) * 16 + 1 * (j 1).val = win3_5.index t (1 : Fin 2) * 16 + 1 * (j 1).val; omega

/-- Window 2's block at point t sits at the same rows of its array as the next-iterate output's block. -/
theorem emb3_2_eq (t : Fin cfg3.N) (j : S4000x16.Idx) :
    (((cfg3.win 2).blk t).view.emb j : S100000x16.Idx) = ((cfg3.win 5).blk t).view.emb j := by
  have hf := idx_facts3 t
  funext a; apply Fin.ext
  match a with
  | ⟨0, _⟩ => show win3_2.index t (0 : Fin 2) * 4000 + 1 * (j 0).val = win3_5.index t (0 : Fin 2) * 4000 + 1 * (j 0).val; omega
  | ⟨1, _⟩ => show win3_2.index t (1 : Fin 2) * 16 + 1 * (j 1).val = win3_5.index t (1 : Fin 2) * 16 + 1 * (j 1).val; omega

/-- Window 3's block at point t sits at the same rows of its array as the next-iterate output's block. -/
theorem emb3_3_eq (t : Fin cfg3.N) (j : S4000x16.Idx) :
    (((cfg3.win 3).blk t).view.emb j : S100000x16.Idx) = ((cfg3.win 5).blk t).view.emb j := by
  have hf := idx_facts3 t
  funext a; apply Fin.ext
  match a with
  | ⟨0, _⟩ => show win3_3.index t (0 : Fin 2) * 4000 + 1 * (j 0).val = win3_5.index t (0 : Fin 2) * 4000 + 1 * (j 0).val; omega
  | ⟨1, _⟩ => show win3_3.index t (1 : Fin 2) * 16 + 1 * (j 1).val = win3_5.index t (1 : Fin 2) * 16 + 1 * (j 1).val; omega

/-- Window 4's block at point t sits at the same rows of its array as the next-iterate output's block. -/
theorem emb3_4_eq (t : Fin cfg3.N) (j : S4000x16.Idx) :
    (((cfg3.win 4).blk t).view.emb j : S100000x16.Idx) = ((cfg3.win 5).blk t).view.emb j := by
  have hf := idx_facts3 t
  funext a; apply Fin.ext
  match a with
  | ⟨0, _⟩ => show win3_4.index t (0 : Fin 2) * 4000 + 1 * (j 0).val = win3_5.index t (0 : Fin 2) * 4000 + 1 * (j 0).val; omega
  | ⟨1, _⟩ => show win3_4.index t (1 : Fin 2) * 16 + 1 * (j 1).val = win3_5.index t (1 : Fin 2) * 16 + 1 * (j 1).val; omega

/-- Window 6's block at point t sits at the same rows of its array as the next-iterate output's block. -/
theorem emb3_6_eq (t : Fin cfg3.N) (j : S4000x16.Idx) :
    (((cfg3.win 6).blk t).view.emb j : S100000x16.Idx) = ((cfg3.win 5).blk t).view.emb j := by
  have hf := idx_facts3 t
  funext a; apply Fin.ext
  match a with
  | ⟨0, _⟩ => show win3_6.index t (0 : Fin 2) * 4000 + 1 * (j 0).val = win3_5.index t (0 : Fin 2) * 4000 + 1 * (j 0).val; omega
  | ⟨1, _⟩ => show win3_6.index t (1 : Fin 2) * 16 + 1 * (j 1).val = win3_5.index t (1 : Fin 2) * 16 + 1 * (j 1).val; omega

/-- Input window 0's block at point t is its array read at the output block's rows. -/
theorem blk3_0_eq (c : Dev nD) (t : Fin cfg3.N) :
    (iblk3 V c 0 t : Vec F S4000x16 .f32) = fun j => V c (Pipeline.arrRef spec3 0) (((cfg3.win 5).blk t).view.emb j) := by
  funext j
  show V c (Pipeline.arrRef spec3 0) (((cfg3.win 0).blk t).view.emb j) = V c (Pipeline.arrRef spec3 0) (((cfg3.win 5).blk t).view.emb j)
  rw [emb3_0_eq]

/-- Input window 1's block at point t is its array read at the output block's rows. -/
theorem blk3_1_eq (c : Dev nD) (t : Fin cfg3.N) :
    (iblk3 V c 1 t : Vec F S4000x16 .f32) = fun j => V c (Pipeline.arrRef spec3 1) (((cfg3.win 5).blk t).view.emb j) := by
  funext j
  show V c (Pipeline.arrRef spec3 1) (((cfg3.win 1).blk t).view.emb j) = V c (Pipeline.arrRef spec3 1) (((cfg3.win 5).blk t).view.emb j)
  rw [emb3_1_eq]

/-- Input window 2's block at point t is its array read at the output block's rows. -/
theorem blk3_2_eq (c : Dev nD) (t : Fin cfg3.N) :
    (iblk3 V c 2 t : Vec F S4000x16 .f32) = fun j => V c (Pipeline.arrRef spec3 2) (((cfg3.win 5).blk t).view.emb j) := by
  funext j
  show V c (Pipeline.arrRef spec3 2) (((cfg3.win 2).blk t).view.emb j) = V c (Pipeline.arrRef spec3 2) (((cfg3.win 5).blk t).view.emb j)
  rw [emb3_2_eq]

/-- Input window 3's block at point t is its array read at the output block's rows. -/
theorem blk3_3_eq (c : Dev nD) (t : Fin cfg3.N) :
    (iblk3 V c 3 t : Vec F S4000x16 .f32) = fun j => V c (Pipeline.arrRef spec3 3) (((cfg3.win 5).blk t).view.emb j) := by
  funext j
  show V c (Pipeline.arrRef spec3 3) (((cfg3.win 3).blk t).view.emb j) = V c (Pipeline.arrRef spec3 3) (((cfg3.win 5).blk t).view.emb j)
  rw [emb3_3_eq]

/-- Input window 4's block at point t is its array read at the output block's rows. -/
theorem blk3_4_eq (c : Dev nD) (t : Fin cfg3.N) :
    (iblk3 V c 4 t : Vec F S4000x16 .i32) = fun j => V c (Pipeline.arrRef spec3 4) (((cfg3.win 5).blk t).view.emb j) := by
  funext j
  show V c (Pipeline.arrRef spec3 4) (((cfg3.win 4).blk t).view.emb j) = V c (Pipeline.arrRef spec3 4) (((cfg3.win 5).blk t).view.emb j)
  rw [emb3_4_eq]

/-! ## What each point writes back -/

/-- What point t writes back through output window 5 is block t of the whole-array next iterate. -/
theorem flushed3_5_eq (c : Dev nD) (t : Fin cfg3.N) :
    (dat3 V c).flushed 5 t = ((cfg3.win 5).blk t).view.read (Elt F)
      (Cert.Spec.updY (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S4000x16) hz3]
  exact pay3_5_of (fun j => ((cfg3.win 5).blk t).view.emb j) _ _ _ _ _ _ _ _ _ _
    (blk3_0_eq V c t) (blk3_1_eq V c t) (blk3_2_eq V c t) (blk3_3_eq V c t) (blk3_4_eq V c t)

/-- What point t writes back through output window 6 is block t of the whole-array scaled next iterate. -/
theorem flushed3_6_eq (c : Dev nD) (t : Fin cfg3.N) :
    (dat3 V c).flushed 6 t = ((cfg3.win 6).blk t).view.read (Elt F)
      (Cert.Spec.updZ (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 V c).after 6 t) = _
  rw [after3_6]
  unfold out3_6
  rw [View.canon_unit_zero hz3]
  simp only [View.ld_unit_zero (S := S4000x16) hz3]
  refine (pay3_6_of (fun j => ((cfg3.win 5).blk t).view.emb j) _ _ _ _ _ _ _ _ _ _
    (blk3_0_eq V c t) (blk3_1_eq V c t) (blk3_2_eq V c t) (blk3_3_eq V c t) (blk3_4_eq V c t)).trans ?_
  funext j
  show Cert.Spec.updZ (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
    = Cert.Spec.updZ (V c (Pipeline.arrRef spec3 0)) (V c (Pipeline.arrRef spec3 1)) (V c (Pipeline.arrRef spec3 2)) (V c (Pipeline.arrRef spec3 3)) (V c (Pipeline.arrRef spec3 4)) (((cfg3.win 6).blk t).view.emb j)
  rw [emb3_6_eq]

/-! ## The blocks tile the arrays -/

/-- An index of the array is in point t's block of output window 5 iff each coordinate is in the block's range. -/
theorem mem_blk3_5 (t : Fin cfg3.N) (i : S100000x16.Idx) :
    i ∈ ((cfg3.win 5).blk t).view.set ↔ ∀ a : Fin 2, win3_5.index t a * S4000x16.size a ≤ (i a).val ∧ (i a).val < win3_5.index t a * S4000x16.size a + S4000x16.size a := by
  show i ∈ ((View.whole (Pipeline.arrRef spec3 5)).slice (win3_5.rect t)).set ↔ _
  rw [View.set_slice_whole, Rect.mem_set_unit]
  exact Iff.rfl

/-- An index of the array is in point t's block of output window 6 iff each coordinate is in the block's range. -/
theorem mem_blk3_6 (t : Fin cfg3.N) (i : S100000x16.Idx) :
    i ∈ ((cfg3.win 6).blk t).view.set ↔ ∀ a : Fin 2, win3_6.index t a * S4000x16.size a ≤ (i a).val ∧ (i a).val < win3_6.index t a * S4000x16.size a + S4000x16.size a := by
  show i ∈ ((View.whole (Pipeline.arrRef spec3 6)).slice (win3_6.rect t)).set ↔ _
  rw [View.set_slice_whole, Rect.mem_set_unit]
  exact Iff.rfl

/-- Every index of output array 5 is in some point's block: row r is in the block of point r / 4000. -/
theorem covered3_5 (i : S100000x16.Idx) :
    ∃ t : Fin cfg3.N, (cfg3.win 5).flush t = true ∧ i ∈ ((cfg3.win 5).blk t).view.set := by
  have hN : cfg3.N = 25 := N_3
  have hi0 : (i 0).val < 100000 := (i 0).isLt
  have hi1 : (i 1).val < 16 := (i 1).isLt
  have ht : (i 0).val / 4000 < cfg3.N := by omega
  have hf := idx_facts3 ⟨(i 0).val / 4000, ht⟩
  have hr : win3_5.index ⟨(i 0).val / 4000, ht⟩ (0 : Fin 2) = (i 0).val / 4000 := by
    obtain ⟨-, -, -, -, -, -, -, -, -, -, e, -, -, -⟩ := hf; exact e
  have hc : win3_5.index ⟨(i 0).val / 4000, ht⟩ (1 : Fin 2) = 0 := by
    obtain ⟨-, -, -, -, -, -, -, -, -, -, -, e, -, -⟩ := hf; exact e
  refine ⟨⟨(i 0).val / 4000, ht⟩, flush3_5 _, ?_⟩
  rw [mem_blk3_5]
  intro a
  match a with
  | ⟨0, _⟩ => show win3_5.index ⟨(i 0).val / 4000, ht⟩ (0 : Fin 2) * 4000 ≤ (i 0).val ∧ (i 0).val < win3_5.index ⟨(i 0).val / 4000, ht⟩ (0 : Fin 2) * 4000 + 4000; omega
  | ⟨1, _⟩ => show win3_5.index ⟨(i 0).val / 4000, ht⟩ (1 : Fin 2) * 16 ≤ (i 1).val ∧ (i 1).val < win3_5.index ⟨(i 0).val / 4000, ht⟩ (1 : Fin 2) * 16 + 16; omega

/-- Every index of output array 6 is in some point's block: row r is in the block of point r / 4000. -/
theorem covered3_6 (i : S100000x16.Idx) :
    ∃ t : Fin cfg3.N, (cfg3.win 6).flush t = true ∧ i ∈ ((cfg3.win 6).blk t).view.set := by
  have hN : cfg3.N = 25 := N_3
  have hi0 : (i 0).val < 100000 := (i 0).isLt
  have hi1 : (i 1).val < 16 := (i 1).isLt
  have ht : (i 0).val / 4000 < cfg3.N := by omega
  have hf := idx_facts3 ⟨(i 0).val / 4000, ht⟩
  have hr : win3_6.index ⟨(i 0).val / 4000, ht⟩ (0 : Fin 2) = (i 0).val / 4000 := by
    obtain ⟨-, -, -, -, -, -, -, -, -, -, -, -, e, -⟩ := hf; exact e
  have hc : win3_6.index ⟨(i 0).val / 4000, ht⟩ (1 : Fin 2) = 0 := by
    obtain ⟨-, -, -, -, -, -, -, -, -, -, -, -, -, e⟩ := hf; exact e
  refine ⟨⟨(i 0).val / 4000, ht⟩, flush3_6 _, ?_⟩
  rw [mem_blk3_6]
  intro a
  match a with
  | ⟨0, _⟩ => show win3_6.index ⟨(i 0).val / 4000, ht⟩ (0 : Fin 2) * 4000 ≤ (i 0).val ∧ (i 0).val < win3_6.index ⟨(i 0).val / 4000, ht⟩ (0 : Fin 2) * 4000 + 4000; omega
  | ⟨1, _⟩ => show win3_6.index ⟨(i 0).val / 4000, ht⟩ (1 : Fin 2) * 16 ≤ (i 1).val ∧ (i 1).val < win3_6.index ⟨(i 0).val / 4000, ht⟩ (1 : Fin 2) * 16 + 16; omega

/-! ## The arrays after the last point -/

/-- Output array 5 after the last point: the whole-array next iterate of the five input arrays as the region found
    them. -/
theorem final3_5 (c : Dev nD) : (dat3 V c).arrAt 5 cfg3.N
    = Cert.Spec.updY (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_5_eq V c t) covered3_5

/-- Output array 6 after the last point: the whole-array scaled next iterate. -/
theorem final3_6 (c : Dev nD) : (dat3 V c).arrAt 6 cfg3.N
    = Cert.Spec.updZ (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 6 _ (fun t _ => flushed3_6_eq V c t) covered3_6

end Cert.KernelIdeal.Fr

end
-- ==== Proof.Value4.lean ====
/- Region 4's value: once all 25 grid points have run, the two output arrays hold the next iterate
   Y' = where(mask ≠ 0, X, min(1, max(−1, 0·Y + ½·(A · D) + ½·X))) and its scaling Z' = Y' · D, as whole-array
   functions of the five input arrays as the region found them. Every operation of the body is entrywise and all
   seven windows share one index map and one block size, so each point's output blocks are the blocks, at that point,
   of the whole-array functions; the 25 blocks of 4000 rows tile the 100000 rows. -/
import proofs.«169070_j69999376990389_2_alg».proof.Proof.Region4
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz4 : (![0, 0] : Fin 2 → Nat) = fun _ => 0 := funext fun a => by fin_cases a <;> rfl

/-! ## The payloads on blocks of whole arrays -/

/-- The next-iterate payload on the blocks of five arrays read through one embedding e of the block into the array
    is the block, through e, of the whole-array next iterate: every operation is entrywise. -/
theorem pay4_5_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k4_pay1 xA xD xY xX xM xX = fun j => Cert.Spec.updY Y X A D M (e j) := by
  subst hY hX hA hD hM
  unfold k4_pay1
  simp only [shapeCast_self]
  rfl

/-- The scaled next-iterate payload likewise. -/
theorem pay4_6_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k4_pay2 xA xD xY xX xM xX xD = fun j => Cert.Spec.updZ Y X A D M (e j) := by
  unfold k4_pay2
  rw [pay4_5_of e Y X A D M xY xX xA xD xM hY hX hA hD hM]
  subst hD
  simp only [shapeCast_self]
  rfl

/-! ## Where the blocks sit -/

/-- The index maps over the grid: every window's block at point t is block row t, block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Window 0's block at point t sits at the same rows of its array as the next-iterate output's block. -/
theorem emb4_0_eq (t : Fin cfg4.N) (j : S4000x16.Idx) :
    (((cfg4.win 0).blk t).view.emb j : S100000x16.Idx) = ((cfg4.win 5).blk t).view.emb j := by
  have hf := idx_facts4 t
  funext a; apply Fin.ext
  match a with
  | ⟨0, _⟩ => show win4_0.index t (0 : Fin 2) * 4000 + 1 * (j 0).val = win4_5.index t (0 : Fin 2) * 4000 + 1 * (j 0).val; omega
  | ⟨1, _⟩ => show win4_0.index t (1 : Fin 2) * 16 + 1 * (j 1).val = win4_5.index t (1 : Fin 2) * 16 + 1 * (j 1).val; omega

/-- Window 1's block at point t sits at the same rows of its array as the next-iterate output's block. -/
theorem emb4_1_eq (t : Fin cfg4.N) (j : S4000x16.Idx) :
    (((cfg4.win 1).blk t).view.emb j : S100000x16.Idx) = ((cfg4.win 5).blk t).view.emb j := by
  have hf := idx_facts4 t
  funext a; apply Fin.ext
  match a with
  | ⟨0, _⟩ => show win4_1.index t (0 : Fin 2) * 4000 + 1 * (j 0).val = win4_5.index t (0 : Fin 2) * 4000 + 1 * (j 0).val; omega
  | ⟨1, _⟩ => show win4_1.index t (1 : Fin 2) * 16 + 1 * (j 1).val = win4_5.index t (1 : Fin 2) * 16 + 1 * (j 1).val; omega

/-- Window 2's block at point t sits at the same rows of its array as the next-iterate output's block. -/
theorem emb4_2_eq (t : Fin cfg4.N) (j : S4000x16.Idx) :
    (((cfg4.win 2).blk t).view.emb j : S100000x16.Idx) = ((cfg4.win 5).blk t).view.emb j := by
  have hf := idx_facts4 t
  funext a; apply Fin.ext
  match a with
  | ⟨0, _⟩ => show win4_2.index t (0 : Fin 2) * 4000 + 1 * (j 0).val = win4_5.index t (0 : Fin 2) * 4000 + 1 * (j 0).val; omega
  | ⟨1, _⟩ => show win4_2.index t (1 : Fin 2) * 16 + 1 * (j 1).val = win4_5.index t (1 : Fin 2) * 16 + 1 * (j 1).val; omega

/-- Window 3's block at point t sits at the same rows of its array as the next-iterate output's block. -/
theorem emb4_3_eq (t : Fin cfg4.N) (j : S4000x16.Idx) :
    (((cfg4.win 3).blk t).view.emb j : S100000x16.Idx) = ((cfg4.win 5).blk t).view.emb j := by
  have hf := idx_facts4 t
  funext a; apply Fin.ext
  match a with
  | ⟨0, _⟩ => show win4_3.index t (0 : Fin 2) * 4000 + 1 * (j 0).val = win4_5.index t (0 : Fin 2) * 4000 + 1 * (j 0).val; omega
  | ⟨1, _⟩ => show win4_3.index t (1 : Fin 2) * 16 + 1 * (j 1).val = win4_5.index t (1 : Fin 2) * 16 + 1 * (j 1).val; omega

/-- Window 4's block at point t sits at the same rows of its array as the next-iterate output's block. -/
theorem emb4_4_eq (t : Fin cfg4.N) (j : S4000x16.Idx) :
    (((cfg4.win 4).blk t).view.emb j : S100000x16.Idx) = ((cfg4.win 5).blk t).view.emb j := by
  have hf := idx_facts4 t
  funext a; apply Fin.ext
  match a with
  | ⟨0, _⟩ => show win4_4.index t (0 : Fin 2) * 4000 + 1 * (j 0).val = win4_5.index t (0 : Fin 2) * 4000 + 1 * (j 0).val; omega
  | ⟨1, _⟩ => show win4_4.index t (1 : Fin 2) * 16 + 1 * (j 1).val = win4_5.index t (1 : Fin 2) * 16 + 1 * (j 1).val; omega

/-- Window 6's block at point t sits at the same rows of its array as the next-iterate output's block. -/
theorem emb4_6_eq (t : Fin cfg4.N) (j : S4000x16.Idx) :
    (((cfg4.win 6).blk t).view.emb j : S100000x16.Idx) = ((cfg4.win 5).blk t).view.emb j := by
  have hf := idx_facts4 t
  funext a; apply Fin.ext
  match a with
  | ⟨0, _⟩ => show win4_6.index t (0 : Fin 2) * 4000 + 1 * (j 0).val = win4_5.index t (0 : Fin 2) * 4000 + 1 * (j 0).val; omega
  | ⟨1, _⟩ => show win4_6.index t (1 : Fin 2) * 16 + 1 * (j 1).val = win4_5.index t (1 : Fin 2) * 16 + 1 * (j 1).val; omega

/-- Input window 0's block at point t is its array read at the output block's rows. -/
theorem blk4_0_eq (c : Dev nD) (t : Fin cfg4.N) :
    (iblk4 V c 0 t : Vec F S4000x16 .f32) = fun j => V c (Pipeline.arrRef spec4 0) (((cfg4.win 5).blk t).view.emb j) := by
  funext j
  show V c (Pipeline.arrRef spec4 0) (((cfg4.win 0).blk t).view.emb j) = V c (Pipeline.arrRef spec4 0) (((cfg4.win 5).blk t).view.emb j)
  rw [emb4_0_eq]

/-- Input window 1's block at point t is its array read at the output block's rows. -/
theorem blk4_1_eq (c : Dev nD) (t : Fin cfg4.N) :
    (iblk4 V c 1 t : Vec F S4000x16 .f32) = fun j => V c (Pipeline.arrRef spec4 1) (((cfg4.win 5).blk t).view.emb j) := by
  funext j
  show V c (Pipeline.arrRef spec4 1) (((cfg4.win 1).blk t).view.emb j) = V c (Pipeline.arrRef spec4 1) (((cfg4.win 5).blk t).view.emb j)
  rw [emb4_1_eq]

/-- Input window 2's block at point t is its array read at the output block's rows. -/
theorem blk4_2_eq (c : Dev nD) (t : Fin cfg4.N) :
    (iblk4 V c 2 t : Vec F S4000x16 .f32) = fun j => V c (Pipeline.arrRef spec4 2) (((cfg4.win 5).blk t).view.emb j) := by
  funext j
  show V c (Pipeline.arrRef spec4 2) (((cfg4.win 2).blk t).view.emb j) = V c (Pipeline.arrRef spec4 2) (((cfg4.win 5).blk t).view.emb j)
  rw [emb4_2_eq]

/-- Input window 3's block at point t is its array read at the output block's rows. -/
theorem blk4_3_eq (c : Dev nD) (t : Fin cfg4.N) :
    (iblk4 V c 3 t : Vec F S4000x16 .f32) = fun j => V c (Pipeline.arrRef spec4 3) (((cfg4.win 5).blk t).view.emb j) := by
  funext j
  show V c (Pipeline.arrRef spec4 3) (((cfg4.win 3).blk t).view.emb j) = V c (Pipeline.arrRef spec4 3) (((cfg4.win 5).blk t).view.emb j)
  rw [emb4_3_eq]

/-- Input window 4's block at point t is its array read at the output block's rows. -/
theorem blk4_4_eq (c : Dev nD) (t : Fin cfg4.N) :
    (iblk4 V c 4 t : Vec F S4000x16 .i32) = fun j => V c (Pipeline.arrRef spec4 4) (((cfg4.win 5).blk t).view.emb j) := by
  funext j
  show V c (Pipeline.arrRef spec4 4) (((cfg4.win 4).blk t).view.emb j) = V c (Pipeline.arrRef spec4 4) (((cfg4.win 5).blk t).view.emb j)
  rw [emb4_4_eq]

/-! ## What each point writes back -/

/-- What point t writes back through output window 5 is block t of the whole-array next iterate. -/
theorem flushed4_5_eq (c : Dev nD) (t : Fin cfg4.N) :
    (dat4 V c).flushed 5 t = ((cfg4.win 5).blk t).view.read (Elt F)
      (Cert.Spec.updY (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero hz4]
  simp only [View.ld_unit_zero (S := S4000x16) hz4]
  exact pay4_5_of (fun j => ((cfg4.win 5).blk t).view.emb j) _ _ _ _ _ _ _ _ _ _
    (blk4_0_eq V c t) (blk4_1_eq V c t) (blk4_2_eq V c t) (blk4_3_eq V c t) (blk4_4_eq V c t)

/-- What point t writes back through output window 6 is block t of the whole-array scaled next iterate. -/
theorem flushed4_6_eq (c : Dev nD) (t : Fin cfg4.N) :
    (dat4 V c).flushed 6 t = ((cfg4.win 6).blk t).view.read (Elt F)
      (Cert.Spec.updZ (V c (Pipeline.arrRef spec4 0)) (V c (Pipeline.arrRef spec4 1)) (V c (Pipeline.arrRef spec4 2)) (V c (Pipeline.arrRef spec4 3)) (V c (Pipeline.arrRef spec4 4))) := by
  show (cfg4.win 6).cut (grid4.coords t) ((dat4 V c).after 6 t) = _
  rw [after4_6]
  unfold out4_6
  rw [View.canon_unit_zero hz4]
  simp only [View.ld_unit_zero (S := S4000x16) hz4]
  refine (pay4_6_of (fun j => ((cfg4.win 5).blk t).view.emb j) _ _ _ _ _ _ _ _ _ _
    (blk4_0_eq V c t) (blk4_1_eq V c t) (blk4_2_eq V c t) (blk4_3_eq V c t) (blk4_4_eq V c t)).trans ?_
  funext j
  show Cert.Spec.updZ (V c (Pipeline.arrRef spec4 0)) (V c (Pipeline.arrRef spec4 1)) (V c (Pipeline.arrRef spec4 2)) (V c (Pipeline.arrRef spec4 3)) (V c (Pipeline.arrRef spec4 4)) (((cfg4.win 5).blk t).view.emb j)
    = Cert.Spec.updZ (V c (Pipeline.arrRef spec4 0)) (V c (Pipeline.arrRef spec4 1)) (V c (Pipeline.arrRef spec4 2)) (V c (Pipeline.arrRef spec4 3)) (V c (Pipeline.arrRef spec4 4)) (((cfg4.win 6).blk t).view.emb j)
  rw [emb4_6_eq]

/-! ## The blocks tile the arrays -/

/-- An index of the array is in point t's block of output window 5 iff each coordinate is in the block's range. -/
theorem mem_blk4_5 (t : Fin cfg4.N) (i : S100000x16.Idx) :
    i ∈ ((cfg4.win 5).blk t).view.set ↔ ∀ a : Fin 2, win4_5.index t a * S4000x16.size a ≤ (i a).val ∧ (i a).val < win4_5.index t a * S4000x16.size a + S4000x16.size a := by
  show i ∈ ((View.whole (Pipeline.arrRef spec4 5)).slice (win4_5.rect t)).set ↔ _
  rw [View.set_slice_whole, Rect.mem_set_unit]
  exact Iff.rfl

/-- An index of the array is in point t's block of output window 6 iff each coordinate is in the block's range. -/
theorem mem_blk4_6 (t : Fin cfg4.N) (i : S100000x16.Idx) :
    i ∈ ((cfg4.win 6).blk t).view.set ↔ ∀ a : Fin 2, win4_6.index t a * S4000x16.size a ≤ (i a).val ∧ (i a).val < win4_6.index t a * S4000x16.size a + S4000x16.size a := by
  show i ∈ ((View.whole (Pipeline.arrRef spec4 6)).slice (win4_6.rect t)).set ↔ _
  rw [View.set_slice_whole, Rect.mem_set_unit]
  exact Iff.rfl

/-- Every index of output array 5 is in some point's block: row r is in the block of point r / 4000. -/
theorem covered4_5 (i : S100000x16.Idx) :
    ∃ t : Fin cfg4.N, (cfg4.win 5).flush t = true ∧ i ∈ ((cfg4.win 5).blk t).view.set := by
  have hN : cfg4.N = 25 := N_4
  have hi0 : (i 0).val < 100000 := (i 0).isLt
  have hi1 : (i 1).val < 16 := (i 1).isLt
  have ht : (i 0).val / 4000 < cfg4.N := by omega
  have hf := idx_facts4 ⟨(i 0).val / 4000, ht⟩
  have hr : win4_5.index ⟨(i 0).val / 4000, ht⟩ (0 : Fin 2) = (i 0).val / 4000 := by
    obtain ⟨-, -, -, -, -, -, -, -, -, -, e, -, -, -⟩ := hf; exact e
  have hc : win4_5.index ⟨(i 0).val / 4000, ht⟩ (1 : Fin 2) = 0 := by
    obtain ⟨-, -, -, -, -, -, -, -, -, -, -, e, -, -⟩ := hf; exact e
  refine ⟨⟨(i 0).val / 4000, ht⟩, flush4_5 _, ?_⟩
  rw [mem_blk4_5]
  intro a
  match a with
  | ⟨0, _⟩ => show win4_5.index ⟨(i 0).val / 4000, ht⟩ (0 : Fin 2) * 4000 ≤ (i 0).val ∧ (i 0).val < win4_5.index ⟨(i 0).val / 4000, ht⟩ (0 : Fin 2) * 4000 + 4000; omega
  | ⟨1, _⟩ => show win4_5.index ⟨(i 0).val / 4000, ht⟩ (1 : Fin 2) * 16 ≤ (i 1).val ∧ (i 1).val < win4_5.index ⟨(i 0).val / 4000, ht⟩ (1 : Fin 2) * 16 + 16; omega

/-- Every index of output array 6 is in some point's block: row r is in the block of point r / 4000. -/
theorem covered4_6 (i : S100000x16.Idx) :
    ∃ t : Fin cfg4.N, (cfg4.win 6).flush t = true ∧ i ∈ ((cfg4.win 6).blk t).view.set := by
  have hN : cfg4.N = 25 := N_4
  have hi0 : (i 0).val < 100000 := (i 0).isLt
  have hi1 : (i 1).val < 16 := (i 1).isLt
  have ht : (i 0).val / 4000 < cfg4.N := by omega
  have hf := idx_facts4 ⟨(i 0).val / 4000, ht⟩
  have hr : win4_6.index ⟨(i 0).val / 4000, ht⟩ (0 : Fin 2) = (i 0).val / 4000 := by
    obtain ⟨-, -, -, -, -, -, -, -, -, -, -, -, e, -⟩ := hf; exact e
  have hc : win4_6.index ⟨(i 0).val / 4000, ht⟩ (1 : Fin 2) = 0 := by
    obtain ⟨-, -, -, -, -, -, -, -, -, -, -, -, -, e⟩ := hf; exact e
  refine ⟨⟨(i 0).val / 4000, ht⟩, flush4_6 _, ?_⟩
  rw [mem_blk4_6]
  intro a
  match a with
  | ⟨0, _⟩ => show win4_6.index ⟨(i 0).val / 4000, ht⟩ (0 : Fin 2) * 4000 ≤ (i 0).val ∧ (i 0).val < win4_6.index ⟨(i 0).val / 4000, ht⟩ (0 : Fin 2) * 4000 + 4000; omega
  | ⟨1, _⟩ => show win4_6.index ⟨(i 0).val / 4000, ht⟩ (1 : Fin 2) * 16 ≤ (i 1).val ∧ (i 1).val < win4_6.index ⟨(i 0).val / 4000, ht⟩ (1 : Fin 2) * 16 + 16; omega

/-! ## The arrays after the last point -/

/-- Output array 5 after the last point: the whole-array next iterate of the five input arrays as the region found
    them. -/
theorem final4_5 (c : Dev nD) : (dat4 V c).arrAt 5 cfg4.N
    = Cert.Spec.updY (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 _ (fun t _ => flushed4_5_eq V c t) covered4_5

/-- Output array 6 after the last point: the whole-array scaled next iterate. -/
theorem final4_6 (c : Dev nD) : (dat4 V c).arrAt 6 cfg4.N
    = Cert.Spec.updZ (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 6 _ (fun t _ => flushed4_6_eq V c t) covered4_6

end Cert.KernelIdeal.Fr

end
-- ==== Proof.Value5.lean ====
/- Region 5's value: once all 25 grid points have run, the two output arrays hold the next iterate
   Y' = where(mask ≠ 0, X, min(1, max(−1, 0·Y + ½·(A · D) + ½·X))) and its scaling Z' = Y' · D, as whole-array
   functions of the five input arrays as the region found them. Every operation of the body is entrywise and all
   seven windows share one index map and one block size, so each point's output blocks are the blocks, at that point,
   of the whole-array functions; the 25 blocks of 4000 rows tile the 100000 rows. -/
import proofs.«169070_j69999376990389_2_alg».proof.Proof.Region5
import proofs.«169070_j69999376990389_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- The zero offset of the whole-block rectangle. -/
theorem hz5 : (![0, 0] : Fin 2 → Nat) = fun _ => 0 := funext fun a => by fin_cases a <;> rfl

/-! ## The payloads on blocks of whole arrays -/

/-- The next-iterate payload on the blocks of five arrays read through one embedding e of the block into the array
    is the block, through e, of the whole-array next iterate: every operation is entrywise. -/
theorem pay5_5_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k5_pay1 xA xD xY xX xM xX = fun j => Cert.Spec.updY Y X A D M (e j) := by
  subst hY hX hA hD hM
  unfold k5_pay1
  simp only [shapeCast_self]
  rfl

/-- The scaled next-iterate payload likewise. -/
theorem pay5_6_of (e : S4000x16.Idx → S100000x16.Idx) (Y X A D : FVec F S100000x16 .f32) (M : IVec S100000x16 32)
    (xY xX xA xD : Vec F S4000x16 .f32) (xM : Vec F S4000x16 .i32)
    (hY : xY = fun j => Y (e j)) (hX : xX = fun j => X (e j)) (hA : xA = fun j => A (e j))
    (hD : xD = fun j => D (e j)) (hM : xM = fun j => M (e j)) :
    k5_pay2 xA xD xY xX xM xX xD = fun j => Cert.Spec.updZ Y X A D M (e j) := by
  unfold k5_pay2
  rw [pay5_5_of e Y X A D M xY xX xA xD xM hY hX hA hD hM]
  subst hD
  simp only [shapeCast_self]
  rfl

/-! ## Where the blocks sit -/

/-- The index maps over the grid: every window's block at point t is block row t, block column 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Window 0's block at point t sits at the same rows of its array as the next-iterate output's block. -/
theorem emb5_0_eq (t : Fin cfg5.N) (j : S4000x16.Idx) :
    (((cfg5.win 0).blk t).view.emb j : S100000x16.Idx) = ((cfg5.win 5).blk t).view.emb j := by
  have hf := idx_facts5 t
  funext a; apply Fin.ext
  match a with
  | ⟨0, _⟩ => show win5_0.index t (0 : Fin 2) * 4000 + 1 * (j 0).val = win5_5.index t (0 : Fin 2) * 4000 + 1 * (j 0).val; omega
  | ⟨1, _⟩ => show win5_0.index t (1 : Fin 2) * 16 + 1 * (j 1).val = win5_5.index t (1 : Fin 2) * 16 + 1 * (j 1).val; omega

/-- Window 1's block at point t sits at the same rows of its array as the next-iterate output's block. -/
theorem emb5_1_eq (t : Fin cfg5.N) (j : S4000x16.Idx) :
    (((cfg5.win 1).blk t).view.emb j : S100000x16.Idx) = ((cfg5.win 5).blk t).view.emb j := by
  have hf := idx_facts5 t
  funext a; apply Fin.ext
  match a with
  | ⟨0, _⟩ => show win5_1.index t (0 : Fin 2) * 4000 + 1 * (j 0).val = win5_5.index t (0 : Fin 2) * 4000 + 1 * (j 0).val; omega
  | ⟨1, _⟩ => show win5_1.index t (1 : Fin 2) * 16 + 1 * (j 1).val = win5_5.index t (1 : Fin 2) * 16 + 1 * (j 1).val; omega

/-- Window 2's block at point t sits at the same rows of its array as the next-iterate output's block. -/
theorem emb5_2_eq (t : Fin cfg5.N) (j : S4000x16.Idx) :
    (((cfg5.win 2).blk t).view.emb j : S100000x16.Idx) = ((cfg5.win 5).blk t).view.emb j := by
  have hf := idx_facts5 t
  funext a; apply Fin.ext
  match a with
  | ⟨0, _⟩ => show win5_2.index t (0 : Fin 2) * 4000 + 1 * (j 0).val = win5_5.index t (0 : Fin 2) * 4000 + 1 * (j 0).val; omega
  | ⟨1, _⟩ => show win5_2.index t (1 : Fin 2) * 16 + 1 * (j 1).val = win5_5.index t (1 : Fin 2) * 16 + 1 * (j 1).val; omega

/-- Window 3's block at point t sits at the same rows of its array as the next-iterate output's block. -/
theorem emb5_3_eq (t : Fin cfg5.N) (j : S4000x16.Idx) :
    (((cfg5.win 3).blk t).view.emb j : S100000x16.Idx) = ((cfg5.win 5).blk t).view.emb j := by
  have hf := idx_facts5 t
  funext a; apply Fin.ext
  match a with
  | ⟨0, _⟩ => show win5_3.index t (0 : Fin 2) * 4000 + 1 * (j 0).val = win5_5.index t (0 : Fin 2) * 4000 + 1 * (j 0).val; omega
  | ⟨1, _⟩ => show win5_3.index t (1 : Fin 2) * 16 + 1 * (j 1).val = win5_5.index t (1 : Fin 2) * 16 + 1 * (j 1).val; omega

/-- Window 4's block at point t sits at the same rows of its array as the next-iterate output's block. -/
theorem emb5_4_eq (t : Fin cfg5.N) (j : S4000x16.Idx) :
    (((cfg5.win 4).blk t).view.emb j : S100000x16.Idx) = ((cfg5.win 5).blk t).view.emb j := by
  have hf := idx_facts5 t
  funext a; apply Fin.ext
  match a with
  | ⟨0, _⟩ => show win5_4.index t (0 : Fin 2) * 4000 + 1 * (j 0).val = win5_5.index t (0 : Fin 2) * 4000 + 1 * (j 0).val; omega
  | ⟨1, _⟩ => show win5_4.index t (1 : Fin 2) * 16 + 1 * (j 1).val = win5_5.index t (1 : Fin 2) * 16 + 1 * (j 1).val; omega

/-- Window 6's block at point t sits at the same rows of its array as the next-iterate output's block. -/
theorem emb5_6_eq (t : Fin cfg5.N) (j : S4000x16.Idx) :
    (((cfg5.win 6).blk t).view.emb j : S100000x16.Idx) = ((cfg5.win 5).blk t).view.emb j := by
  have hf := idx_facts5 t
  funext a; apply Fin.ext
  match a with
  | ⟨0, _⟩ => show win5_6.index t (0 : Fin 2) * 4000 + 1 * (j 0).val = win5_5.index t (0 : Fin 2) * 4000 + 1 * (j 0).val; omega
  | ⟨1, _⟩ => show win5_6.index t (1 : Fin 2) * 16 + 1 * (j 1).val = win5_5.index t (1 : Fin 2) * 16 + 1 * (j 1).val; omega

/-- Input window 0's block at point t is its array read at the output block's rows. -/
theorem blk5_0_eq (c : Dev nD) (t : Fin cfg5.N) :
    (iblk5 V c 0 t : Vec F S4000x16 .f32) = fun j => V c (Pipeline.arrRef spec5 0) (((cfg5.win 5).blk t).view.emb j) := by
  funext j
  show V c (Pipeline.arrRef spec5 0) (((cfg5.win 0).blk t).view.emb j) = V c (Pipeline.arrRef spec5 0) (((cfg5.win 5).blk t).view.emb j)
  rw [emb5_0_eq]

/-- Input window 1's block at point t is its array read at the output block's rows. -/
theorem blk5_1_eq (c : Dev nD) (t : Fin cfg5.N) :
    (iblk5 V c 1 t : Vec F S4000x16 .f32) = fun j => V c (Pipeline.arrRef spec5 1) (((cfg5.win 5).blk t).view.emb j) := by
  funext j
  show V c (Pipeline.arrRef spec5 1) (((cfg5.win 1).blk t).view.emb j) = V c (Pipeline.arrRef spec5 1) (((cfg5.win 5).blk t).view.emb j)
  rw [emb5_1_eq]

/-- Input window 2's block at point t is its array read at the output block's rows. -/
theorem blk5_2_eq (c : Dev nD) (t : Fin cfg5.N) :
    (iblk5 V c 2 t : Vec F S4000x16 .f32) = fun j => V c (Pipeline.arrRef spec5 2) (((cfg5.win 5).blk t).view.emb j) := by
  funext j
  show V c (Pipeline.arrRef spec5 2) (((cfg5.win 2).blk t).view.emb j) = V c (Pipeline.arrRef spec5 2) (((cfg5.win 5).blk t).view.emb j)
  rw [emb5_2_eq]

/-- Input window 3's block at point t is its array read at the output block's rows. -/
theorem blk5_3_eq (c : Dev nD) (t : Fin cfg5.N) :
    (iblk5 V c 3 t : Vec F S4000x16 .f32) = fun j => V c (Pipeline.arrRef spec5 3) (((cfg5.win 5).blk t).view.emb j) := by
  funext j
  show V c (Pipeline.arrRef spec5 3) (((cfg5.win 3).blk t).view.emb j) = V c (Pipeline.arrRef spec5 3) (((cfg5.win 5).blk t).view.emb j)
  rw [emb5_3_eq]

/-- Input window 4's block at point t is its array read at the output block's rows. -/
theorem blk5_4_eq (c : Dev nD) (t : Fin cfg5.N) :
    (iblk5 V c 4 t : Vec F S4000x16 .i32) = fun j => V c (Pipeline.arrRef spec5 4) (((cfg5.win 5).blk t).view.emb j) := by
  funext j
  show V c (Pipeline.arrRef spec5 4) (((cfg5.win 4).blk t).view.emb j) = V c (Pipeline.arrRef spec5 4) (((cfg5.win 5).blk t).view.emb j)
  rw [emb5_4_eq]

/-! ## What each point writes back -/

/-- What point t writes back through output window 5 is block t of the whole-array next iterate. -/
theorem flushed5_5_eq (c : Dev nD) (t : Fin cfg5.N) :
    (dat5 V c).flushed 5 t = ((cfg5.win 5).blk t).view.read (Elt F)
      (Cert.Spec.updY (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz5]
  simp only [View.ld_unit_zero (S := S4000x16) hz5]
  exact pay5_5_of (fun j => ((cfg5.win 5).blk t).view.emb j) _ _ _ _ _ _ _ _ _ _
    (blk5_0_eq V c t) (blk5_1_eq V c t) (blk5_2_eq V c t) (blk5_3_eq V c t) (blk5_4_eq V c t)

/-- What point t writes back through output window 6 is block t of the whole-array scaled next iterate. -/
theorem flushed5_6_eq (c : Dev nD) (t : Fin cfg5.N) :
    (dat5 V c).flushed 6 t = ((cfg5.win 6).blk t).view.read (Elt F)
      (Cert.Spec.updZ (V c (Pipeline.arrRef spec5 0)) (V c (Pipeline.arrRef spec5 1)) (V c (Pipeline.arrRef spec5 2)) (V c (Pipeline.arrRef spec5 3)) (V c (Pipeline.arrRef spec5 4))) := by
  show (cfg5.win 6).cut (grid5.coords t) ((dat5 V c).after 6 t) = _
  rw [after5_6]
  unfold out5_6
  rw [View.canon_unit_zero hz5]
  simp only [View.ld_unit_zero (S := S4000x16) hz5]
  refine (pay5_6_of (fun j => ((cfg5.win 5).blk t).view.emb j) _ _ _ _ _ _ _ _ _ _
    (blk5_0_eq V c t) (blk5_1_eq V c t) (blk5_2_eq V c t) (blk5_3_eq V c t) (blk5_4_eq V c t)).trans ?_
  funext j
  show Cert.Spec.updZ (V c (Pipeline.arrRef spec5 0)) (V c (Pipeline.arrRef spec5 1)) (V c (Pipeline.arrRef spec5 2)) (V c (Pipeline.arrRef spec5 3)) (V c (Pipeline.arrRef spec5 4)) (((cfg5.win 5).blk t).view.emb j)
    = Cert.Spec.updZ (V c (Pipeline.arrRef spec5 0)) (V c (Pipeline.arrRef spec5 1)) (V c (Pipeline.arrRef spec5 2)) (V c (Pipeline.arrRef spec5 3)) (V c (Pipeline.arrRef spec5 4)) (((cfg5.win 6).blk t).view.emb j)
  rw [emb5_6_eq]

/-! ## The blocks tile the arrays -/

/-- An index of the array is in point t's block of output window 5 iff each coordinate is in the block's range. -/
theorem mem_blk5_5 (t : Fin cfg5.N) (i : S100000x16.Idx) :
    i ∈ ((cfg5.win 5).blk t).view.set ↔ ∀ a : Fin 2, win5_5.index t a * S4000x16.size a ≤ (i a).val ∧ (i a).val < win5_5.index t a * S4000x16.size a + S4000x16.size a := by
  show i ∈ ((View.whole (Pipeline.arrRef spec5 5)).slice (win5_5.rect t)).set ↔ _
  rw [View.set_slice_whole, Rect.mem_set_unit]
  exact Iff.rfl

/-- An index of the array is in point t's block of output window 6 iff each coordinate is in the block's range. -/
theorem mem_blk5_6 (t : Fin cfg5.N) (i : S100000x16.Idx) :
    i ∈ ((cfg5.win 6).blk t).view.set ↔ ∀ a : Fin 2, win5_6.index t a * S4000x16.size a ≤ (i a).val ∧ (i a).val < win5_6.index t a * S4000x16.size a + S4000x16.size a := by
  show i ∈ ((View.whole (Pipeline.arrRef spec5 6)).slice (win5_6.rect t)).set ↔ _
  rw [View.set_slice_whole, Rect.mem_set_unit]
  exact Iff.rfl

/-- Every index of output array 5 is in some point's block: row r is in the block of point r / 4000. -/
theorem covered5_5 (i : S100000x16.Idx) :
    ∃ t : Fin cfg5.N, (cfg5.win 5).flush t = true ∧ i ∈ ((cfg5.win 5).blk t).view.set := by
  have hN : cfg5.N = 25 := N_5
  have hi0 : (i 0).val < 100000 := (i 0).isLt
  have hi1 : (i 1).val < 16 := (i 1).isLt
  have ht : (i 0).val / 4000 < cfg5.N := by omega
  have hf := idx_facts5 ⟨(i 0).val / 4000, ht⟩
  have hr : win5_5.index ⟨(i 0).val / 4000, ht⟩ (0 : Fin 2) = (i 0).val / 4000 := by
    obtain ⟨-, -, -, -, -, -, -, -, -, -, e, -, -, -⟩ := hf; exact e
  have hc : win5_5.index ⟨(i 0).val / 4000, ht⟩ (1 : Fin 2) = 0 := by
    obtain ⟨-, -, -, -, -, -, -, -, -, -, -, e, -, -⟩ := hf; exact e
  refine ⟨⟨(i 0).val / 4000, ht⟩, flush5_5 _, ?_⟩
  rw [mem_blk5_5]
  intro a
  match a with
  | ⟨0, _⟩ => show win5_5.index ⟨(i 0).val / 4000, ht⟩ (0 : Fin 2) * 4000 ≤ (i 0).val ∧ (i 0).val < win5_5.index ⟨(i 0).val / 4000, ht⟩ (0 : Fin 2) * 4000 + 4000; omega
  | ⟨1, _⟩ => show win5_5.index ⟨(i 0).val / 4000, ht⟩ (1 : Fin 2) * 16 ≤ (i 1).val ∧ (i 1).val < win5_5.index ⟨(i 0).val / 4000, ht⟩ (1 : Fin 2) * 16 + 16; omega

/-- Every index of output array 6 is in some point's block: row r is in the block of point r / 4000. -/
theorem covered5_6 (i : S100000x16.Idx) :
    ∃ t : Fin cfg5.N, (cfg5.win 6).flush t = true ∧ i ∈ ((cfg5.win 6).blk t).view.set := by
  have hN : cfg5.N = 25 := N_5
  have hi0 : (i 0).val < 100000 := (i 0).isLt
  have hi1 : (i 1).val < 16 := (i 1).isLt
  have ht : (i 0).val / 4000 < cfg5.N := by omega
  have hf := idx_facts5 ⟨(i 0).val / 4000, ht⟩
  have hr : win5_6.index ⟨(i 0).val / 4000, ht⟩ (0 : Fin 2) = (i 0).val / 4000 := by
    obtain ⟨-, -, -, -, -, -, -, -, -, -, -, -, e, -⟩ := hf; exact e
  have hc : win5_6.index ⟨(i 0).val / 4000, ht⟩ (1 : Fin 2) = 0 := by
    obtain ⟨-, -, -, -, -, -, -, -, -, -, -, -, -, e⟩ := hf; exact e
  refine ⟨⟨(i 0).val / 4000, ht⟩, flush5_6 _, ?_⟩
  rw [mem_blk5_6]
  intro a
  match a with
  | ⟨0, _⟩ => show win5_6.index ⟨(i 0).val / 4000, ht⟩ (0 : Fin 2) * 4000 ≤ (i 0).val ∧ (i 0).val < win5_6.index ⟨(i 0).val / 4000, ht⟩ (0 : Fin 2) * 4000 + 4000; omega
  | ⟨1, _⟩ => show win5_6.index ⟨(i 0).val / 4000, ht⟩ (1 : Fin 2) * 16 ≤ (i 1).val ∧ (i 1).val < win5_6.index ⟨(i 0).val / 4000, ht⟩ (1 : Fin 2) * 16 + 16; omega

/-! ## The arrays after the last point -/

/-- Output array 5 after the last point: the whole-array next iterate of the five input arrays as the region found
    them. -/
theorem final5_5 (c : Dev nD) : (dat5 V c).arrAt 5 cfg5.N
    = Cert.Spec.updY (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_5_eq V c t) covered5_5

/-- Output array 6 after the last point: the whole-array scaled next iterate. -/
theorem final5_6 (c : Dev nD) : (dat5 V c).arrAt 6 cfg5.N
    = Cert.Spec.updZ (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 6 _ (fun t _ => flushed5_6_eq V c t) covered5_6

end Cert.KernelIdeal.Fr

end
-- ==== Proof.RegionResults.lean ====
/- What each region leaves in its output arrays, in terms of the buffer contents at the boundary before it, with the
   arrays named: region 0 the entrywise product X · D, regions 1 to 5 the next iterate and its scaling. Each is the
   region's exit contents at the output array (the pipeline's array after its last point) followed by the region's
   whole-array value. -/
import proofs.«169070_j69999376990389_2_alg».proof.Proof.Run
import proofs.«169070_j69999376990389_2_alg».proof.Proof.Value0
import proofs.«169070_j69999376990389_2_alg».proof.Proof.Value1
import proofs.«169070_j69999376990389_2_alg».proof.Proof.Value2
import proofs.«169070_j69999376990389_2_alg».proof.Proof.Value3
import proofs.«169070_j69999376990389_2_alg».proof.Proof.Value4
import proofs.«169070_j69999376990389_2_alg».proof.Proof.Value5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents at launch and the cores' generator registers
variable (m : (ℓ : Loc nD τ sig) → Buf (Elt F) ℓ) (ρ : Dev nD → PrngReg)

/-- Region 0's output array: the entrywise product of the features and the scaling array as the region found them. -/
theorem res0 (c : Dev nD) : W4 m ρ c main_v19 = Cert.Spec.scaleZ (W3 m ρ c main_arg1) (W3 m ρ c main_v15) :=
  (W4_arr m ρ c 2).trans (final0_2 (V3 m ρ) c)

/-- Region 1's next-iterate array: the whole-array next iterate of the arrays as the region found them (its first two
    windows are one array, the features, which stand for both Y and X of the first step). -/
theorem res1_y (c : Dev nD) : W6 m ρ c main_v30_0 = Cert.Spec.updY (W5 m ρ c main_arg1) (W5 m ρ c main_arg1) (W5 m ρ c main_v29) (W5 m ρ c main_v15) (W5 m ρ c main_v18) :=
  (W6_v30_0 m ρ c).trans (final1_5 (V5 m ρ) c)

/-- Region 1's scaled next-iterate array. -/
theorem res1_z (c : Dev nD) : W6 m ρ c main_v30_1 = Cert.Spec.updZ (W5 m ρ c main_arg1) (W5 m ρ c main_arg1) (W5 m ρ c main_v29) (W5 m ρ c main_v15) (W5 m ρ c main_v18) :=
  (W6_v30_1 m ρ c).trans (final1_6 (V5 m ρ) c)

/-- Region 2's next-iterate array: the whole-array next iterate of the arrays as the region found them. -/
theorem res2_y (c : Dev nD) : W8 m ρ c main_v41_0 = Cert.Spec.updY (W7 m ρ c main_v30_0) (W7 m ρ c main_arg1) (W7 m ρ c main_v40) (W7 m ρ c main_v15) (W7 m ρ c main_v18) :=
  (W8_arr m ρ c 5).trans (final2_5 (V7 m ρ) c)

/-- Region 2's scaled next-iterate array. -/
theorem res2_z (c : Dev nD) : W8 m ρ c main_v41_1 = Cert.Spec.updZ (W7 m ρ c main_v30_0) (W7 m ρ c main_arg1) (W7 m ρ c main_v40) (W7 m ρ c main_v15) (W7 m ρ c main_v18) :=
  (W8_arr m ρ c 6).trans (final2_6 (V7 m ρ) c)

/-- Region 3's next-iterate array: the whole-array next iterate of the arrays as the region found them. -/
theorem res3_y (c : Dev nD) : W10 m ρ c main_v52_0 = Cert.Spec.updY (W9 m ρ c main_v41_0) (W9 m ρ c main_arg1) (W9 m ρ c main_v51) (W9 m ρ c main_v15) (W9 m ρ c main_v18) :=
  (W10_arr m ρ c 5).trans (final3_5 (V9 m ρ) c)

/-- Region 3's scaled next-iterate array. -/
theorem res3_z (c : Dev nD) : W10 m ρ c main_v52_1 = Cert.Spec.updZ (W9 m ρ c main_v41_0) (W9 m ρ c main_arg1) (W9 m ρ c main_v51) (W9 m ρ c main_v15) (W9 m ρ c main_v18) :=
  (W10_arr m ρ c 6).trans (final3_6 (V9 m ρ) c)

/-- Region 4's next-iterate array: the whole-array next iterate of the arrays as the region found them. -/
theorem res4_y (c : Dev nD) : W12 m ρ c main_v63_0 = Cert.Spec.updY (W11 m ρ c main_v52_0) (W11 m ρ c main_arg1) (W11 m ρ c main_v62) (W11 m ρ c main_v15) (W11 m ρ c main_v18) :=
  (W12_arr m ρ c 5).trans (final4_5 (V11 m ρ) c)

/-- Region 4's scaled next-iterate array. -/
theorem res4_z (c : Dev nD) : W12 m ρ c main_v63_1 = Cert.Spec.updZ (W11 m ρ c main_v52_0) (W11 m ρ c main_arg1) (W11 m ρ c main_v62) (W11 m ρ c main_v15) (W11 m ρ c main_v18) :=
  (W12_arr m ρ c 6).trans (final4_6 (V11 m ρ) c)

/-- Region 5's next-iterate array: the whole-array next iterate of the arrays as the region found them. -/
theorem res5_y (c : Dev nD) : W14 m ρ c main_v74_0 = Cert.Spec.updY (W13 m ρ c main_v63_0) (W13 m ρ c main_arg1) (W13 m ρ c main_v73) (W13 m ρ c main_v15) (W13 m ρ c main_v18) :=
  (W14_arr m ρ c 5).trans (final5_5 (V13 m ρ) c)

/-- Region 5's scaled next-iterate array. -/
theorem res5_z (c : Dev nD) : W14 m ρ c main_v74_1 = Cert.Spec.updZ (W13 m ρ c main_v63_0) (W13 m ρ c main_arg1) (W13 m ρ c main_v73) (W13 m ρ c main_v15) (W13 m ρ c main_v18) :=
  (W14_arr m ρ c 6).trans (final5_6 (V13 m ρ) c)

end Cert.KernelIdeal.Fr

end
-- ==== Proof.KernelValue.lean ====
/- The program's result as one function of its three argument arrays: the contents of every buffer the regions read,
   followed boundary by boundary from the launch memory — the index columns, the inverse square-root degrees and the
   integer mask from the first host operations, the scaled features from the first region, and then, five times, the
   aggregate from the host operations between regions and the next pair (iterate, scaled iterate) from the region. -/
import proofs.«169070_j69999376990389_2_alg».proof.Proof.Kept
import proofs.«169070_j69999376990389_2_alg».proof.Proof.SpecRun
import proofs.«169070_j69999376990389_2_alg».proof.Proof.RegionResults
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The three argument arrays as launched: the edges, the features, the mask. -/
abbrev Ein (c : Dev nD) : IVec S2x3200000 32 := m ((c : Thread nD τ).loc main_arg0)
@[inherit_doc Ein] abbrev Xin (c : Dev nD) : FVec F S100000x16 .f32 := m ((c : Thread nD τ).loc main_arg1)
@[inherit_doc Ein] abbrev Kin (c : Dev nD) : IVec S100000 1 := m ((c : Thread nD τ).loc main_arg2)

/-! ## The first host operations: index columns, degrees -/

theorem W1_v1 (c : Dev nD) : W1 m ρ c main_v1 = Cert.Spec.srcOf (Ein m c) := by
  show StableHlo.after hostOps0 (W0 m ρ c) (Proc.devRef .tc main_v1) = _; after_results; rfl

theorem W1_v3 (c : Dev nD) : W1 m ρ c main_v3 = Cert.Spec.dstOf (Ein m c) := by
  show StableHlo.after hostOps0 (W0 m ρ c) (Proc.devRef .tc main_v3) = _; after_results; rfl

theorem W1_v9 (c : Dev nD) : W1 m ρ c main_v9
    = cmpf (F := F) .ogt (Cert.Spec.degOf (Ein m c))
        (broadcastInDim S100000 ![] bcast_S_S100000 (constant S_ .f32 0x00000000#32)) := by
  show StableHlo.after hostOps0 (W0 m ρ c) (Proc.devRef .tc main_v9) = _; after_results; rfl

theorem W1_v12 (c : Dev nD) : W1 m ρ c main_v12
    = Host.rsqrt (maximumf (Cert.Spec.degOf (F := F) (Ein m c))
        (broadcastInDim S100000 ![] bcast_S_S100000 (constant S_ .f32 0x3F800000#32))) := by
  show StableHlo.after hostOps0 (W0 m ρ c) (Proc.devRef .tc main_v12) = _; after_results; rfl

theorem W1_cst_3 (c : Dev nD) : W1 m ρ c main_cst_3 = (constant S_ .f32 0x00000000#32 : FVec F S_ .f32) := by
  show StableHlo.after hostOps0 (W0 m ρ c) (Proc.devRef .tc main_cst_3) = _; after_results

/-! ## The inlined selection: the inverse square-root degrees -/

theorem W2_v13_raw (c : Dev nD) : W2 m ρ c main_v13
    = select (W1 m ρ c main_v9) (W1 m ρ c main_v12)
        (broadcastInDim S100000 ![] bcast_S_S100000 (id (W1 m ρ c main_cst_3))) := by
  show StableHlo.after hostOps0_1 (W1 m ρ c) (Proc.devRef .tc main_v13) = _
  generalize W1 m ρ c = V
  after_results; rfl

theorem W2_v13 (c : Dev nD) : W2 m ρ c main_v13 = Cert.Spec.dinvOf (Ein m c) := by
  rw [W2_v13_raw, W1_v9, W1_v12, W1_cst_3]; rfl

theorem W2_arg2 (c : Dev nD) : W2 m ρ c main_arg2 = (Kin m c) :=
  (W2_kept m ρ c main_arg2 (by decide)).trans (W1_kept m ρ c main_arg2 (by decide))

/-! ## The last host operations before the regions: the two arrays spread over the feature columns -/

theorem W3_v15_raw (c : Dev nD) : W3 m ρ c main_v15
    = broadcastInDim S100000x16 ![0, 1] bcast_S100000x1_S100000x16_0_1
        (broadcastInDim S100000x1 ![0] bcast_S100000_S100000x1_0 (W2 m ρ c main_v13)) := by
  show StableHlo.after hostOps0_2 (W2 m ρ c) (Proc.devRef .tc main_v15) = _
  generalize W2 m ρ c = V
  after_results

theorem W3_v15 (c : Dev nD) : W3 m ρ c main_v15 = Cert.Spec.D2 (Ein m c) := by
  rw [W3_v15_raw, W2_v13]; rfl

theorem W3_v18_raw (c : Dev nD) : W3 m ρ c main_v18 = Cert.Spec.M32 (W2 m ρ c main_arg2) := by
  show StableHlo.after hostOps0_2 (W2 m ρ c) (Proc.devRef .tc main_v18) = _
  generalize W2 m ρ c = V
  after_results; rfl

theorem W3_v18 (c : Dev nD) : W3 m ρ c main_v18 = Cert.Spec.M32 (Kin m c) := by
  rw [W3_v18_raw, W2_arg2]

/-! ## The whole-array functions respect equality of their arguments; the aggregation from explicit index vectors -/

theorem scaleZ_congr {X X' D D' : FVec F S100000x16 .f32} (hX : X = X') (hD : D = D') :
    Cert.Spec.scaleZ X D = Cert.Spec.scaleZ X' D' := by subst hX hD; rfl
theorem updY_congr {Y Y' X X' A A' D D' : FVec F S100000x16 .f32} {M M' : IVec S100000x16 32}
    (hY : Y = Y') (hX : X = X') (hA : A = A') (hD : D = D') (hM : M = M') :
    Cert.Spec.updY Y X A D M = Cert.Spec.updY Y' X' A' D' M' := by subst hY hX hA hD hM; rfl
theorem updZ_congr {Y Y' X X' A A' D D' : FVec F S100000x16 .f32} {M M' : IVec S100000x16 32}
    (hY : Y = Y') (hX : X = X') (hA : A = A') (hD : D = D') (hM : M = M') :
    Cert.Spec.updZ Y X A D M = Cert.Spec.updZ Y' X' A' D' M' := by subst hY hX hA hD hM; rfl

/-- The aggregation of Z from a source and a destination index vector: the sources, negative ones wrapped by the number
    of nodes, are the gather's rows; the gathered rows are scatter-added at the destinations. -/
def aggOf (s d : IVec S3200000 32) (Z : FVec F S100000x16 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (Host.gather gather_S100000x16_S3200000x1_S3200000x16_1_0_n_n_0_1_116 Z
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

theorem aggOf_eq (E : IVec S2x3200000 32) (Z : FVec F S100000x16 .f32) :
    aggOf (Cert.Spec.srcOf E) (Cert.Spec.dstOf E) Z = Cert.Spec.agg E Z := rfl

theorem aggOf_congr {s s' d d' : IVec S3200000 32} {Z Z' : FVec F S100000x16 .f32} (hs : s = s') (hd : d = d') (hZ : Z = Z') :
    aggOf s d Z = aggOf s' d' Z' := by subst hs hd hZ; rfl

/-! ## What the regions and the later host operations read of the first ones, carried to every boundary -/

theorem W4_v1 (c : Dev nD) : W4 m ρ c main_v1 = Cert.Spec.srcOf (Ein m c) :=
  (W4_kept m ρ c main_v1 (by decide)).trans <| (W3_kept m ρ c main_v1 (by decide)).trans <| (W2_kept m ρ c main_v1 (by decide)).trans <| (W1_v1 m ρ c)
theorem W6_v1 (c : Dev nD) : W6 m ρ c main_v1 = Cert.Spec.srcOf (Ein m c) :=
  (W6_kept m ρ c main_v1 (by decide)).trans <| (W5_kept m ρ c main_v1 (by decide)).trans <| (W4_v1 m ρ c)
theorem W8_v1 (c : Dev nD) : W8 m ρ c main_v1 = Cert.Spec.srcOf (Ein m c) :=
  (W8_kept m ρ c main_v1 (by decide)).trans <| (W7_kept m ρ c main_v1 (by decide)).trans <| (W6_v1 m ρ c)
theorem W10_v1 (c : Dev nD) : W10 m ρ c main_v1 = Cert.Spec.srcOf (Ein m c) :=
  (W10_kept m ρ c main_v1 (by decide)).trans <| (W9_kept m ρ c main_v1 (by decide)).trans <| (W8_v1 m ρ c)
theorem W12_v1 (c : Dev nD) : W12 m ρ c main_v1 = Cert.Spec.srcOf (Ein m c) :=
  (W12_kept m ρ c main_v1 (by decide)).trans <| (W11_kept m ρ c main_v1 (by decide)).trans <| (W10_v1 m ρ c)

theorem W4_v3 (c : Dev nD) : W4 m ρ c main_v3 = Cert.Spec.dstOf (Ein m c) :=
  (W4_kept m ρ c main_v3 (by decide)).trans <| (W3_kept m ρ c main_v3 (by decide)).trans <| (W2_kept m ρ c main_v3 (by decide)).trans <| (W1_v3 m ρ c)
theorem W6_v3 (c : Dev nD) : W6 m ρ c main_v3 = Cert.Spec.dstOf (Ein m c) :=
  (W6_kept m ρ c main_v3 (by decide)).trans <| (W5_kept m ρ c main_v3 (by decide)).trans <| (W4_v3 m ρ c)
theorem W8_v3 (c : Dev nD) : W8 m ρ c main_v3 = Cert.Spec.dstOf (Ein m c) :=
  (W8_kept m ρ c main_v3 (by decide)).trans <| (W7_kept m ρ c main_v3 (by decide)).trans <| (W6_v3 m ρ c)
theorem W10_v3 (c : Dev nD) : W10 m ρ c main_v3 = Cert.Spec.dstOf (Ein m c) :=
  (W10_kept m ρ c main_v3 (by decide)).trans <| (W9_kept m ρ c main_v3 (by decide)).trans <| (W8_v3 m ρ c)
theorem W12_v3 (c : Dev nD) : W12 m ρ c main_v3 = Cert.Spec.dstOf (Ein m c) :=
  (W12_kept m ρ c main_v3 (by decide)).trans <| (W11_kept m ρ c main_v3 (by decide)).trans <| (W10_v3 m ρ c)

theorem W3_arg1 (c : Dev nD) : W3 m ρ c main_arg1 = (Xin m c) :=
  (W3_kept m ρ c main_arg1 (by decide)).trans <| (W2_kept m ρ c main_arg1 (by decide)).trans <| (W1_kept m ρ c main_arg1 (by decide))
theorem W4_arg1 (c : Dev nD) : W4 m ρ c main_arg1 = (Xin m c) :=
  (W4_kept m ρ c main_arg1 (by decide)).trans <| (W3_arg1 m ρ c)
theorem W5_arg1 (c : Dev nD) : W5 m ρ c main_arg1 = (Xin m c) :=
  (W5_kept m ρ c main_arg1 (by decide)).trans <| (W4_arg1 m ρ c)
theorem W7_arg1 (c : Dev nD) : W7 m ρ c main_arg1 = (Xin m c) :=
  (W7_kept m ρ c main_arg1 (by decide)).trans <| (W6_kept m ρ c main_arg1 (by decide)).trans <| (W5_arg1 m ρ c)
theorem W9_arg1 (c : Dev nD) : W9 m ρ c main_arg1 = (Xin m c) :=
  (W9_kept m ρ c main_arg1 (by decide)).trans <| (W8_kept m ρ c main_arg1 (by decide)).trans <| (W7_arg1 m ρ c)
theorem W11_arg1 (c : Dev nD) : W11 m ρ c main_arg1 = (Xin m c) :=
  (W11_kept m ρ c main_arg1 (by decide)).trans <| (W10_kept m ρ c main_arg1 (by decide)).trans <| (W9_arg1 m ρ c)
theorem W13_arg1 (c : Dev nD) : W13 m ρ c main_arg1 = (Xin m c) :=
  (W13_kept m ρ c main_arg1 (by decide)).trans <| (W12_kept m ρ c main_arg1 (by decide)).trans <| (W11_arg1 m ρ c)

theorem W5_v15 (c : Dev nD) : W5 m ρ c main_v15 = Cert.Spec.D2 (Ein m c) :=
  (W5_kept m ρ c main_v15 (by decide)).trans <| (W4_kept m ρ c main_v15 (by decide)).trans <| (W3_v15 m ρ c)
theorem W7_v15 (c : Dev nD) : W7 m ρ c main_v15 = Cert.Spec.D2 (Ein m c) :=
  (W7_kept m ρ c main_v15 (by decide)).trans <| (W6_kept m ρ c main_v15 (by decide)).trans <| (W5_v15 m ρ c)
theorem W9_v15 (c : Dev nD) : W9 m ρ c main_v15 = Cert.Spec.D2 (Ein m c) :=
  (W9_kept m ρ c main_v15 (by decide)).trans <| (W8_kept m ρ c main_v15 (by decide)).trans <| (W7_v15 m ρ c)
theorem W11_v15 (c : Dev nD) : W11 m ρ c main_v15 = Cert.Spec.D2 (Ein m c) :=
  (W11_kept m ρ c main_v15 (by decide)).trans <| (W10_kept m ρ c main_v15 (by decide)).trans <| (W9_v15 m ρ c)
theorem W13_v15 (c : Dev nD) : W13 m ρ c main_v15 = Cert.Spec.D2 (Ein m c) :=
  (W13_kept m ρ c main_v15 (by decide)).trans <| (W12_kept m ρ c main_v15 (by decide)).trans <| (W11_v15 m ρ c)

theorem W5_v18 (c : Dev nD) : W5 m ρ c main_v18 = Cert.Spec.M32 (Kin m c) :=
  (W5_kept m ρ c main_v18 (by decide)).trans <| (W4_kept m ρ c main_v18 (by decide)).trans <| (W3_v18 m ρ c)
theorem W7_v18 (c : Dev nD) : W7 m ρ c main_v18 = Cert.Spec.M32 (Kin m c) :=
  (W7_kept m ρ c main_v18 (by decide)).trans <| (W6_kept m ρ c main_v18 (by decide)).trans <| (W5_v18 m ρ c)
theorem W9_v18 (c : Dev nD) : W9 m ρ c main_v18 = Cert.Spec.M32 (Kin m c) :=
  (W9_kept m ρ c main_v18 (by decide)).trans <| (W8_kept m ρ c main_v18 (by decide)).trans <| (W7_v18 m ρ c)
theorem W11_v18 (c : Dev nD) : W11 m ρ c main_v18 = Cert.Spec.M32 (Kin m c) :=
  (W11_kept m ρ c main_v18 (by decide)).trans <| (W10_kept m ρ c main_v18 (by decide)).trans <| (W9_v18 m ρ c)
theorem W13_v18 (c : Dev nD) : W13 m ρ c main_v18 = Cert.Spec.M32 (Kin m c) :=
  (W13_kept m ρ c main_v18 (by decide)).trans <| (W12_kept m ρ c main_v18 (by decide)).trans <| (W11_v18 m ρ c)

/-! ## Region 0: the scaled features -/

theorem W4_v19 (c : Dev nD) : W4 m ρ c main_v19 = Cert.Spec.scaleZ (Xin m c) (Cert.Spec.D2 (Ein m c)) :=
  (res0 m ρ c).trans <| scaleZ_congr (W3_arg1 m ρ c) (W3_v15 m ρ c)

/-! ## Region 1: one propagation step -/

/-- The host operations before region 1 aggregate the scaled iterate they find. -/
theorem W5_agg_raw (c : Dev nD) : W5 m ρ c main_v29
    = aggOf (W4 m ρ c main_v1) (W4 m ρ c main_v3) (W4 m ρ c main_v19) := by
  show StableHlo.after hostOps1 (W4 m ρ c) (Proc.devRef .tc main_v29) = _
  generalize W4 m ρ c = V
  after_results_simp; rfl

theorem W5_agg (c : Dev nD) (Z : FVec F S100000x16 .f32) (hz : W4 m ρ c main_v19 = Z) :
    W5 m ρ c main_v29 = Cert.Spec.agg (Ein m c) Z :=
  (W5_agg_raw m ρ c).trans <| (aggOf_congr (W4_v1 m ρ c) (W4_v3 m ρ c) hz).trans (aggOf_eq _ _)

theorem step1_Y (c : Dev nD) (P : FVec F S100000x16 .f32 × FVec F S100000x16 .f32)
    (hy : W4 m ρ c main_arg1 = P.1) (hz : W4 m ρ c main_v19 = P.2) :
    W6 m ρ c main_v30_0 = (Cert.Spec.kstep (Ein m c) (Xin m c) (Kin m c) P).1 :=
  (res1_y m ρ c).trans <|
    updY_congr ((W5_kept m ρ c main_arg1 (by decide)).trans hy) (W5_arg1 m ρ c) (W5_agg m ρ c P.2 hz) (W5_v15 m ρ c) (W5_v18 m ρ c)
theorem step1_Z (c : Dev nD) (P : FVec F S100000x16 .f32 × FVec F S100000x16 .f32)
    (hy : W4 m ρ c main_arg1 = P.1) (hz : W4 m ρ c main_v19 = P.2) :
    W6 m ρ c main_v30_1 = (Cert.Spec.kstep (Ein m c) (Xin m c) (Kin m c) P).2 :=
  (res1_z m ρ c).trans <|
    updZ_congr ((W5_kept m ρ c main_arg1 (by decide)).trans hy) (W5_arg1 m ρ c) (W5_agg m ρ c P.2 hz) (W5_v15 m ρ c) (W5_v18 m ρ c)

/-! ## Region 2: one propagation step -/

/-- The host operations before region 2 aggregate the scaled iterate they find. -/
theorem W7_agg_raw (c : Dev nD) : W7 m ρ c main_v40
    = aggOf (W6 m ρ c main_v1) (W6 m ρ c main_v3) (W6 m ρ c main_v30_1) := by
  show StableHlo.after hostOps2 (W6 m ρ c) (Proc.devRef .tc main_v40) = _
  generalize W6 m ρ c = V
  after_results_simp; rfl

theorem W7_agg (c : Dev nD) (Z : FVec F S100000x16 .f32) (hz : W6 m ρ c main_v30_1 = Z) :
    W7 m ρ c main_v40 = Cert.Spec.agg (Ein m c) Z :=
  (W7_agg_raw m ρ c).trans <| (aggOf_congr (W6_v1 m ρ c) (W6_v3 m ρ c) hz).trans (aggOf_eq _ _)

theorem step2_Y (c : Dev nD) (P : FVec F S100000x16 .f32 × FVec F S100000x16 .f32)
    (hy : W6 m ρ c main_v30_0 = P.1) (hz : W6 m ρ c main_v30_1 = P.2) :
    W8 m ρ c main_v41_0 = (Cert.Spec.kstep (Ein m c) (Xin m c) (Kin m c) P).1 :=
  (res2_y m ρ c).trans <|
    updY_congr ((W7_kept m ρ c main_v30_0 (by decide)).trans hy) (W7_arg1 m ρ c) (W7_agg m ρ c P.2 hz) (W7_v15 m ρ c) (W7_v18 m ρ c)
theorem step2_Z (c : Dev nD) (P : FVec F S100000x16 .f32 × FVec F S100000x16 .f32)
    (hy : W6 m ρ c main_v30_0 = P.1) (hz : W6 m ρ c main_v30_1 = P.2) :
    W8 m ρ c main_v41_1 = (Cert.Spec.kstep (Ein m c) (Xin m c) (Kin m c) P).2 :=
  (res2_z m ρ c).trans <|
    updZ_congr ((W7_kept m ρ c main_v30_0 (by decide)).trans hy) (W7_arg1 m ρ c) (W7_agg m ρ c P.2 hz) (W7_v15 m ρ c) (W7_v18 m ρ c)

/-! ## Region 3: one propagation step -/

/-- The host operations before region 3 aggregate the scaled iterate they find. -/
theorem W9_agg_raw (c : Dev nD) : W9 m ρ c main_v51
    = aggOf (W8 m ρ c main_v1) (W8 m ρ c main_v3) (W8 m ρ c main_v41_1) := by
  show StableHlo.after hostOps3 (W8 m ρ c) (Proc.devRef .tc main_v51) = _
  generalize W8 m ρ c = V
  after_results_simp; rfl

theorem W9_agg (c : Dev nD) (Z : FVec F S100000x16 .f32) (hz : W8 m ρ c main_v41_1 = Z) :
    W9 m ρ c main_v51 = Cert.Spec.agg (Ein m c) Z :=
  (W9_agg_raw m ρ c).trans <| (aggOf_congr (W8_v1 m ρ c) (W8_v3 m ρ c) hz).trans (aggOf_eq _ _)

theorem step3_Y (c : Dev nD) (P : FVec F S100000x16 .f32 × FVec F S100000x16 .f32)
    (hy : W8 m ρ c main_v41_0 = P.1) (hz : W8 m ρ c main_v41_1 = P.2) :
    W10 m ρ c main_v52_0 = (Cert.Spec.kstep (Ein m c) (Xin m c) (Kin m c) P).1 :=
  (res3_y m ρ c).trans <|
    updY_congr ((W9_kept m ρ c main_v41_0 (by decide)).trans hy) (W9_arg1 m ρ c) (W9_agg m ρ c P.2 hz) (W9_v15 m ρ c) (W9_v18 m ρ c)
theorem step3_Z (c : Dev nD) (P : FVec F S100000x16 .f32 × FVec F S100000x16 .f32)
    (hy : W8 m ρ c main_v41_0 = P.1) (hz : W8 m ρ c main_v41_1 = P.2) :
    W10 m ρ c main_v52_1 = (Cert.Spec.kstep (Ein m c) (Xin m c) (Kin m c) P).2 :=
  (res3_z m ρ c).trans <|
    updZ_congr ((W9_kept m ρ c main_v41_0 (by decide)).trans hy) (W9_arg1 m ρ c) (W9_agg m ρ c P.2 hz) (W9_v15 m ρ c) (W9_v18 m ρ c)

/-! ## Region 4: one propagation step -/

/-- The host operations before region 4 aggregate the scaled iterate they find. -/
theorem W11_agg_raw (c : Dev nD) : W11 m ρ c main_v62
    = aggOf (W10 m ρ c main_v1) (W10 m ρ c main_v3) (W10 m ρ c main_v52_1) := by
  show StableHlo.after hostOps4 (W10 m ρ c) (Proc.devRef .tc main_v62) = _
  generalize W10 m ρ c = V
  after_results_simp; rfl

theorem W11_agg (c : Dev nD) (Z : FVec F S100000x16 .f32) (hz : W10 m ρ c main_v52_1 = Z) :
    W11 m ρ c main_v62 = Cert.Spec.agg (Ein m c) Z :=
  (W11_agg_raw m ρ c).trans <| (aggOf_congr (W10_v1 m ρ c) (W10_v3 m ρ c) hz).trans (aggOf_eq _ _)

theorem step4_Y (c : Dev nD) (P : FVec F S100000x16 .f32 × FVec F S100000x16 .f32)
    (hy : W10 m ρ c main_v52_0 = P.1) (hz : W10 m ρ c main_v52_1 = P.2) :
    W12 m ρ c main_v63_0 = (Cert.Spec.kstep (Ein m c) (Xin m c) (Kin m c) P).1 :=
  (res4_y m ρ c).trans <|
    updY_congr ((W11_kept m ρ c main_v52_0 (by decide)).trans hy) (W11_arg1 m ρ c) (W11_agg m ρ c P.2 hz) (W11_v15 m ρ c) (W11_v18 m ρ c)
theorem step4_Z (c : Dev nD) (P : FVec F S100000x16 .f32 × FVec F S100000x16 .f32)
    (hy : W10 m ρ c main_v52_0 = P.1) (hz : W10 m ρ c main_v52_1 = P.2) :
    W12 m ρ c main_v63_1 = (Cert.Spec.kstep (Ein m c) (Xin m c) (Kin m c) P).2 :=
  (res4_z m ρ c).trans <|
    updZ_congr ((W11_kept m ρ c main_v52_0 (by decide)).trans hy) (W11_arg1 m ρ c) (W11_agg m ρ c P.2 hz) (W11_v15 m ρ c) (W11_v18 m ρ c)

/-! ## Region 5: one propagation step -/

/-- The host operations before region 5 aggregate the scaled iterate they find. -/
theorem W13_agg_raw (c : Dev nD) : W13 m ρ c main_v73
    = aggOf (W12 m ρ c main_v1) (W12 m ρ c main_v3) (W12 m ρ c main_v63_1) := by
  show StableHlo.after hostOps5 (W12 m ρ c) (Proc.devRef .tc main_v73) = _
  generalize W12 m ρ c = V
  after_results_simp; rfl

theorem W13_agg (c : Dev nD) (Z : FVec F S100000x16 .f32) (hz : W12 m ρ c main_v63_1 = Z) :
    W13 m ρ c main_v73 = Cert.Spec.agg (Ein m c) Z :=
  (W13_agg_raw m ρ c).trans <| (aggOf_congr (W12_v1 m ρ c) (W12_v3 m ρ c) hz).trans (aggOf_eq _ _)

theorem step5_Y (c : Dev nD) (P : FVec F S100000x16 .f32 × FVec F S100000x16 .f32)
    (hy : W12 m ρ c main_v63_0 = P.1) (hz : W12 m ρ c main_v63_1 = P.2) :
    W14 m ρ c main_v74_0 = (Cert.Spec.kstep (Ein m c) (Xin m c) (Kin m c) P).1 :=
  (res5_y m ρ c).trans <|
    updY_congr ((W13_kept m ρ c main_v63_0 (by decide)).trans hy) (W13_arg1 m ρ c) (W13_agg m ρ c P.2 hz) (W13_v15 m ρ c) (W13_v18 m ρ c)
theorem step5_Z (c : Dev nD) (P : FVec F S100000x16 .f32 × FVec F S100000x16 .f32)
    (hy : W12 m ρ c main_v63_0 = P.1) (hz : W12 m ρ c main_v63_1 = P.2) :
    W14 m ρ c main_v74_1 = (Cert.Spec.kstep (Ein m c) (Xin m c) (Kin m c) P).2 :=
  (res5_z m ρ c).trans <|
    updZ_congr ((W13_kept m ρ c main_v63_0 (by decide)).trans hy) (W13_arg1 m ρ c) (W13_agg m ρ c P.2 hz) (W13_v15 m ρ c) (W13_v18 m ρ c)

/-! ## The five steps in turn -/

/-- The pair (iterate, scaled iterate) the regions start from, and the pair after each step. -/
abbrev P0 (c : Dev nD) : FVec F S100000x16 .f32 × FVec F S100000x16 .f32 := ((Xin m c), Cert.Spec.scaleZ (Xin m c) (Cert.Spec.D2 (Ein m c)))
@[inherit_doc P0] abbrev P1 (c : Dev nD) : FVec F S100000x16 .f32 × FVec F S100000x16 .f32 := Cert.Spec.kstep (Ein m c) (Xin m c) (Kin m c) (P0 m c)
@[inherit_doc P0] abbrev P2 (c : Dev nD) : FVec F S100000x16 .f32 × FVec F S100000x16 .f32 := Cert.Spec.kstep (Ein m c) (Xin m c) (Kin m c) (P1 m c)
@[inherit_doc P0] abbrev P3 (c : Dev nD) : FVec F S100000x16 .f32 × FVec F S100000x16 .f32 := Cert.Spec.kstep (Ein m c) (Xin m c) (Kin m c) (P2 m c)
@[inherit_doc P0] abbrev P4 (c : Dev nD) : FVec F S100000x16 .f32 × FVec F S100000x16 .f32 := Cert.Spec.kstep (Ein m c) (Xin m c) (Kin m c) (P3 m c)
@[inherit_doc P0] abbrev P5 (c : Dev nD) : FVec F S100000x16 .f32 × FVec F S100000x16 .f32 := Cert.Spec.kstep (Ein m c) (Xin m c) (Kin m c) (P4 m c)

theorem pair1 (c : Dev nD) : W6 m ρ c main_v30_0 = (P1 m c).1 ∧ W6 m ρ c main_v30_1 = (P1 m c).2 :=
  ⟨step1_Y m ρ c (P0 m c) (W4_arg1 m ρ c) (W4_v19 m ρ c), step1_Z m ρ c (P0 m c) (W4_arg1 m ρ c) (W4_v19 m ρ c)⟩

theorem pair2 (c : Dev nD) : W8 m ρ c main_v41_0 = (P2 m c).1 ∧ W8 m ρ c main_v41_1 = (P2 m c).2 :=
  ⟨step2_Y m ρ c (P1 m c) (pair1 m ρ c).1 (pair1 m ρ c).2, step2_Z m ρ c (P1 m c) (pair1 m ρ c).1 (pair1 m ρ c).2⟩

theorem pair3 (c : Dev nD) : W10 m ρ c main_v52_0 = (P3 m c).1 ∧ W10 m ρ c main_v52_1 = (P3 m c).2 :=
  ⟨step3_Y m ρ c (P2 m c) (pair2 m ρ c).1 (pair2 m ρ c).2, step3_Z m ρ c (P2 m c) (pair2 m ρ c).1 (pair2 m ρ c).2⟩

theorem pair4 (c : Dev nD) : W12 m ρ c main_v63_0 = (P4 m c).1 ∧ W12 m ρ c main_v63_1 = (P4 m c).2 :=
  ⟨step4_Y m ρ c (P3 m c) (pair3 m ρ c).1 (pair3 m ρ c).2, step4_Z m ρ c (P3 m c) (pair3 m ρ c).1 (pair3 m ρ c).2⟩

theorem pair5 (c : Dev nD) : W14 m ρ c main_v74_0 = (P5 m c).1 ∧ W14 m ρ c main_v74_1 = (P5 m c).2 :=
  ⟨step5_Y m ρ c (P4 m c) (pair4 m ρ c).1 (pair4 m ρ c).2, step5_Z m ρ c (P4 m c) (pair4 m ρ c).1 (pair4 m ρ c).2⟩

/-- The program's result buffer ends at the fifth iterate computed from the argument arrays as launched. -/
theorem kernel_result (c : Dev nD) : W14 m ρ c main_v74_0
    = Cert.Spec.kres (m ((c : Thread nD τ).loc main_arg0)) (m ((c : Thread nD τ).loc main_arg1)) (m ((c : Thread nD τ).loc main_arg2)) :=
  (pair5 m ρ c).1

end Cert.KernelIdeal.Fr

end
-- ==== Proof.RefFrame.lean ====
/-
  The reference program's frame claim: from any memory with zero counters every weakly fair execution of the
  reference's @main terminates, and the three argument arrays end unchanged. It is read off the reference's run
  (its list of host operations run in order: each result buffer ends at the operations' composed term of the
  arguments, the arguments unchanged) by dropping the first conjunct, the result's value.
-/
import proofs.«169070_j69999376990389_2_alg».proof.Defs
import proofs.«169070_j69999376990389_2_alg».proof.Proof.Gen.ReferenceIdeal
import proofs.«169070_j69999376990389_2_alg».proof.Proof.Gen.Pre_finite_inputs
import proofs.«169070_j69999376990389_2_alg».proof.Proof.RefRunP

noncomputable section

open Idealize.ShloMosaic Idealize.ShloMosaic.TcCoe Idealize.SL.Sem

namespace Cert.Proof.RefClaims

theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.RefBridge.lean ====
/-
  The reference's result as the specification's function of the three argument arrays.
  The reference's composed term is, syntactically, five applications of one whole-array step to the features X:
    step Y = where(mask, X, min(1, max(−1, 0·Y + ½·(agg(Y · D) · D) + ½·X))),
  with agg the scatter-add over the destinations of the rows gathered at the (wrapped) sources and D the inverse
  square-root in-degrees spread over the feature columns. The specification spells the same step with splat
  constants and with the mask widened to 32 bits and compared with zero, and carries the scaled iterate Y · D as a
  second component. The two spellings agree: a splat is the broadcast of a scalar constant by definition, and a bit
  widened to 32 bits is nonzero exactly when it is set; the second component of the pair is the first scaled by D
  at every step. Everything is stated for any float interpretation: no law of arithmetic is used.
-/
import proofs.«169070_j69999376990389_2_alg».proof.Proof.RefRunP
import proofs.«169070_j69999376990389_2_alg».proof.Proof.SpecRun

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- A bit widened to 32 bits is nonzero exactly when the bit is set. -/
theorem ne_zero_extui (b : BitVec 1) : IntOp.cmpi .ne (b.setWidth 32) 0#32 = b := by
  rcases BitVec.eq_zero_or_eq_one b with rfl | rfl <;> decide

/-- A splat of a scalar constant is the rank-0 constant broadcast to the shape, by definition. -/
theorem splat (w : BitVec 32) :
    (broadcast Cert.KernelIdeal.S100000x16 (Scalar.ofBits (F := F) .f32 w) : FVec F S100000x16 .f32)
      = broadcastInDim S100000x16 ![] bcast_S_S100000x16 (constant S_ .f32 w) := rfl

/-- The same through an identity function (what an inlined call's argument passing leaves). -/
theorem splat_id (w : BitVec 32) :
    (broadcast Cert.KernelIdeal.S100000x16 (Scalar.ofBits (F := F) .f32 w) : FVec F S100000x16 .f32)
      = broadcastInDim S100000x16 ![] bcast_S_S100000x16 (id (constant S_ .f32 w)) := rfl

/-- Row 0 of the edge array. -/
def rsrc (A : IVec S2x3200000 32) : IVec S3200000 32 :=
  shapeCast S3200000 (extractStridedSlice S1x3200000 ![0, 0] A slices_S2x3200000_S1x3200000_0_0) shapeCasts_S1x3200000_S3200000
/-- Row 1 of the edge array as a column of scatter indices. -/
def rdstCol (A : IVec S2x3200000 32) : IVec S3200000x1 32 :=
  broadcastInDim S3200000x1 ![0] bcast_S3200000_S3200000x1_0 (shapeCast S3200000 (extractStridedSlice S1x3200000 ![1, 0] A slices_S2x3200000_S1x3200000_1_0) shapeCasts_S1x3200000_S3200000)
/-- Row 0 of the edge array, negative entries wrapped by the number of nodes, as a column of gather indices. -/
def rsrcCol (A : IVec S2x3200000 32) : IVec S3200000x1 32 :=
  broadcastInDim S3200000x1 ![0] bcast_S3200000_S3200000x1_0 (select (cmpi .slt ((rsrc A)) (broadcastInDim S3200000 ![] bcast_S_S3200000 (constantI S_ 32 0#32))) (addi ((rsrc A)) (broadcastInDim S3200000 ![] bcast_S_S3200000 (constantI S_ 32 100000#32))) ((rsrc A)))
/-- The in-degrees: ones scatter-added at the destinations. -/
def rdeg (A : IVec S2x3200000 32) : FVec F S100000 .f32 :=
  Host.scatterAdd scatter_S100000_S3200000x1_S3200000_n_0_0_1 (broadcastInDim S100000 ![] bcast_S_S100000 (constant S_ .f32 0x00000000#32)) (rdstCol A) (broadcastInDim S3200000 ![] bcast_S_S3200000 (constant S_ .f32 0x3F800000#32))
/-- deg^(-1/2) where the degree is positive, 0 elsewhere. -/
def rdinv (A : IVec S2x3200000 32) : FVec F S100000 .f32 :=
  select (cmpf (F := F) .ogt (rdeg A) (broadcastInDim S100000 ![] bcast_S_S100000 (constant S_ .f32 0x00000000#32))) (Host.rsqrt (maximumf (rdeg A) (broadcastInDim S100000 ![] bcast_S_S100000 (constant S_ .f32 0x3F800000#32)))) (broadcastInDim S100000 ![] bcast_S_S100000 (id (constant S_ .f32 0x00000000#32)))
/-- The inverse square-root degrees spread over the feature columns. -/
def rD (A : IVec S2x3200000 32) : FVec F S100000x16 .f32 :=
  broadcastInDim S100000x16 ![0, 1] bcast_S100000x1_S100000x16_0_1 (broadcastInDim S100000x1 ![0] bcast_S100000_S100000x1_0 (rdinv A))
/-- The mask spread over the feature columns. -/
def rM (K : IVec S100000 1) : IVec S100000x16 1 :=
  broadcastInDim S100000x16 ![0, 1] bcast_S100000x1_S100000x16_0_1 (broadcastInDim S100000x1 ![0] bcast_S100000_S100000x1_0 K)
/-- One propagation step of the reference, from the iterate Y to the next. -/
def rstep (A : IVec S2x3200000 32) (X : FVec F S100000x16 .f32) (K : IVec S100000 1) (Y : FVec F S100000x16 .f32) :
    FVec F S100000x16 .f32 :=
  select (rM K) X (minimumf (broadcastInDim S100000x16 ![] bcast_S_S100000x16 (id (constant S_ .f32 0x3F800000#32))) (maximumf (broadcastInDim S100000x16 ![] bcast_S_S100000x16 (id (constant S_ .f32 0xBF800000#32))) (addf (addf (mulf (broadcastInDim S100000x16 ![] bcast_S_S100000x16 (constant S_ .f32 0x00000000#32)) Y) (mulf (broadcastInDim S100000x16 ![] bcast_S_S100000x16 (constant S_ .f32 0x3F000000#32)) (mulf (Host.scatterAdd scatter_S100000x16_S3200000x1_S3200000x16_1_0_0_1 (broadcastInDim S100000x16 ![] bcast_S_S100000x16 (constant S_ .f32 0x00000000#32)) (rdstCol A) (Host.gather gather_S100000x16_S3200000x1_S3200000x16_1_0_n_n_0_1_116 (mulf Y (rD A)) (rsrcCol A))) (rD A)))) (mulf (broadcastInDim S100000x16 ![] bcast_S_S100000x16 (constant S_ .f32 0x3F000000#32)) X))))

/-- The kernel's integer mask compared with zero is the reference's mask, entry by entry. -/
theorem mask_eq (K : IVec S100000 1) :
    cmpi .ne (Cert.Spec.M32 K) (broadcast Cert.KernelIdeal.S100000x16 0#32) = rM K := by
  funext i
  exact ne_zero_extui _

/-! The reference's index columns, degrees and scalings are the specification's: the two programs' shape and
    dimension-number constants have equal bodies, and the facts they cite are propositions. -/

set_option maxHeartbeats 400000 in
theorem dstCol_eq (A : IVec S2x3200000 32) : rdstCol A = Cert.Spec.dstCol A := rfl
set_option maxHeartbeats 400000 in
theorem srcCol_eq (A : IVec S2x3200000 32) : rsrcCol A = Cert.Spec.srcCol A := rfl
set_option maxHeartbeats 400000 in
theorem deg_eq (A : IVec S2x3200000 32) : rdeg (F := F) A = Cert.Spec.degOf A := rfl
set_option maxHeartbeats 400000 in
theorem dinv_eq (A : IVec S2x3200000 32) : rdinv (F := F) A = Cert.Spec.dinvOf A := rfl
set_option maxHeartbeats 400000 in
theorem D_eq (A : IVec S2x3200000 32) : rD (F := F) A = Cert.Spec.D2 A := rfl

/-- One step of the reference is the kernel's update of the iterate, at the aggregation of the scaled iterate. -/
theorem rstep_eq (A : IVec S2x3200000 32) (X : FVec F S100000x16 .f32) (K : IVec S100000 1) (Y : FVec F S100000x16 .f32) :
    rstep A X K Y
      = Cert.Spec.updY Y X (Cert.Spec.agg A (mulf Y (Cert.Spec.D2 A))) (Cert.Spec.D2 A) (Cert.Spec.M32 K) := by
  unfold Cert.Spec.updY
  rw [mask_eq]
  rfl

/-- One step on the pair (iterate, scaled iterate), when the second component is the first scaled. -/
theorem kstep_eq (A : IVec S2x3200000 32) (X : FVec F S100000x16 .f32) (K : IVec S100000 1) (Y : FVec F S100000x16 .f32) :
    Cert.Spec.kstep A X K (Y, mulf Y (Cert.Spec.D2 A))
      = (rstep A X K Y, mulf (rstep A X K Y) (Cert.Spec.D2 A)) := by
  have h := rstep_eq (F := F) A X K Y
  show (Cert.Spec.updY Y X (Cert.Spec.agg A (mulf Y (Cert.Spec.D2 A))) (Cert.Spec.D2 A) (Cert.Spec.M32 K),
        mulf (Cert.Spec.updY Y X (Cert.Spec.agg A (mulf Y (Cert.Spec.D2 A))) (Cert.Spec.D2 A) (Cert.Spec.M32 K)) (Cert.Spec.D2 A)) = _
  rw [← h]

/-- Five steps from (X, X · D): the first component follows the reference's step. -/
theorem kres_eq (A : IVec S2x3200000 32) (X : FVec F S100000x16 .f32) (K : IVec S100000 1) :
    Cert.Spec.kres A X K = rstep A X K (rstep A X K (rstep A X K (rstep A X K (rstep A X K X)))) := by
  unfold Cert.Spec.kres Cert.Spec.scaleZ
  rw [kstep_eq, kstep_eq, kstep_eq, kstep_eq, kstep_eq]

set_option maxHeartbeats 400000 in
set_option maxRecDepth 8192 in
/-- The reference's composed term is five of its steps from the features. -/
theorem res_iter (m : (ℓ : Loc nD τ sig) → Buf (Elt F) ℓ) (c : Dev nD) :
    Cert.ReferenceIdeal.ValueP.res_main_v144 (F := F) m c
      = rstep (F := F) (m ((c.tc : Thread nD τ).loc main_arg0)) (m ((c.tc : Thread nD τ).loc main_arg1)) (m ((c.tc : Thread nD τ).loc main_arg2))
          (rstep (m ((c.tc : Thread nD τ).loc main_arg0)) (m ((c.tc : Thread nD τ).loc main_arg1)) (m ((c.tc : Thread nD τ).loc main_arg2))
          (rstep (m ((c.tc : Thread nD τ).loc main_arg0)) (m ((c.tc : Thread nD τ).loc main_arg1)) (m ((c.tc : Thread nD τ).loc main_arg2))
          (rstep (m ((c.tc : Thread nD τ).loc main_arg0)) (m ((c.tc : Thread nD τ).loc main_arg1)) (m ((c.tc : Thread nD τ).loc main_arg2))
          (rstep (m ((c.tc : Thread nD τ).loc main_arg0)) (m ((c.tc : Thread nD τ).loc main_arg1)) (m ((c.tc : Thread nD τ).loc main_arg2))
            (m ((c.tc : Thread nD τ).loc main_arg1)))))) := by
  unfold Cert.ReferenceIdeal.ValueP.res_main_v144
  rfl

/-- The reference's result is the specification's function of the three argument arrays. -/
theorem res_eq (m : (ℓ : Loc nD τ sig) → Buf (Elt F) ℓ) (c : Dev nD) :
    Cert.ReferenceIdeal.ValueP.res_main_v144 (F := F) m c
      = Cert.Spec.kres (m ((c.tc : Thread nD τ).loc main_arg0)) (m ((c.tc : Thread nD τ).loc main_arg1))
          (m ((c.tc : Thread nD τ).loc main_arg2)) :=
  (res_iter m c).trans (kres_eq _ _ _).symm

end Cert.ReferenceIdeal.RefValue

end
-- ==== Proof.lean ====
/- The proof of `Cert.Claim`: the kernel program (a row scaling followed by five masked, clamped propagation steps, each
   step one aggregation on the host and one pointwise region over 25 row blocks) and the reference (the same
   computation as one sequence of whole-array operations) both run from any memory, leave their three argument arrays
   as launched, and at the ideal instance end with the same result array. The three frame claims are read off the
   programs' runs: the kernel's final memory is the last boundary's contents, which no stretch or region changes at
   an argument, at both instances; the reference's run leaves its arguments unchanged. The idealization rewrote no
   operation, so its claim is trivial. For the value claim both results are one function of the argument arrays: five
   steps  Y' = where(mask, X, min(1, max(−1, 0·Y + ½·(agg(Y · D) · D) + ½·X)))  from Y = X, with agg the scatter-add
   over the edges' destinations of the rows gathered at their sources and D the inverse square-root in-degrees; the
   kernel's final memory holds it at the result array, and the reference's composed term is it. -/
import proofs.«169070_j69999376990389_2_alg».proof.Defs
import proofs.«169070_j69999376990389_2_alg».proof.Proof.Gen.Kernel
import proofs.«169070_j69999376990389_2_alg».proof.Proof.Gen.Kernel.Skeleton
import proofs.«169070_j69999376990389_2_alg».proof.Proof.Gen.Kernel.Launch
import proofs.«169070_j69999376990389_2_alg».proof.Proof.Gen.Kernel.Regions
import proofs.«169070_j69999376990389_2_alg».proof.Proof.Gen.Kernel.Points
import proofs.«169070_j69999376990389_2_alg».proof.Proof.Gen.KernelIdeal
import proofs.«169070_j69999376990389_2_alg».proof.Proof.Gen.KernelIdeal.Skeleton
import proofs.«169070_j69999376990389_2_alg».proof.Proof.Gen.KernelIdeal.Launch
import proofs.«169070_j69999376990389_2_alg».proof.Proof.Gen.KernelIdeal.Regions
import proofs.«169070_j69999376990389_2_alg».proof.Proof.Gen.KernelIdeal.Points
import proofs.«169070_j69999376990389_2_alg».proof.Proof.Gen.ReferenceIdeal
import proofs.«169070_j69999376990389_2_alg».proof.Proof.Gen.Pre_finite_inputs
import proofs.«169070_j69999376990389_2_alg».proof.Proof.Kept
import proofs.«169070_j69999376990389_2_alg».proof.Proof.KKept
import proofs.«169070_j69999376990389_2_alg».proof.Proof.KernelValue
import proofs.«169070_j69999376990389_2_alg».proof.Proof.RefFrame
import proofs.«169070_j69999376990389_2_alg».proof.Proof.RefBridge
import Idealize.ShloMosaic.Adequacy
import Idealize.ShloMosaic.Init

noncomputable section

namespace Cert.Proof

open Idealize.ShloMosaic Idealize.ShloMosaic.TcCoe Idealize.SL.Sem

/-- The kernel at the word level runs and leaves its arguments as launched. -/
theorem frame_k : Cert.frame_Kernel := fun m ρ _ => Cert.Kernel.Fr.frame (F := Bits) m ρ

/-- The kernel at the ideal instance runs and leaves its arguments as launched. -/
theorem frame_ki : Cert.frame_KernelIdeal := fun m ρ _ => Cert.KernelIdeal.Fr.frame (F := Ideal) m ρ

/-- The idealization rewrote no operation: there is nothing to restate. -/
theorem preserves : Cert.preserves_Kernel_KernelIdeal := trivial

/-- At the ideal instance, from memories agreeing on the arguments, both programs end with the result array at
    five propagation steps of the argument arrays: the kernel's final memory holds the last boundary's contents,
    which at the result array is that function, and the reference's composed term is the same function. -/
theorem algebraic : Cert.algebraic_KernelIdeal_ReferenceIdeal := by
  intro m ρ m' ρ' _ hagree
  refine ⟨fun c => Cert.Spec.kres (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Fr.mem_uc Cert.KernelIdeal.main_v74_0 (by decide))).trans (Cert.KernelIdeal.Fr.kernel_result m ρ c),
       (h c _ (Cert.KernelIdeal.Fr.mem_uc Cert.KernelIdeal.main_arg0 (by decide))).trans (Cert.KernelIdeal.Fr.W14_main_arg0 m ρ c),
       (h c _ (Cert.KernelIdeal.Fr.mem_uc Cert.KernelIdeal.main_arg1 (by decide))).trans (Cert.KernelIdeal.Fr.W14_main_arg1 m ρ c),
       (h c _ (Cert.KernelIdeal.Fr.mem_uc Cert.KernelIdeal.main_arg2 (by decide))).trans (Cert.KernelIdeal.Fr.W14_main_arg2 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, RefClaims.frame_ri, preserves, algebraic⟩

end Cert.Proof

end
